-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S2x8x128x128 : Shape := ⟨4, ![2, 8, 128, 128]⟩
abbrev S2x8x128 : Shape := ⟨3, ![2, 8, 128]⟩
abbrev S2x384x128 : Shape := ⟨3, ![2, 384, 128]⟩
abbrev S2x384 : Shape := ⟨2, ![2, 384]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x8x128x128 : S_.BroadcastsInDim S2x8x128x128 (![] : Fin 0 → Fin S2x8x128x128.rank)
  reducesTo_S2x8x128x128_S_d0_1_2_3 : S2x8x128x128.ReducesTo [0, 1, 2, 3] S_
  bcast_S_S2x8x128 : S_.BroadcastsInDim S2x8x128 (![] : Fin 0 → Fin S2x8x128.rank)
  reducesTo_S2x8x128_S_d0_1_2 : S2x8x128.ReducesTo [0, 1, 2] S_
  bcast_S_S2x384x128 : S_.BroadcastsInDim S2x384x128 (![] : Fin 0 → Fin S2x384x128.rank)
  reducesTo_S2x384x128_S_d0_1_2 : S2x384x128.ReducesTo [0, 1, 2] S_
  bcast_S_S2x384 : S_.BroadcastsInDim S2x384 (![] : Fin 0 → Fin S2x384.rank)
  reducesTo_S2x384_S_d0_1 : S2x384.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg9 : FVec F S2x384 .f32) (main_arg10 : FVec F S2x384 .f32) (main_arg11 : FVec F S128x128 .f32) (main_arg12 : FVec F S128 .f32) (main_v33 : IVec S_ 1) : IVec S_ 1 :=
  let main_v34 : FVec F S2x384 .f32 := Host.absf main_arg9
  let main_cst_12 : FVec F S_ .f32 := constant S_ .f32 0x7F800000#32
  let main_v35 : FVec F S2x384 .f32 := broadcastInDim S2x384 ![] bcast_S_S2x384 main_cst_12
  let main_v36 : IVec S2x384 1 := cmpf .olt main_v34 main_v35
  let main_c_13 : IVec S_ 1 := constantI S_ 1 1#1
  let main_v37 : IVec S_ 1 := (fun x v => Host.reduce IntOp.andi x v reducesTo_S2x384_S_d0_1 h_S_) main_v36 main_c_13
  let main_v38 : IVec S_ 1 := andi main_v33 main_v37
  let main_v39 : FVec F S2x384 .f32 := Host.absf main_arg10
  let main_cst_14 : FVec F S_ .f32 := constant S_ .f32 0x7F800000#32
  let main_v40 : FVec F S2x384 .f32 := broadcastInDim S2x384 ![] bcast_S_S2x384 main_cst_14
  let main_v41 : IVec S2x384 1 := cmpf .olt main_v39 main_v40
  let main_c_15 : IVec S_ 1 := constantI S_ 1 1#1
  let main_v42 : IVec S_ 1 := (fun x v => Host.reduce IntOp.andi x v reducesTo_S2x384_S_d0_1 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg6 : FVec F S2x8x128 .f32) (main_arg7 : FVec F S2x384x128 .f32) (main_arg8 : FVec F S2x384x128 .f32) (main_arg9 : FVec F S2x384 .f32) (main_arg10 : FVec F S2x384 .f32) (main_arg11 : FVec F S128x128 .f32) (main_arg12 : FVec F S128 .f32) (main_v13 : IVec S_ 1) (main_v16 : IVec S2x8x128x128 1) : IVec S_ 1 :=
  let main_c_5 : IVec S_ 1 := constantI S_ 1 1#1
  let main_v17 : IVec S_ 1 := (fun x v => Host.reduce IntOp.andi x v reducesTo_S2x8x128x128_S_d0_1_2_3 h_S_) main_v16 main_c_5
  let main_v18 : IVec S_ 1 := andi main_v13 main_v17
  let main_v19 : FVec F S2x8x128 .f32 := Host.absf main_arg6
  let main_cst_6 : FVec F S_ .f32 := constant S_ .f32 0x7F800000#32
  let main_v20 : FVec F S2x8x128 .f32 := broadcastInDim S2x8x128 ![] bcast_S_S2x8x128 main_cst_6
  let main_v21 : IVec S2x8x128 1 := cmpf .olt main_v19 main_v20
  let main_c_7 : IVec S_ 1 := constantI S_ 1 1#1
  let main_v22 : IVec S_ 1 := (fun x v => Host.reduce IntOp.andi x v reducesTo_S2x8x128_S_d0_1_2 h_S_) main_v21 main_c_7
  let main_v23 : IVec S_ 1 := andi main_v18 main_v22
  let main_v24 : FVec F S2x384x128 .f32 := Host.absf main_arg7
  let main_cst_8 : FVec F S_ .f32 := constant S_ .f32 0x7F800000#32
  let main_v25 : FVec F S2x384x128 .f32 := broadcastInDim S2x384x128 ![] bcast_S_S2x384x128 main_cst_8
  let main_v26 : IVec S2x384x128 1 := cmpf .olt main_v24 main_v25
  let main_c_9 : IVec S_ 1 := constantI S_ 1 1#1
  let main_v27 : IVec S_ 1 := (fun x v => Host.reduce IntOp.andi x v reducesTo_S2x384x128_S_d0_1_2 h_S_) main_v26 main_c_9
  let main_v28 : IVec S_ 1 := andi main_v23 main_v27
  let main_v29 : FVec F S2x384x128 .f32 := Host.absf main_arg8
  let main_cst_10 : FVec F S_ .f32 := constant S_ .f32 0x7F800000#32
  let main_v30 : FVec F S2x384x128 .f32 := broadcastInDim S2x384x128 ![] bcast_S_S2x384x128 main_cst_10
  let main_v31 : IVec S2x384x128 1 := cmpf .olt main_v29 main_v30
  let main_c_11 : IVec S_ 1 := constantI S_ 1 1#1
  let main_v32 : IVec S_ 1 := (fun x v => Host.reduce IntOp.andi x v reducesTo_S2x384x128_S_d0_1_2 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x600000 32) (main_arg2 : IVec S600000 32) (main_arg3 : FVec F S128x128 .f32) (main_arg4 : FVec F S128 .f32) (main_arg5 : FVec F S2x8x128x128 .f32) (main_arg6 : FVec F S2x8x128 .f32) (main_arg7 : FVec F S2x384x128 .f32) (main_arg8 : FVec F S2x384x128 .f32) (main_arg9 : FVec F S2x384 .f32) (main_arg10 : FVec F S2x384 .f32) (main_arg11 : FVec F S128x128 .f32) (main_arg12 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S2x8x128x128 .f32 := Host.absf main_arg5
  let main_cst_4 : FVec F S_ .f32 := constant S_ .f32 0x7F800000#32
  let main_v15 : FVec F S2x8x128x128 .f32 := broadcastInDim S2x8x128x128 ![] bcast_S_S2x8x128x128 main_cst_4
  let main_v16 : IVec S2x8x128x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S2x8x128x128 : Shape := ⟨4, ![2, 8, 128, 128]⟩
abbrev S2x8x128 : Shape := ⟨3, ![2, 8, 128]⟩
abbrev S2x384x128 : Shape := ⟨3, ![2, 384, 128]⟩
abbrev S2x384 : Shape := ⟨2, ![2, 384]⟩
abbrev S1x600000 : Shape := ⟨2, ![1, 600000]⟩
abbrev S1x128 : Shape := ⟨2, ![1, 128]⟩
abbrev S2000x128 : Shape := ⟨2, ![2000, 128]⟩
abbrev S1x8x128x128 : Shape := ⟨4, ![1, 8, 128, 128]⟩
abbrev S8x128x128 : Shape := ⟨3, ![8, 128, 128]⟩
abbrev S100000x1024 : Shape := ⟨2, ![100000, 1024]⟩
abbrev S2000x1024 : Shape := ⟨2, ![2000, 1024]⟩
abbrev S1x128x128 : Shape := ⟨3, ![1, 128, 128]⟩
abbrev S100000x8x128 : Shape := ⟨3, ![100000, 8, 128]⟩
abbrev S_ : Shape := ⟨0, ![]⟩
abbrev S600000x1 : Shape := ⟨2, ![600000, 1]⟩
abbrev S600000x2 : Shape := ⟨2, ![600000, 2]⟩
abbrev S600000x128 : Shape := ⟨2, ![600000, 128]⟩
abbrev S1x384x128 : Shape := ⟨3, ![1, 384, 128]⟩
abbrev S384x128 : Shape := ⟨2, ![384, 128]⟩
abbrev S1x384 : Shape := ⟨2, ![1, 384]⟩
abbrev S384 : Shape := ⟨1, ![384]⟩
abbrev S2000x384 : Shape := ⟨2, ![2000, 384]⟩

abbrev nBuf : Space → Nat
  | .hbm => 95
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S2x8x128x128, .f32⟩
  | .hbm, ⟨6, _⟩ => ⟨S2x8x128, .f32⟩
  | .hbm, ⟨7, _⟩ => ⟨S2x384x128, .f32⟩
  | .hbm, ⟨8, _⟩ => ⟨S2x384x128, .f32⟩
  | .hbm, ⟨9, _⟩ => ⟨S2x384, .f32⟩
  | .hbm, ⟨10, _⟩ => ⟨S2x384, .f32⟩
  | .hbm, ⟨11, _⟩ => ⟨S128x128, .f32⟩
  | .hbm, ⟨12, _⟩ => ⟨S128, .f32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S1x128, .f32⟩
  | .hbm, ⟨18, _⟩ => ⟨S100000x128, .f32⟩
  | .hbm, ⟨19, _⟩ => ⟨S1x8x128x128, .f32⟩
  | .hbm, ⟨20, _⟩ => ⟨S8x128x128, .f32⟩
  | .hbm, ⟨21, _⟩ => ⟨S100000x1024, .f32⟩
  | .hbm, ⟨22, _⟩ => ⟨S100000x8x128, .f32⟩
  | .hbm, ⟨23, _⟩ => ⟨S_, .i32⟩
  | .hbm, ⟨24, _⟩ => ⟨S600000, .i32⟩
  | .hbm, ⟨25, _⟩ => ⟨S600000, .i1⟩
  | .hbm, ⟨26, _⟩ => ⟨S_, .i32⟩
  | .hbm, ⟨27, _⟩ => ⟨S600000, .i32⟩
  | .hbm, ⟨28, _⟩ => ⟨S600000, .i32⟩
  | .hbm, ⟨29, _⟩ => ⟨S600000, .i32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x1, .i32⟩
  | .hbm, ⟨39, _⟩ => ⟨S600000x2, .i32⟩
  | .hbm, ⟨40, _⟩ => ⟨S600000x128, .f32⟩
  | .hbm, ⟨41, _⟩ => ⟨S_, .f32⟩
  | .hbm, ⟨42, _⟩ => ⟨S100000x128, .f32⟩
  | .hbm, ⟨43, _⟩ => ⟨S600000x1, .i32⟩
  | .hbm, ⟨44, _⟩ => ⟨S100000x128, .f32⟩
  | .hbm, ⟨45, _⟩ => ⟨S1x384x128, .f32⟩
  | .hbm, ⟨46, _⟩ => ⟨S384x128, .f32⟩
  | .hbm, ⟨47, _⟩ => ⟨S1x384x128, .f32⟩
  | .hbm, ⟨48, _⟩ => ⟨S384x128, .f32⟩
  | .hbm, ⟨49, _⟩ => ⟨S1x384, .f32⟩
  | .hbm, ⟨50, _⟩ => ⟨S384, .f32⟩
  | .hbm, ⟨51, _⟩ => ⟨S1x384, .f32⟩
  | .hbm, ⟨52, _⟩ => ⟨S384, .f32⟩
  | .hbm, ⟨53, _⟩ => ⟨S1x384, .f32⟩
  | .hbm, ⟨54, _⟩ => ⟨S1x384, .f32⟩
  | .hbm, ⟨55, _⟩ => ⟨S100000x128, .f32⟩
  | .hbm, ⟨56, _⟩ => ⟨S1x8x128x128, .f32⟩
  | .hbm, ⟨57, _⟩ => ⟨S8x128x128, .f32⟩
  | .hbm, ⟨58, _⟩ => ⟨S100000x1024, .f32⟩
  | .hbm, ⟨59, _⟩ => ⟨S100000x8x128, .f32⟩
  | .hbm, ⟨60, _⟩ => ⟨S_, .i32⟩
  | .hbm, ⟨61, _⟩ => ⟨S600000, .i32⟩
  | .hbm, ⟨62, _⟩ => ⟨S600000, .i1⟩
  | .hbm, ⟨63, _⟩ => ⟨S_, .i32⟩
  | .hbm, ⟨64, _⟩ => ⟨S600000, .i32⟩
  | .hbm, ⟨65, _⟩ => ⟨S600000, .i32⟩
  | .hbm, ⟨66, _⟩ => ⟨S600000, .i32⟩
  | .hbm, ⟨67, _⟩ => ⟨S_, .i32⟩
  | .hbm, ⟨68, _⟩ => ⟨S600000, .i32⟩
  | .hbm, ⟨69, _⟩ => ⟨S600000, .i1⟩
  | .hbm, ⟨70, _⟩ => ⟨S_, .i32⟩
  | .hbm, ⟨71, _⟩ => ⟨S600000, .i32⟩
  | .hbm, ⟨72, _⟩ => ⟨S600000, .i32⟩
  | .hbm, ⟨73, _⟩ => ⟨S600000, .i32⟩
  | .hbm, ⟨74, _⟩ => ⟨S600000x1, .i32⟩
  | .hbm, ⟨75, _⟩ => ⟨S600000x1, .i32⟩
  | .hbm, ⟨76, _⟩ => ⟨S600000x2, .i32⟩
  | .hbm, ⟨77, _⟩ => ⟨S600000x128, .f32⟩
  | .hbm, ⟨78, _⟩ => ⟨S_, .f32⟩
  | .hbm, ⟨79, _⟩ => ⟨S100000x128, .f32⟩
  | .hbm, ⟨80, _⟩ => ⟨S600000x1, .i32⟩
  | .hbm, ⟨81, _⟩ => ⟨S100000x128, .f32⟩
  | .hbm, ⟨82, _⟩ => ⟨S1x384x128, .f32⟩
  | .hbm, ⟨83, _⟩ => ⟨S384x128, .f32⟩
  | .hbm, ⟨84, _⟩ => ⟨S1x384x128, .f32⟩
  | .hbm, ⟨85, _⟩ => ⟨S384x128, .f32⟩
  | .hbm, ⟨86, _⟩ => ⟨S1x384, .f32⟩
  | .hbm, ⟨87, _⟩ => ⟨S384, .f32⟩
  | .hbm, ⟨88, _⟩ => ⟨S1x384, .f32⟩
  | .hbm, ⟨89, _⟩ => ⟨S384, .f32⟩
  | .hbm, ⟨90, _⟩ => ⟨S1x384, .f32⟩
  | .hbm, ⟨91, _⟩ => ⟨S1x384, .f32⟩
  | .hbm, ⟨92, _⟩ => ⟨S100000x128, .f32⟩
  | .hbm, ⟨93, _⟩ => ⟨S1x128, .f32⟩
  | .hbm, ⟨94, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S8x128x128, .f32⟩
  | .local _ .vmem, ⟨9, _⟩ => ⟨S2000x1024, .f32⟩
  | .local _ .vmem, ⟨10, _⟩ => ⟨S2000x1024, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S384x128, .f32⟩
  | .local _ .vmem, ⟨16, _⟩ => ⟨S384x128, .f32⟩
  | .local _ .vmem, ⟨17, _⟩ => ⟨S1x384, .f32⟩
  | .local _ .vmem, ⟨18, _⟩ => ⟨S1x384, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S8x128x128, .f32⟩
  | .local _ .vmem, ⟨24, _⟩ => ⟨S2000x1024, .f32⟩
  | .local _ .vmem, ⟨25, _⟩ => ⟨S2000x1024, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S384x128, .f32⟩
  | .local _ .vmem, ⟨31, _⟩ => ⟨S384x128, .f32⟩
  | .local _ .vmem, ⟨32, _⟩ => ⟨S1x384, .f32⟩
  | .local _ .vmem, ⟨33, _⟩ => ⟨S1x384, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S128x128, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_1 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_3 : Ref sig .tc := ⟨.hbm, 60, rfl⟩
abbrev main_v42 : Ref sig .tc := ⟨.hbm, 61, rfl⟩
abbrev main_v43 : Ref sig .tc := ⟨.hbm, 62, rfl⟩
abbrev main_c_4 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_5 : Ref sig .tc := ⟨.hbm, 67, rfl⟩
abbrev main_v47 : Ref sig .tc := ⟨.hbm, 68, rfl⟩
abbrev main_v48 : Ref sig .tc := ⟨.hbm, 69, rfl⟩
abbrev main_c_6 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_7 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg6_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg5_0 : Ref sig .tc := ⟨.vmem, 33, rfl⟩
abbrev cc4_stg6_0 : Ref sig .tc := ⟨.vmem, 34, rfl⟩
abbrev cc4_stg6_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem6_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem3_0 : DmaSem sig := 31
abbrev cc4_sem4_0 : DmaSem sig := 32
abbrev cc4_sem5_0 : DmaSem sig := 33
abbrev cc4_sem6_0 : DmaSem sig := 34
abbrev cc4_sem6_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem3_1 : DmaSem sig := 41

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S384x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S384x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x384 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8x128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S384x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S384x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x384 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x384 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S2x8x128x128_S1x8x128x128_0_0_0_0 : S2x8x128x128.Slices ![0, 0, 0, 0] S1x8x128x128
  shapeCasts_S1x8x128x128_S8x128x128 : S1x8x128x128.ShapeCasts S8x128x128
  shapeCasts_S2000x128_S2000x128 : S2000x128.ShapeCasts S2000x128
  inb_S8x128x128_S1x128x128_0_0_0 : ∀ a, (![0, 0, 0] : Fin 3 → Nat) a + S1x128x128.size a ≤ S8x128x128.size a
  h_S1x128x128 : 0 < S1x128x128.numel
  shapeCasts_S1x128x128_S128x128 : S1x128x128.ShapeCasts S128x128
  inb_S2000x1024_S2000x128_0_0 : ∀ a, (![0, 0] : Fin 2 → Nat) a + S2000x128.size a ≤ S2000x1024.size a
  inb_S8x128x128_S1x128x128_1_0_0 : ∀ a, (![1, 0, 0] : Fin 3 → Nat) a + S1x128x128.size a ≤ S8x128x128.size a
  inb_S2000x1024_S2000x128_0_128 : ∀ a, (![0, 128] : Fin 2 → Nat) a + S2000x128.size a ≤ S2000x1024.size a
  inb_S8x128x128_S1x128x128_2_0_0 : ∀ a, (![2, 0, 0] : Fin 3 → Nat) a + S1x128x128.size a ≤ S8x128x128.size a
  inb_S2000x1024_S2000x128_0_256 : ∀ a, (![0, 256] : Fin 2 → Nat) a + S2000x128.size a ≤ S2000x1024.size a
  inb_S8x128x128_S1x128x128_3_0_0 : ∀ a, (![3, 0, 0] : Fin 3 → Nat) a + S1x128x128.size a ≤ S8x128x128.size a
  inb_S2000x1024_S2000x128_0_384 : ∀ a, (![0, 384] : Fin 2 → Nat) a + S2000x128.size a ≤ S2000x1024.size a
  inb_S8x128x128_S1x128x128_4_0_0 : ∀ a, (![4, 0, 0] : Fin 3 → Nat) a + S1x128x128.size a ≤ S8x128x128.size a
  inb_S2000x1024_S2000x128_0_512 : ∀ a, (![0, 512] : Fin 2 → Nat) a + S2000x128.size a ≤ S2000x1024.size a
  inb_S8x128x128_S1x128x128_5_0_0 : ∀ a, (![5, 0, 0] : Fin 3 → Nat) a + S1x128x128.size a ≤ S8x128x128.size a
  inb_S2000x1024_S2000x128_0_640 : ∀ a, (![0, 640] : Fin 2 → Nat) a + S2000x128.size a ≤ S2000x1024.size a
  inb_S8x128x128_S1x128x128_6_0_0 : ∀ a, (![6, 0, 0] : Fin 3 → Nat) a + S1x128x128.size a ≤ S8x128x128.size a
  inb_S2000x1024_S2000x128_0_768 : ∀ a, (![0, 768] : Fin 2 → Nat) a + S2000x128.size a ≤ S2000x1024.size a
  inb_S8x128x128_S1x128x128_7_0_0 : ∀ a, (![7, 0, 0] : Fin 3 → Nat) a + S1x128x128.size a ≤ S8x128x128.size a
  inb_S2000x1024_S2000x128_0_896 : ∀ a, (![0, 896] : Fin 2 → Nat) a + S2000x128.size a ≤ S2000x1024.size a
  shapeCasts_S100000x1024_S100000x8x128 : S100000x1024.ShapeCasts S100000x8x128
  bcast_S_S600000 : S_.BroadcastsInDim S600000 (![] : Fin 0 → Fin S600000.rank)
  bcast_S600000_S600000x1_0 : S600000.BroadcastsInDim S600000x1 (![0] : Fin 1 → Fin S600000x1.rank)
  concatenates_S600000x1_S600000x1_S600000x2_d1 : Shape.Concatenates [S600000x1, S600000x1] S600000x2 1
  bcast_S_S100000x128 : S_.BroadcastsInDim S100000x128 (![] : Fin 0 → Fin S100000x128.rank)
  slices_S2x384x128_S1x384x128_0_0_0 : S2x384x128.Slices ![0, 0, 0] S1x384x128
  shapeCasts_S1x384x128_S384x128 : S1x384x128.ShapeCasts S384x128
  slices_S2x384_S1x384_0_0 : S2x384.Slices ![0, 0] S1x384
  shapeCasts_S1x384_S384 : S1x384.ShapeCasts S384
  shapeCasts_S384_S1x384 : S384.ShapeCasts S1x384
  inb_S384x128_S384x128_0_0 : ∀ a, (![0, 0] : Fin 2 → Nat) a + S384x128.size a ≤ S384x128.size a
  h_S384x128 : 0 < S384x128.numel
  shapeCasts_S384x128_S384x128 : S384x128.ShapeCasts S384x128
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  slices_S2x8x128x128_S1x8x128x128_1_0_0_0 : S2x8x128x128.Slices ![1, 0, 0, 0] S1x8x128x128
  slices_S2x384x128_S1x384x128_1_0_0 : S2x384x128.Slices ![1, 0, 0] S1x384x128
  slices_S2x384_S1x384_1_0 : S2x384.Slices ![1, 0] S1x384
  dot_S2000x128_S128x128_S2000x128_1_1_0_0_n_n_wf : DotDims.WF S2000x128 S128x128 S2000x128 [1] [1] [0] [0] [] []
  gather_S100000x8x128_S600000x2_S600000x128_1_01_n_n_01_1_11128_wf : GatherDims.WF S100000x8x128 S600000x2 S600000x128 [1] [0, 1] [] [0, 1] [] 1 ![1, 1, 128]
  scatter_S100000x128_S600000x1_S600000x128_1_0_0_1_wf : ScatterDims.WF S100000x128 S600000x1 S600000x128 [1] [0] [0] 1
  dot_S2000x128_S384x128_S2000x384_1_1_0_0_n_n_wf : DotDims.WF S2000x128 S384x128 S2000x384 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x128x128.size a ≤ S8x128x128.size a
  hwx1_1 : ∀ i : grid1.Coords, EltTy.bits .f32 = 32 ∨ (Rect.block (s := S8x128x128) S8x128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1024.size a ≤ S100000x1024.size a
  hwx1_2 : ∀ i : grid1.Coords, EltTy.bits .f32 = 32 ∨ (Rect.block (s := S100000x1024) S2000x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S384x128.size a ≤ S384x128.size a
  hwx2_2 : ∀ i : grid2.Coords, EltTy.bits .f32 = 32 ∨ (Rect.block (s := S384x128) S384x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S384x128.size a ≤ S384x128.size a
  hwx2_3 : ∀ i : grid2.Coords, EltTy.bits .f32 = 32 ∨ (Rect.block (s := S384x128) S384x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x384.size a ≤ S1x384.size a
  hwx2_4 : ∀ i : grid2.Coords, EltTy.bits .f32 = 32 ∨ (Rect.block (s := S1x384) S1x384.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x384.size a ≤ S1x384.size a
  hwx2_5 : ∀ i : grid2.Coords, EltTy.bits .f32 = 32 ∨ (Rect.block (s := S1x384) S1x384.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .f32 = 32 ∨ (Rect.block (s := S100000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8x128x128.size a ≤ S8x128x128.size a
  hwx3_1 : ∀ i : grid3.Coords, EltTy.bits .f32 = 32 ∨ (Rect.block (s := S8x128x128) S8x128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1024.size a ≤ S100000x1024.size a
  hwx3_2 : ∀ i : grid3.Coords, EltTy.bits .f32 = 32 ∨ (Rect.block (s := S100000x1024) S2000x1024.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S384x128.size a ≤ S384x128.size a
  hwx4_2 : ∀ i : grid4.Coords, EltTy.bits .f32 = 32 ∨ (Rect.block (s := S384x128) S384x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S384x128.size a ≤ S384x128.size a
  hwx4_3 : ∀ i : grid4.Coords, EltTy.bits .f32 = 32 ∨ (Rect.block (s := S384x128) S384x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x384.size a ≤ S1x384.size a
  hwx4_4 : ∀ i : grid4.Coords, EltTy.bits .f32 = 32 ∨ (Rect.block (s := S1x384) S1x384.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x384.size a ≤ S1x384.size a
  hwx4_5 : ∀ i : grid4.Coords, EltTy.bits .f32 = 32 ∨ (Rect.block (s := S1x384) S1x384.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S100000x128.size a
  hwx4_6 : ∀ i : grid4.Coords, EltTy.bits .f32 = 32 ∨ (Rect.block (s := S100000x128) S2000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S100000x128.size a
  hwx5_3 : ∀ i : grid5.Coords, EltTy.bits .f32 = 32 ∨ (Rect.block (s := S100000x128) S2000x128.size (cc5_transform_3 i) (hinb5_3 i)).WholeWords (EltTy.packing .f32)

variable [Facts₀]

def dot_S2000x128_S128x128_S2000x128_1_1_0_0_n_n : DotDims S2000x128 S128x128 S2000x128 where
  lhsContracting := [1]
  rhsContracting := [1]
  lhsNonContracting := [0]
  rhsNonContracting := [0]
  lhsBatch := []
  rhsBatch := []
  wf := dot_S2000x128_S128x128_S2000x128_1_1_0_0_n_n_wf
def gather_S100000x8x128_S600000x2_S600000x128_1_01_n_n_01_1_11128 : GatherDims S100000x8x128 S600000x2 S600000x128 where
  offsetDims := [1]
  collapsedSliceDims := [0, 1]
  operandBatchingDims := []
  startIndicesBatchingDims := []
  startIndexMap := [0, 1]
  indexVectorDim := 1
  sliceSizes := ![1, 1, 128]
  wf := gather_S100000x8x128_S600000x2_S600000x128_1_01_n_n_01_1_11128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S2000x128_S384x128_S2000x384_1_1_0_0_n_n : DotDims S2000x128 S384x128 S2000x384 where
  lhsContracting := [1]
  rhsContracting := [1]
  lhsNonContracting := [0]
  rhsNonContracting := [0]
  lhsBatch := []
  rhsBatch := []
  wf := dot_S2000x128_S384x128_S2000x384_1_1_0_0_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S8x128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S2000x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v26) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S384x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S384x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S1x384.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S1x384.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v37) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v37) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S8x128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v40) S2000x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v58) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v37) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v60) S384x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v62) S384x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v67) S1x384.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v68) S1x384.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v69) S2000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v69) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg11) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v70) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v71) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S2x8x128x128 : Shape := ⟨4, ![2, 8, 128, 128]⟩
abbrev S2x8x128 : Shape := ⟨3, ![2, 8, 128]⟩
abbrev S2x384x128 : Shape := ⟨3, ![2, 384, 128]⟩
abbrev S2x384 : Shape := ⟨2, ![2, 384]⟩
abbrev S1x600000 : Shape := ⟨2, ![1, 600000]⟩
abbrev S1x128 : Shape := ⟨2, ![1, 128]⟩
abbrev S_ : Shape := ⟨0, ![]⟩
abbrev S1x8x128x128 : Shape := ⟨4, ![1, 8, 128, 128]⟩
abbrev S8x128x128 : Shape := ⟨3, ![8, 128, 128]⟩
abbrev S8x128x100000 : Shape := ⟨3, ![8, 128, 100000]⟩
abbrev S8x100000x128 : Shape := ⟨3, ![8, 100000, 128]⟩
abbrev S600000x1 : Shape := ⟨2, ![600000, 1]⟩
abbrev S600000x2 : Shape := ⟨2, ![600000, 2]⟩
abbrev S600000x128 : Shape := ⟨2, ![600000, 128]⟩
abbrev S1x384x128 : Shape := ⟨3, ![1, 384, 128]⟩
abbrev S384x128 : Shape := ⟨2, ![384, 128]⟩
abbrev S1x384 : Shape := ⟨2, ![1, 384]⟩
abbrev S384 : Shape := ⟨1, ![384]⟩
abbrev S128x384 : Shape := ⟨2, ![128, 384]⟩
abbrev S100000x384 : Shape := ⟨2, ![100000, 384]⟩

abbrev nBuf : Space → Nat
  | .hbm => 190
  | .vmem => 0
  | .smem => 0
  | _ => 0

abbrev hbmTy0_0 (i : Nat) : BufTy := match i % 128 with
  | 0 => ⟨S100000x128, .f32⟩
  | 1 => ⟨S2x600000, .i32⟩
  | 2 => ⟨S600000, .i32⟩
  | 3 => ⟨S128x128, .f32⟩
  | 4 => ⟨S128, .f32⟩
  | 5 => ⟨S2x8x128x128, .f32⟩
  | 6 => ⟨S2x8x128, .f32⟩
  | 7 => ⟨S2x384x128, .f32⟩
  | 8 => ⟨S2x384x128, .f32⟩
  | 9 => ⟨S2x384, .f32⟩
  | 10 => ⟨S2x384, .f32⟩
  | 11 => ⟨S128x128, .f32⟩
  | 12 => ⟨S128, .f32⟩
  | 13 => ⟨S1x600000, .i32⟩
  | 14 => ⟨S600000, .i32⟩
  | 15 => ⟨S1x600000, .i32⟩
  | 16 => ⟨S600000, .i32⟩
  | 17 => ⟨S128x128, .f32⟩
  | 18 => ⟨S100000x128, .f32⟩
  | 19 => ⟨S1x128, .f32⟩
  | 20 => ⟨S100000x128, .f32⟩
  | 21 => ⟨S100000x128, .f32⟩
  | 22 => ⟨S_, .f32⟩
  | 23 => ⟨S100000x128, .f32⟩
  | 24 => ⟨S100000x128, .f32⟩
  | 25 => ⟨S1x8x128x128, .f32⟩
  | 26 => ⟨S8x128x128, .f32⟩
  | 27 => ⟨S8x128x100000, .f32⟩
  | 28 => ⟨S8x100000x128, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S_, .i32⟩
  | 37 => ⟨S600000, .i32⟩
  | 38 => ⟨S600000, .i1⟩
  | 39 => ⟨S_, .i32⟩
  | 40 => ⟨S600000, .i32⟩
  | 41 => ⟨S600000, .i32⟩
  | 42 => ⟨S600000, .i32⟩
  | 43 => ⟨S600000x1, .i32⟩
  | 44 => ⟨S600000x1, .i32⟩
  | 45 => ⟨S600000x2, .i32⟩
  | 46 => ⟨S600000x128, .f32⟩
  | 47 => ⟨S_, .f32⟩
  | 48 => ⟨S100000x128, .f32⟩
  | 49 => ⟨S600000x1, .i32⟩
  | 50 => ⟨S100000x128, .f32⟩
  | 51 => ⟨S1x384x128, .f32⟩
  | 52 => ⟨S384x128, .f32⟩
  | 53 => ⟨S1x384x128, .f32⟩
  | 54 => ⟨S384x128, .f32⟩
  | 55 => ⟨S1x384, .f32⟩
  | 56 => ⟨S384, .f32⟩
  | 57 => ⟨S1x384, .f32⟩
  | 58 => ⟨S384, .f32⟩
  | 59 => ⟨S128x384, .f32⟩
  | 60 => ⟨S100000x384, .f32⟩
  | 61 => ⟨S1x384, .f32⟩
  | 62 => ⟨S100000x384, .f32⟩
  | 63 => ⟨S100000x384, .f32⟩
  | 64 => ⟨S128x384, .f32⟩
  | 65 => ⟨S100000x384, .f32⟩
  | 66 => ⟨S1x384, .f32⟩
  | 67 => ⟨S100000x384, .f32⟩
  | 68 => ⟨S100000x384, .f32⟩
  | 69 => ⟨S100000x128, .f32⟩
  | 70 => ⟨S100000x128, .f32⟩
  | 71 => ⟨S100000x128, .f32⟩
  | 72 => ⟨S100000x128, .f32⟩
  | 73 => ⟨S100000x128, .f32⟩
  | 74 => ⟨S100000x128, .f32⟩
  | 75 => ⟨S100000x128, .f32⟩
  | 76 => ⟨S100000x128, .f32⟩
  | 77 => ⟨S100000x128, .f32⟩
  | 78 => ⟨S_, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S100000x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S100000x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S100000x128, .f32⟩
  | 100 => ⟨S100000x128, .f32⟩
  | 101 => ⟨S100000x128, .f32⟩
  | 102 => ⟨S_, .f32⟩
  | 103 => ⟨S100000x128, .f32⟩
  | 104 => ⟨S100000x128, .f32⟩
  | 105 => ⟨S1x8x128x128, .f32⟩
  | 106 => ⟨S8x128x128, .f32⟩
  | 107 => ⟨S8x128x100000, .f32⟩
  | 108 => ⟨S8x100000x128, .f32⟩
  | 109 => ⟨S_, .i32⟩
  | 110 => ⟨S600000, .i32⟩
  | 111 => ⟨S600000, .i1⟩
  | 112 => ⟨S_, .i32⟩
  | 113 => ⟨S600000, .i32⟩
  | 114 => ⟨S600000, .i32⟩
  | 115 => ⟨S600000, .i32⟩
  | 116 => ⟨S_, .i32⟩
  | 117 => ⟨S600000, .i32⟩
  | 118 => ⟨S600000, .i1⟩
  | 119 => ⟨S_, .i32⟩
  | 120 => ⟨S600000, .i32⟩
  | 121 => ⟨S600000, .i32⟩
  | 122 => ⟨S600000, .i32⟩
  | 123 => ⟨S600000x1, .i32⟩
  | 124 => ⟨S600000x1, .i32⟩
  | 125 => ⟨S600000x2, .i32⟩
  | 126 => ⟨S600000x128, .f32⟩
  | 127 => ⟨S_, .f32⟩
  | _ => ⟨S100000x128, .f32⟩

abbrev hbmTy0_1 (i : Nat) : BufTy := match i % 128 with
  | 0 => ⟨S100000x128, .f32⟩
  | 1 => ⟨S600000x1, .i32⟩
  | 2 => ⟨S100000x128, .f32⟩
  | 3 => ⟨S1x384x128, .f32⟩
  | 4 => ⟨S384x128, .f32⟩
  | 5 => ⟨S1x384x128, .f32⟩
  | 6 => ⟨S384x128, .f32⟩
  | 7 => ⟨S1x384, .f32⟩
  | 8 => ⟨S384, .f32⟩
  | 9 => ⟨S1x384, .f32⟩
  | 10 => ⟨S384, .f32⟩
  | 11 => ⟨S128x384, .f32⟩
  | 12 => ⟨S100000x384, .f32⟩
  | 13 => ⟨S1x384, .f32⟩
  | 14 => ⟨S100000x384, .f32⟩
  | 15 => ⟨S100000x384, .f32⟩
  | 16 => ⟨S128x384, .f32⟩
  | 17 => ⟨S100000x384, .f32⟩
  | 18 => ⟨S1x384, .f32⟩
  | 19 => ⟨S100000x384, .f32⟩
  | 20 => ⟨S100000x384, .f32⟩
  | 21 => ⟨S100000x128, .f32⟩
  | 22 => ⟨S100000x128, .f32⟩
  | 23 => ⟨S100000x128, .f32⟩
  | 24 => ⟨S100000x128, .f32⟩
  | 25 => ⟨S100000x128, .f32⟩
  | 26 => ⟨S100000x128, .f32⟩
  | 27 => ⟨S100000x128, .f32⟩
  | 28 => ⟨S100000x128, .f32⟩
  | 29 => ⟨S100000x128, .f32⟩
  | 30 => ⟨S_, .f32⟩
  | 31 => ⟨S100000x128, .f32⟩
  | 32 => ⟨S100000x128, .f32⟩
  | 33 => ⟨S_, .f32⟩
  | 34 => ⟨S100000x128, .f32⟩
  | 35 => ⟨S100000x128, .f32⟩
  | 36 => ⟨S100000x128, .f32⟩
  | 37 => ⟨S100000x128, .f32⟩
  | 38 => ⟨S100000x128, .f32⟩
  | 39 => ⟨S_, .f32⟩
  | 40 => ⟨S100000x128, .f32⟩
  | 41 => ⟨S100000x128, .f32⟩
  | 42 => ⟨S_, .f32⟩
  | 43 => ⟨S100000x128, .f32⟩
  | 44 => ⟨S100000x128, .f32⟩
  | 45 => ⟨S100000x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S100000x128, .f32⟩
  | 52 => ⟨S100000x128, .f32⟩
  | 53 => ⟨S100000x128, .f32⟩
  | 54 => ⟨S_, .f32⟩
  | 55 => ⟨S100000x128, .f32⟩
  | 56 => ⟨S100000x128, .f32⟩
  | 57 => ⟨S128x128, .f32⟩
  | 58 => ⟨S100000x128, .f32⟩
  | 59 => ⟨S1x128, .f32⟩
  | 60 => ⟨S100000x128, .f32⟩
  | 61 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call0_cst : Ref sig .tc := ⟨.hbm, 22, rfl⟩
abbrev main_call0_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_1 : Ref sig .tc := ⟨.hbm, 36, rfl⟩
abbrev main_v19 : Ref sig .tc := ⟨.hbm, 37, rfl⟩
abbrev main_v20 : Ref sig .tc := ⟨.hbm, 38, rfl⟩
abbrev main_c_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_3 : Ref sig .tc := ⟨.hbm, 78, rfl⟩
abbrev main_v58 : Ref sig .tc := ⟨.hbm, 79, rfl⟩
abbrev main_v59 : Ref sig .tc := ⟨.hbm, 80, rfl⟩
abbrev main_cst_4 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_5 : Ref sig .tc := ⟨.hbm, 87, rfl⟩
abbrev main_v65 : Ref sig .tc := ⟨.hbm, 88, rfl⟩
abbrev main_v66 : Ref sig .tc := ⟨.hbm, 89, rfl⟩
abbrev main_cst_6 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_7 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_call1_cst : Ref sig .tc := ⟨.hbm, 102, rfl⟩
abbrev main_call1_v0 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_c_8 : Ref sig .tc := ⟨.hbm, 109, rfl⟩
abbrev main_v82 : Ref sig .tc := ⟨.hbm, 110, rfl⟩
abbrev main_v83 : Ref sig .tc := ⟨.hbm, 111, rfl⟩
abbrev main_c_9 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_c_10 : Ref sig .tc := ⟨.hbm, 116, rfl⟩
abbrev main_v87 : Ref sig .tc := ⟨.hbm, 117, rfl⟩
abbrev main_v88 : Ref sig .tc := ⟨.hbm, 118, rfl⟩
abbrev main_c_11 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_12 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_cst_13 : Ref sig .tc := ⟨.hbm, 158, rfl⟩
abbrev main_v126 : Ref sig .tc := ⟨.hbm, 159, rfl⟩
abbrev main_v127 : Ref sig .tc := ⟨.hbm, 160, rfl⟩
abbrev main_cst_14 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_cst_15 : Ref sig .tc := ⟨.hbm, 167, rfl⟩
abbrev main_v133 : Ref sig .tc := ⟨.hbm, 168, rfl⟩
abbrev main_v134 : Ref sig .tc := ⟨.hbm, 169, rfl⟩
abbrev main_cst_16 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_cst_17 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_call2_cst : Ref sig .tc := ⟨.hbm, 182, rfl⟩
abbrev main_call2_v0 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S2x8x128x128_S1x8x128x128_0_0_0_0 : S2x8x128x128.Slices ![0, 0, 0, 0] S1x8x128x128
  shapeCasts_S1x8x128x128_S8x128x128 : S1x8x128x128.ShapeCasts S8x128x128
  transposes_S8x128x100000_S8x100000x128_0_2_1 : S8x128x100000.Transposes [0, 2, 1] S8x100000x128
  bcast_S_S600000 : S_.BroadcastsInDim S600000 (![] : Fin 0 → Fin S600000.rank)
  bcast_S600000_S600000x1_0 : S600000.BroadcastsInDim S600000x1 (![0] : Fin 1 → Fin S600000x1.rank)
  concatenates_S600000x1_S600000x1_S600000x2_d1 : Shape.Concatenates [S600000x1, S600000x1] S600000x2 1
  slices_S2x384x128_S1x384x128_0_0_0 : S2x384x128.Slices ![0, 0, 0] S1x384x128
  shapeCasts_S1x384x128_S384x128 : S1x384x128.ShapeCasts S384x128
  slices_S2x384_S1x384_0_0 : S2x384.Slices ![0, 0] S1x384
  shapeCasts_S1x384_S384 : S1x384.ShapeCasts S384
  transposes_S384x128_S128x384_1_0 : S384x128.Transposes [1, 0] S128x384
  bcast_S384_S1x384_1 : S384.BroadcastsInDim S1x384 (![1] : Fin 1 → Fin S1x384.rank)
  bcast_S1x384_S100000x384_0_1 : S1x384.BroadcastsInDim S100000x384 (![0, 1] : Fin 2 → Fin S100000x384.rank)
  slices_S100000x384_S100000x128_0_0 : S100000x384.Slices ![0, 0] S100000x128
  slices_S100000x384_S100000x128_0_128 : S100000x384.Slices ![0, 128] S100000x128
  slices_S100000x384_S100000x128_0_256 : S100000x384.Slices ![0, 256] S100000x128
  slices_S2x8x128x128_S1x8x128x128_1_0_0_0 : S2x8x128x128.Slices ![1, 0, 0, 0] S1x8x128x128
  slices_S2x384x128_S1x384x128_1_0_0 : S2x384x128.Slices ![1, 0, 0] S1x384x128
  slices_S2x384_S1x384_1_0 : S2x384.Slices ![1, 0] S1x384
  dot_S100000x128_S128x128_S100000x128_1_0_0_1_n_n_wf : DotDims.WF S100000x128 S128x128 S100000x128 [1] [0] [0] [1] [] []
  dot_S8x128x128_S100000x128_S8x128x100000_2_1_01_0_n_n_wf : DotDims.WF S8x128x128 S100000x128 S8x128x100000 [2] [1] [0, 1] [0] [] []
  gather_S8x100000x128_S600000x2_S600000x128_1_01_n_n_01_1_11128_wf : GatherDims.WF S8x100000x128 S600000x2 S600000x128 [1] [0, 1] [] [0, 1] [] 1 ![1, 1, 128]
  scatter_S100000x128_S600000x1_S600000x128_1_0_0_1_wf : ScatterDims.WF S100000x128 S600000x1 S600000x128 [1] [0] [0] 1
  dot_S100000x128_S128x384_S100000x384_1_0_0_1_n_n_wf : DotDims.WF S100000x128 S128x384 S100000x384 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S8x128x128_S100000x128_S8x128x100000_2_1_01_0_n_n : DotDims S8x128x128 S100000x128 S8x128x100000 where
  lhsContracting := [2]
  rhsContracting := [1]
  lhsNonContracting := [0, 1]
  rhsNonContracting := [0]
  lhsBatch := []
  rhsBatch := []
  wf := dot_S8x128x128_S100000x128_S8x128x100000_2_1_01_0_n_n_wf
def gather_S8x100000x128_S600000x2_S600000x128_1_01_n_n_01_1_11128 : GatherDims S8x100000x128 S600000x2 S600000x128 where
  offsetDims := [1]
  collapsedSliceDims := [0, 1]
  operandBatchingDims := []
  startIndicesBatchingDims := []
  startIndexMap := [0, 1]
  indexVectorDim := 1
  sliceSizes := ![1, 1, 128]
  wf := gather_S8x100000x128_S600000x2_S600000x128_1_01_n_n_01_1_11128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x384_S100000x384_1_0_0_1_n_n : DotDims S100000x128 S128x384 S100000x384 where
  lhsContracting := [1]
  rhsContracting := [0]
  lhsNonContracting := [0]
  rhsNonContracting := [1]
  lhsBatch := []
  rhsBatch := []
  wf := dot_S100000x128_S128x384_S100000x384_1_0_0_1_n_n_wf

class Facts : Prop extends Facts₀ where

variable [Facts]
-- ==== Proof.KernelRun.lean ====
/-
  The idealized kernel program's run, with the result named.

  The program is six pipelined regions among stretches of host operations. Its buffers' contents at the twelve
  segment boundaries form a chain: a stretch of host operations maps the contents before it to the contents after
  it, and a region leaves each of its arrays at what its write-backs produce and every other buffer as it found it.
  The generated frame shows that every weakly fair execution ends with every unscoped buffer at the last link of
  that chain. Here the same launch is read once more at the end, keeping, besides the thirteen arguments, the
  result buffer: it holds the last link's contents of the result.
-/
import proofs.«144449_j22325240004851_1_alg».proof.Proof.Gen.KernelIdeal.Frame

set_option maxRecDepth 16384

noncomputable section

namespace Cert.KernelIdeal.NamedRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- Every weakly fair execution of the program terminates without a fault; the result buffer ends at the chain's
    last contents of it, and the thirteen arguments end as launched. -/
theorem run : θ_run defs (onTc (τ := τ) (main (F := F))) ⟨m, fun _ => 0, ρ⟩ (fun r => ∀ c : Dev nD,
      r.2.mem ((c.tc : Thread nD τ).loc main_v71) = W12 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v71 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c)⟩)

end Cert.KernelIdeal.NamedRun

end
-- ==== Proof.Carried.lean ====
/-
  What the buffers hold at the boundaries between the program's segments.

  The contents at the thirteen boundaries form a chain (the generated frame's `W0 … W12`): a stretch of host
  operations leaves at a buffer what its operation computes, or, for a buffer none of its operations writes, what it
  found there; a region leaves every buffer that is not one of its arrays, and each of its input arrays, as it found
  them. The lemmas here walk single buffers along that chain: the arguments back to the launch memory, and the few
  intermediate arrays that are used again later (the edge ends, a round's state) back to the boundary where they
  were made.
-/
import proofs.«144449_j22325240004851_1_alg».proof.Proof.Gen.KernelIdeal.Frame
import Idealize.ShloMosaic.PureOps.Ideal

set_option maxRecDepth 16384

noncomputable section

namespace Cert.KernelIdeal.Boundary

open Idealize.ShloMosaic Idealize.ShloMosaic.TcCoe Idealize.ShloMosaic.Tactic Idealize.ShloMosaic.StableHlo
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

/-- Across a stretch of host operations: rewrite what the stretch leaves at the buffer on the left into what it
    computes from the contents it found. -/
local macro "across " ops:ident : tactic =>
  `(tactic| (show StableHlo.after $ops _ (Proc.devRef .tc _) = _; after_results))

/-! ## The first region's inputs and the first round -/

theorem at1_arg0 : W1 m ρ c (Proc.devRef .tc main_arg0) = m ((c : Thread nD τ).loc main_arg0) := by
  across hostOps0

theorem at1_arg3 : W1 m ρ c (Proc.devRef .tc main_arg3) = m ((c : Thread nD τ).loc main_arg3) := by
  across hostOps0

/-- The state after the input map is still there when the first messages are computed. -/
theorem at3_v5 : W3 m ρ c (Proc.devRef .tc main_v5) = W2 m ρ c (Proc.devRef .tc main_v5) := by
  across hostOps1

theorem at2_arg5 : W2 m ρ c (Proc.devRef .tc main_arg5) = m ((c : Thread nD τ).loc main_arg5) := by
  refine (W2_of_ne m ρ c main_arg5 (by decide)).trans ?_
  across hostOps0

/-- … and when the first gated update reads it: the message region only reads it. -/
theorem at5_v5 : W5 m ρ c (Proc.devRef .tc main_v5) = W2 m ρ c (Proc.devRef .tc main_v5) := by
  across hostOps2
  refine ((W4_arr m ρ c 0).trans (((dat1 (V3 m ρ) c).arrAt_in 0 rfl _).trans (A_eq1 (V3 m ρ) c 0))).trans ?_
  across hostOps1

/-! ## What the first round's host operations find: the edge ends as first made, the arguments as launched -/

theorem at4_v1 : W4 m ρ c (Proc.devRef .tc main_v1) = W1 m ρ c (Proc.devRef .tc main_v1) := by
  refine (W4_of_ne m ρ c main_v1 (by decide)).trans ?_
  across hostOps1
  exact W2_of_ne m ρ c main_v1 (by decide)

theorem at4_v3 : W4 m ρ c (Proc.devRef .tc main_v3) = W1 m ρ c (Proc.devRef .tc main_v3) := by
  refine (W4_of_ne m ρ c main_v3 (by decide)).trans ?_
  across hostOps1
  exact W2_of_ne m ρ c main_v3 (by decide)

theorem at4_arg2 : W4 m ρ c (Proc.devRef .tc main_arg2) = m ((c : Thread nD τ).loc main_arg2) := by
  refine (W4_of_ne m ρ c main_arg2 (by decide)).trans ?_
  across hostOps1
  refine (W2_of_ne m ρ c main_arg2 (by decide)).trans ?_
  across hostOps0

theorem at4_arg7 : W4 m ρ c (Proc.devRef .tc main_arg7) = m ((c : Thread nD τ).loc main_arg7) := by
  refine (W4_of_ne m ρ c main_arg7 (by decide)).trans ?_
  across hostOps1
  refine (W2_of_ne m ρ c main_arg7 (by decide)).trans ?_
  across hostOps0

theorem at4_arg8 : W4 m ρ c (Proc.devRef .tc main_arg8) = m ((c : Thread nD τ).loc main_arg8) := by
  refine (W4_of_ne m ρ c main_arg8 (by decide)).trans ?_
  across hostOps1
  refine (W2_of_ne m ρ c main_arg8 (by decide)).trans ?_
  across hostOps0

theorem at4_arg9 : W4 m ρ c (Proc.devRef .tc main_arg9) = m ((c : Thread nD τ).loc main_arg9) := by
  refine (W4_of_ne m ρ c main_arg9 (by decide)).trans ?_
  across hostOps1
  refine (W2_of_ne m ρ c main_arg9 (by decide)).trans ?_
  across hostOps0

theorem at4_arg10 : W4 m ρ c (Proc.devRef .tc main_arg10) = m ((c : Thread nD τ).loc main_arg10) := by
  refine (W4_of_ne m ρ c main_arg10 (by decide)).trans ?_
  across hostOps1
  refine (W2_of_ne m ρ c main_arg10 (by decide)).trans ?_
  across hostOps0

end Cert.KernelIdeal.Boundary

end
-- ==== Proof.CarriedLate.lean ====
/-
  What the buffers hold at the boundaries between the program's segments.

  The contents at the thirteen boundaries form a chain (the generated frame's `W0 … W12`): a stretch of host
  operations leaves at a buffer what its operation computes, or, for a buffer none of its operations writes, what it
  found there; a region leaves every buffer that is not one of its arrays, and each of its input arrays, as it found
  them. The lemmas here walk single buffers along the later half of that chain: the second round's and the output map's
  inputs back to the boundary after the first round's host operations, to the first gated update's result, or to
  the launch memory.
-/
import proofs.«144449_j22325240004851_1_alg».proof.Proof.Gen.KernelIdeal.Frame
import Idealize.ShloMosaic.PureOps.Ideal

set_option maxRecDepth 16384

noncomputable section

namespace Cert.KernelIdeal.BoundaryLate

open Idealize.ShloMosaic Idealize.ShloMosaic.TcCoe Idealize.ShloMosaic.Tactic Idealize.ShloMosaic.StableHlo
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

/-- Across a stretch of host operations: rewrite what the stretch leaves at the buffer on the left into what it
    computes from the contents it found. -/
local macro "across " ops:ident : tactic =>
  `(tactic| (show StableHlo.after $ops _ (Proc.devRef .tc _) = _; after_results))

/-! ## The second round -/

/-- The state after the first gated update is still there when the second messages are computed. -/
theorem at7_v37 : W7 m ρ c (Proc.devRef .tc main_v37) = W6 m ρ c (Proc.devRef .tc main_v37) := by
  across hostOps3

/-- … and when the second gated update reads it: the message region only reads it. -/
theorem at9_v37 : W9 m ρ c (Proc.devRef .tc main_v37) = W6 m ρ c (Proc.devRef .tc main_v37) := by
  across hostOps4
  refine ((W8_arr m ρ c 0).trans (((dat3 (V7 m ρ) c).arrAt_in 0 rfl _).trans (A_eq3 (V7 m ρ) c 0))).trans ?_
  across hostOps3

theorem at6_arg5 : W6 m ρ c (Proc.devRef .tc main_arg5) = W4 m ρ c (Proc.devRef .tc main_arg5) := by
  refine (W6_of_ne m ρ c main_arg5 (by decide)).trans ?_
  across hostOps2

theorem at4_arg5 : W4 m ρ c (Proc.devRef .tc main_arg5) = m ((c : Thread nD τ).loc main_arg5) := by
  refine (W4_of_ne m ρ c main_arg5 (by decide)).trans ?_
  across hostOps1
  refine (W2_of_ne m ρ c main_arg5 (by decide)).trans ?_
  across hostOps0

/-! ## What the second round's host operations find is what the first round's found -/

theorem at8_v1 : W8 m ρ c (Proc.devRef .tc main_v1) = W4 m ρ c (Proc.devRef .tc main_v1) := by
  refine (W8_of_ne m ρ c main_v1 (by decide)).trans ?_
  across hostOps3
  refine (W6_of_ne m ρ c main_v1 (by decide)).trans ?_
  across hostOps2

theorem at8_v3 : W8 m ρ c (Proc.devRef .tc main_v3) = W4 m ρ c (Proc.devRef .tc main_v3) := by
  refine (W8_of_ne m ρ c main_v3 (by decide)).trans ?_
  across hostOps3
  refine (W6_of_ne m ρ c main_v3 (by decide)).trans ?_
  across hostOps2

theorem at8_arg2 : W8 m ρ c (Proc.devRef .tc main_arg2) = W4 m ρ c (Proc.devRef .tc main_arg2) := by
  refine (W8_of_ne m ρ c main_arg2 (by decide)).trans ?_
  across hostOps3
  refine (W6_of_ne m ρ c main_arg2 (by decide)).trans ?_
  across hostOps2

theorem at8_arg7 : W8 m ρ c (Proc.devRef .tc main_arg7) = W4 m ρ c (Proc.devRef .tc main_arg7) := by
  refine (W8_of_ne m ρ c main_arg7 (by decide)).trans ?_
  across hostOps3
  refine (W6_of_ne m ρ c main_arg7 (by decide)).trans ?_
  across hostOps2

theorem at8_arg8 : W8 m ρ c (Proc.devRef .tc main_arg8) = W4 m ρ c (Proc.devRef .tc main_arg8) := by
  refine (W8_of_ne m ρ c main_arg8 (by decide)).trans ?_
  across hostOps3
  refine (W6_of_ne m ρ c main_arg8 (by decide)).trans ?_
  across hostOps2

theorem at8_arg9 : W8 m ρ c (Proc.devRef .tc main_arg9) = W4 m ρ c (Proc.devRef .tc main_arg9) := by
  refine (W8_of_ne m ρ c main_arg9 (by decide)).trans ?_
  across hostOps3
  refine (W6_of_ne m ρ c main_arg9 (by decide)).trans ?_
  across hostOps2

theorem at8_arg10 : W8 m ρ c (Proc.devRef .tc main_arg10) = W4 m ρ c (Proc.devRef .tc main_arg10) := by
  refine (W8_of_ne m ρ c main_arg10 (by decide)).trans ?_
  across hostOps3
  refine (W6_of_ne m ρ c main_arg10 (by decide)).trans ?_
  across hostOps2

/-! ## The output map's inputs -/

theorem at11_v69 : W11 m ρ c (Proc.devRef .tc main_v69) = W10 m ρ c (Proc.devRef .tc main_v69) := by
  across hostOps5

/-- The output weights: the last region only reads them, and at the end they are as launched. -/
theorem at11_arg11 : W11 m ρ c (Proc.devRef .tc main_arg11) = m ((c : Thread nD τ).loc main_arg11) :=
  (((W12_arr m ρ c 1).trans (((dat5 (V11 m ρ) c).arrAt_in 1 rfl _).trans (A_eq5 (V11 m ρ) c 1))).symm).trans (W12_main_arg11 m ρ c)

/-- The output bias as the last host operation finds it: neither that operation nor the last region writes it. -/
theorem at10_arg12 : W10 m ρ c (Proc.devRef .tc main_arg12) = m ((c : Thread nD τ).loc main_arg12) := by
  have h11 : W11 m ρ c (Proc.devRef .tc main_arg12) = W10 m ρ c (Proc.devRef .tc main_arg12) := by
    across hostOps5
  have h12 : W12 m ρ c (Proc.devRef .tc main_arg12) = W11 m ρ c (Proc.devRef .tc main_arg12) := W12_of_ne m ρ c main_arg12 (by decide)
  exact h11.symm.trans (h12.symm.trans (W12_main_arg12 m ρ c))

end Cert.KernelIdeal.BoundaryLate

end
-- ==== Proof.GraphSpec.lean ====
/-
  The gated graph network both programs compute, stated once, index by index, over the extended reals.

  A node state is a row of 128 numbers; there are 100000 nodes, 600000 typed edges (8 types) and two rounds.
    * an affine map of rows:  y[n, q] = (sum over k of x[n, k] * w[q, k]) + b[q]          (a weight row per output)
    * the typed messages of a state h:  t[n, 128 * e + q] = sum over k of h[n, k] * W[e, q, k]   (one map per edge type e)
    * an edge picks, from the source node's typed messages, the 128 entries of its own type; a node or type number
      outside its range is clamped into it
    * the picked rows are summed into the destination nodes (the aggregation, kept here as a parameter: both
      programs use the same summation of the same rows)
    * a gated update of h by the aggregate a: with gi = a W_i^T + b_i and gh = h W_h^T + b_h (384 columns each, three
      groups of 128), r = s(gi_1 + gh_1), z = s(gi_2 + gh_2), c = tanh(gi_3 + r * gh_3), and the new state is
      max((1 - z) * c + z * h, 0), where s is the logistic function
    * the result is an affine map of the last state.
-/
import Idealize.ShloMosaic.PureOps.Ideal
import Idealize.ShloMosaic.PureOps.Ideal.Laws
import Idealize.ShloMosaic.Lib.ValueIdx

noncomputable section

namespace Cert.GraphSpec

open Idealize.ShloMosaic Idealize.ShloMosaic.ValueIdx

/-- The float pattern of 1.0 denotes the number one. -/
theorem ofBits_one : Ideal.ofBits .f32 0x3F800000#32 = 1 := by
  simp [Ideal.ofBits, Ideal.ieee, -EReal.coe_mul]; norm_num

/-- Rows of `x` against rows of `w`, plus the bias of the output column:
    `y[n, q] = (sum over k of x[n, k] * w[q, k]) + b[0, q]`. -/
def affineRows {n p : Nat} (x : (⟨2, ![n, 128]⟩ : Shape).Idx → EReal) (w : (⟨2, ![p, 128]⟩ : Shape).Idx → EReal)
    (b : (⟨2, ![1, p]⟩ : Shape).Idx → EReal) : (⟨2, ![n, p]⟩ : Shape).Idx → EReal :=
  fun j => (∑ k : Fin 128, x (ix2 (j 0) k) * w (ix2 (j 1) k)) + b (ix2 (0 : Fin 1) (j 1))

/-- An affine map of rows followed by the positive part. -/
def affineReluRows {n p : Nat} (x : (⟨2, ![n, 128]⟩ : Shape).Idx → EReal) (w : (⟨2, ![p, 128]⟩ : Shape).Idx → EReal)
    (b : (⟨2, ![1, p]⟩ : Shape).Idx → EReal) : (⟨2, ![n, p]⟩ : Shape).Idx → EReal :=
  fun j => max (affineRows x w b j) (Ideal.ofBits .f32 0x00000000#32)

/-- The typed messages of a state: column `128 * e + q` of row `n` is the state's row `n` against row `q` of the
    map of edge type `e`. -/
def typedRows {n : Nat} (h : (⟨2, ![n, 128]⟩ : Shape).Idx → EReal) (W : (⟨3, ![8, 128, 128]⟩ : Shape).Idx → EReal) :
    (⟨2, ![n, 1024]⟩ : Shape).Idx → EReal :=
  fun j => ∑ k : Fin 128, h (ix2 (j 0) k) *
    W (ix3 (⟨(j 1).val / 128, by have := idx2_lt1 j; omega⟩ : Fin 8)
           (⟨(j 1).val % 128, Nat.mod_lt _ (by decide)⟩ : Fin 128) k)

/-- The row an edge carries: the entries of its own type among its source node's typed messages, the node number
    clamped into `0 … 99999` and the type number into `0 … 7` (both read as signed integers, a negative one as 0). -/
def edgeRows (t : (⟨2, ![100000, 1024]⟩ : Shape).Idx → EReal) (src ty : (⟨1, ![600000]⟩ : Shape).Idx → BitVec 32) :
    (⟨2, ![600000, 128]⟩ : Shape).Idx → EReal :=
  fun y => t (ix2 (⟨min (src (ix1 (y 0))).toInt.toNat 99999, by omega⟩ : Fin 100000)
                  (⟨min (ty (ix1 (y 0))).toInt.toNat 7 * 128 + (y 1).val, by have := idx2_lt1 y; omega⟩ : Fin 1024))

/-- One entry of the gated update from the six pre-activations and the old entry. -/
def gateCell (ir hr iz hz ic hc old : EReal) : EReal :=
  max ((Ideal.ofBits .f32 0x3F800000#32 - Ideal.logistic (iz + hz)) * Ideal.tanh (ic + Ideal.logistic (ir + hr) * hc)
        + Ideal.logistic (iz + hz) * old)
      (Ideal.ofBits .f32 0x00000000#32)

/-- The gated update of the state `h` by the aggregate `a`, entry by entry: the three groups of 128 columns of the
    two affine maps are the reset, update and candidate pre-activations. -/
def gatedRows {n : Nat} (a h : (⟨2, ![n, 128]⟩ : Shape).Idx → EReal)
    (wi wh : (⟨2, ![384, 128]⟩ : Shape).Idx → EReal) (bi bh : (⟨2, ![1, 384]⟩ : Shape).Idx → EReal) :
    (⟨2, ![n, 128]⟩ : Shape).Idx → EReal :=
  fun j =>
    let q0 : Fin 384 := ⟨(j 1).val, by have := idx2_lt1 j; omega⟩
    let q1 : Fin 384 := ⟨128 + (j 1).val, by have := idx2_lt1 j; omega⟩
    let q2 : Fin 384 := ⟨256 + (j 1).val, by have := idx2_lt1 j; omega⟩
    gateCell (affineRows a wi bi (ix2 (j 0) q0)) (affineRows h wh bh (ix2 (j 0) q0))
             (affineRows a wi bi (ix2 (j 0) q1)) (affineRows h wh bh (ix2 (j 0) q1))
             (affineRows a wi bi (ix2 (j 0) q2)) (affineRows h wh bh (ix2 (j 0) q2))
             (h j)

/-- The whole network: the input map with positive part, two rounds of (typed messages, the edges' rows, their
    aggregation `agg` into the destination nodes, the gated update), and the output map. -/
def network (agg : ((⟨2, ![600000, 128]⟩ : Shape).Idx → EReal) → (⟨2, ![100000, 128]⟩ : Shape).Idx → EReal)
    (src ty : (⟨1, ![600000]⟩ : Shape).Idx → BitVec 32)
    (x : (⟨2, ![100000, 128]⟩ : Shape).Idx → EReal)
    (pw : (⟨2, ![128, 128]⟩ : Shape).Idx → EReal) (pb : (⟨2, ![1, 128]⟩ : Shape).Idx → EReal)
    (W0 W1 : (⟨3, ![8, 128, 128]⟩ : Shape).Idx → EReal)
    (wi0 wh0 : (⟨2, ![384, 128]⟩ : Shape).Idx → EReal) (bi0 bh0 : (⟨2, ![1, 384]⟩ : Shape).Idx → EReal)
    (wi1 wh1 : (⟨2, ![384, 128]⟩ : Shape).Idx → EReal) (bi1 bh1 : (⟨2, ![1, 384]⟩ : Shape).Idx → EReal)
    (ow : (⟨2, ![128, 128]⟩ : Shape).Idx → EReal) (ob : (⟨2, ![1, 128]⟩ : Shape).Idx → EReal) :
    (⟨2, ![100000, 128]⟩ : Shape).Idx → EReal :=
  let h0 := affineReluRows x pw pb
  let h1 := gatedRows (agg (edgeRows (typedRows h0 W0) src ty)) h0 wi0 wh0 bi0 bh0
  let h2 := gatedRows (agg (edgeRows (typedRows h1 W1) src ty)) h1 wi1 wh1 bi1 bh1
  affineRows h2 ow ob

/-! ## The arguments as the rounds use them -/

/-- A vector of `p` numbers as a one-row matrix. -/
def asRow {p : Nat} (b : (⟨1, ![p]⟩ : Shape).Idx → EReal) : (⟨2, ![1, p]⟩ : Shape).Idx → EReal :=
  fun i => b (ix1 (i 1))

/-- Round `l`'s eight maps out of the stacked ones. -/
def roundMaps (W : (⟨4, ![2, 8, 128, 128]⟩ : Shape).Idx → EReal) (l : Fin 2) : (⟨3, ![8, 128, 128]⟩ : Shape).Idx → EReal :=
  fun i => W (ix4 l (i 0) (i 1) (i 2))

/-- Round `l`'s gate weights out of the stacked ones. -/
def roundWeights (w : (⟨3, ![2, 384, 128]⟩ : Shape).Idx → EReal) (l : Fin 2) : (⟨2, ![384, 128]⟩ : Shape).Idx → EReal :=
  fun i => w (ix3 l (i 0) (i 1))

/-- Round `l`'s gate bias out of the stacked ones, as a one-row matrix. -/
def roundBias (b : (⟨2, ![2, 384]⟩ : Shape).Idx → EReal) (l : Fin 2) : (⟨2, ![1, 384]⟩ : Shape).Idx → EReal :=
  fun i => b (ix2 l (i 1))

/-- Row `r` of the edge list: the sources (`r = 0`) or the destinations (`r = 1`). -/
def edgeEnds (ei : (⟨2, ![2, 600000]⟩ : Shape).Idx → BitVec 32) (r : Fin 2) : (⟨1, ![600000]⟩ : Shape).Idx → BitVec 32 :=
  fun i => ei (ix2 r (i 0))

/-- A negative number counts from the end of an axis of extent `size`: `v` becomes `v + size` where `v < 0`. -/
def wrapNegative (size : BitVec 32) (v : (⟨1, ![600000]⟩ : Shape).Idx → BitVec 32) : (⟨1, ![600000]⟩ : Shape).Idx → BitVec 32 :=
  select (cmpi .slt v (fun _ => 0#32)) (addi v (fun _ => size)) v

/-- The network as a function of the thirteen arguments (the edge biases are not used) and of the aggregation. -/
def networkOfArgs (agg : ((⟨2, ![600000, 128]⟩ : Shape).Idx → EReal) → (⟨2, ![100000, 128]⟩ : Shape).Idx → EReal)
    (x : (⟨2, ![100000, 128]⟩ : Shape).Idx → EReal) (ei : (⟨2, ![2, 600000]⟩ : Shape).Idx → BitVec 32)
    (et : (⟨1, ![600000]⟩ : Shape).Idx → BitVec 32)
    (pw : (⟨2, ![128, 128]⟩ : Shape).Idx → EReal) (pb : (⟨1, ![128]⟩ : Shape).Idx → EReal)
    (W : (⟨4, ![2, 8, 128, 128]⟩ : Shape).Idx → EReal)
    (wi wh : (⟨3, ![2, 384, 128]⟩ : Shape).Idx → EReal) (bi bh : (⟨2, ![2, 384]⟩ : Shape).Idx → EReal)
    (ow : (⟨2, ![128, 128]⟩ : Shape).Idx → EReal) (ob : (⟨1, ![128]⟩ : Shape).Idx → EReal) :
    (⟨2, ![100000, 128]⟩ : Shape).Idx → EReal :=
  network agg (wrapNegative 100000#32 (edgeEnds ei 0)) (wrapNegative 8#32 et) x pw (asRow pb)
    (roundMaps W 0) (roundMaps W 1)
    (roundWeights wi 0) (roundWeights wh 0) (roundBias bi 0) (roundBias bh 0)
    (roundWeights wi 1) (roundWeights wh 1) (roundBias bi 1) (roundBias bh 1)
    ow (asRow ob)

end Cert.GraphSpec

end
-- ==== Proof.Prepared.lean ====
/-
  The arrays the rounds read, as the host operations prepare them.

  The stacked arguments are cut per round by a slice of the leading axis followed by a reshape that drops it; a
  bias vector becomes a one-row matrix by a reshape; the edge list's two rows are its sources and destinations.
  Read at an index each is the specification's re-indexing of the argument (`asRow`, `roundMaps`,
  `roundWeights`, `roundBias`, `edgeEnds`). The second half reads them where the program's host operations leave
  them: at the boundary in front of the region that uses them.
-/
import proofs.«144449_j22325240004851_1_alg».proof.Proof.Carried
import proofs.«144449_j22325240004851_1_alg».proof.Proof.CarriedLate
import proofs.«144449_j22325240004851_1_alg».proof.Proof.GraphSpec
import Idealize.ShloMosaic.Lib.ValueLayout
import Idealize.ShloMosaic.Lib.Pipeline.Value

set_option maxRecDepth 16384

noncomputable section

namespace Cert.KernelIdeal.Prepared

open Idealize.ShloMosaic Idealize.ShloMosaic.TcCoe Idealize.ShloMosaic.Tactic Idealize.ShloMosaic.StableHlo
open Idealize.ShloMosaic.ValueIdx
open Idealize.SL Idealize.SL.Sem
open Cert.KernelIdeal Cert.KernelIdeal.Gen

/-! ## The re-indexings, for any array -/

section Layout
variable {α : Type}

/-- A vector reshaped to one row. -/
theorem row_of_vector {p : Nat} (x : (⟨1, ![p]⟩ : Shape).Idx → EReal) (h : (⟨1, ![p]⟩ : Shape).ShapeCasts ⟨2, ![1, p]⟩) :
    shapeCast ⟨2, ![1, p]⟩ x h = Cert.GraphSpec.asRow x := by
  funext j
  obtain ⟨u, i, rfl⟩ : ∃ (u : Fin 1) (i : Fin p), j = ix2 u i := ⟨j 0, j 1, eq_ix2 j⟩
  rw [shapeCast_a_1a_apply]
  rfl

/-- Slice `l` of the stacked maps, its unit axis dropped. -/
theorem maps_of_stack (W : (⟨4, ![2, 8, 128, 128]⟩ : Shape).Idx → EReal) (l : Fin 2)
    (hs : (⟨4, ![2, 8, 128, 128]⟩ : Shape).Slices ![l.val, 0, 0, 0] ⟨4, ![1, 8, 128, 128]⟩)
    (hc : (⟨4, ![1, 8, 128, 128]⟩ : Shape).ShapeCasts ⟨3, ![8, 128, 128]⟩) :
    shapeCast ⟨3, ![8, 128, 128]⟩ (extractStridedSlice ⟨4, ![1, 8, 128, 128]⟩ ![l.val, 0, 0, 0] W hs) hc
      = Cert.GraphSpec.roundMaps W l := by
  funext j
  obtain ⟨k, i, q, rfl⟩ : ∃ (k : Fin 8) (i : Fin 128) (q : Fin 128), j = ix3 k i q := ⟨j 0, j 1, j 2, eq_ix3 j⟩
  rw [shapeCast_1abc_abc_apply]
  exact extractStridedSlice_apply _ W hs _ (ix4 l k i q) (fun a => by
    match a with
    | ⟨0, _⟩ => show l.val = l.val + 0; rfl
    | ⟨1, _⟩ => show k.val = 0 + k.val; omega
    | ⟨2, _⟩ => show i.val = 0 + i.val; omega
    | ⟨3, _⟩ => show q.val = 0 + q.val; omega)

/-- Slice `l` of the stacked gate weights, its unit axis dropped. -/
theorem weights_of_stack (w : (⟨3, ![2, 384, 128]⟩ : Shape).Idx → EReal) (l : Fin 2)
    (hs : (⟨3, ![2, 384, 128]⟩ : Shape).Slices ![l.val, 0, 0] ⟨3, ![1, 384, 128]⟩)
    (hc : (⟨3, ![1, 384, 128]⟩ : Shape).ShapeCasts ⟨2, ![384, 128]⟩) :
    shapeCast ⟨2, ![384, 128]⟩ (extractStridedSlice ⟨3, ![1, 384, 128]⟩ ![l.val, 0, 0] w hs) hc
      = Cert.GraphSpec.roundWeights w l := by
  funext j
  obtain ⟨i, q, rfl⟩ : ∃ (i : Fin 384) (q : Fin 128), j = ix2 i q := ⟨j 0, j 1, eq_ix2 j⟩
  rw [shapeCast_1ab_ab_apply]
  exact extractStridedSlice_apply _ w hs _ (ix3 l i q) (fun a => by
    match a with
    | ⟨0, _⟩ => show l.val = l.val + 0; rfl
    | ⟨1, _⟩ => show i.val = 0 + i.val; omega
    | ⟨2, _⟩ => show q.val = 0 + q.val; omega)

/-- Slice `l` of the stacked gate biases, flattened and made a row again: the slice itself. -/
theorem bias_of_stack (b : (⟨2, ![2, 384]⟩ : Shape).Idx → EReal) (l : Fin 2)
    (hs : (⟨2, ![2, 384]⟩ : Shape).Slices ![l.val, 0] ⟨2, ![1, 384]⟩)
    (hc : (⟨2, ![1, 384]⟩ : Shape).ShapeCasts ⟨1, ![384]⟩) (hc' : (⟨1, ![384]⟩ : Shape).ShapeCasts ⟨2, ![1, 384]⟩) :
    shapeCast ⟨2, ![1, 384]⟩ (shapeCast ⟨1, ![384]⟩ (extractStridedSlice ⟨2, ![1, 384]⟩ ![l.val, 0] b hs) hc) hc'
      = Cert.GraphSpec.roundBias b l := by
  rw [shapeCast_shapeCast]
  funext j
  obtain ⟨u, g, rfl⟩ : ∃ (u : Fin 1) (g : Fin 384), j = ix2 u g := ⟨j 0, j 1, eq_ix2 j⟩
  exact extractStridedSlice_apply _ b hs _ (ix2 l g) (fun a => by
    have hu : u.val = 0 := by omega
    match a with
    | ⟨0, _⟩ => show l.val = l.val + u.val; omega
    | ⟨1, _⟩ => show g.val = 0 + g.val; omega)

/-- Row `r` of the edge list as a vector. -/
theorem ends_of_list (ei : (⟨2, ![2, 600000]⟩ : Shape).Idx → BitVec 32) (r : Fin 2)
    (hs : (⟨2, ![2, 600000]⟩ : Shape).Slices ![r.val, 0] ⟨2, ![1, 600000]⟩)
    (hc : (⟨2, ![1, 600000]⟩ : Shape).ShapeCasts ⟨1, ![600000]⟩) :
    shapeCast ⟨1, ![600000]⟩ (extractStridedSlice ⟨2, ![1, 600000]⟩ ![r.val, 0] ei hs) hc = Cert.GraphSpec.edgeEnds ei r := by
  funext j
  obtain ⟨e, rfl⟩ : ∃ e : Fin 600000, j = ix1 e := ⟨j 0, eq_ix1 j⟩
  rw [shapeCast_1a_a_apply]
  exact extractStridedSlice_apply _ ei hs _ (ix2 r e) (fun a => by
    match a with
    | ⟨0, _⟩ => show r.val = r.val + 0; rfl
    | ⟨1, _⟩ => show e.val = 0 + e.val; omega)

end Layout

/-! ## Where the program leaves them -/

variable (m : (ℓ : Loc nD τ sig) → Buf (Elt Ideal) ℓ) (ρ : Dev nD → PrngReg) (c : Dev nD)

local macro "across " ops:ident : tactic =>
  `(tactic| (show StableHlo.after $ops _ (Proc.devRef .tc _) = _; after_results))

/-- The input map's bias row. -/
theorem at1_v4 : (W1 m ρ c (Proc.devRef .tc main_v4) : S1x128.Idx → EReal) = Cert.GraphSpec.asRow (m ((c : Thread nD τ).loc main_arg4)) := by
  across hostOps0
  exact row_of_vector _ _

/-- The sources and the destinations. -/
theorem at1_v1 : (W1 m ρ c (Proc.devRef .tc main_v1) : S600000.Idx → BitVec 32) = Cert.GraphSpec.edgeEnds (m ((c : Thread nD τ).loc main_arg1)) 0 := by
  across hostOps0
  exact ends_of_list _ 0 _ _

theorem at1_v3 : (W1 m ρ c (Proc.devRef .tc main_v3) : S600000.Idx → BitVec 32) = Cert.GraphSpec.edgeEnds (m ((c : Thread nD τ).loc main_arg1)) 1 := by
  across hostOps0
  exact ends_of_list _ 1 _ _

/-! ### The first round's maps, weights and biases -/

theorem at3_v7 : (W3 m ρ c (Proc.devRef .tc main_v7) : S8x128x128.Idx → EReal) = Cert.GraphSpec.roundMaps (m ((c : Thread nD τ).loc main_arg5)) 0 := by
  across hostOps1
  rw [Boundary.at2_arg5]
  exact maps_of_stack _ 0 _ _

theorem at5_v28 : (W5 m ρ c (Proc.devRef .tc main_v28) : S384x128.Idx → EReal) = Cert.GraphSpec.roundWeights (m ((c : Thread nD τ).loc main_arg7)) 0 := by
  across hostOps2
  rw [Boundary.at4_arg7]
  exact weights_of_stack _ 0 _ _

theorem at5_v30 : (W5 m ρ c (Proc.devRef .tc main_v30) : S384x128.Idx → EReal) = Cert.GraphSpec.roundWeights (m ((c : Thread nD τ).loc main_arg8)) 0 := by
  across hostOps2
  rw [Boundary.at4_arg8]
  exact weights_of_stack _ 0 _ _

theorem at5_v35 : (W5 m ρ c (Proc.devRef .tc main_v35) : S1x384.Idx → EReal) = Cert.GraphSpec.roundBias (m ((c : Thread nD τ).loc main_arg9)) 0 := by
  across hostOps2
  rw [Boundary.at4_arg9]
  exact bias_of_stack _ 0 _ _ _

theorem at5_v36 : (W5 m ρ c (Proc.devRef .tc main_v36) : S1x384.Idx → EReal) = Cert.GraphSpec.roundBias (m ((c : Thread nD τ).loc main_arg10)) 0 := by
  across hostOps2
  rw [Boundary.at4_arg10]
  exact bias_of_stack _ 0 _ _ _

/-! ### The second round's -/

theorem at7_v39 : (W7 m ρ c (Proc.devRef .tc main_v39) : S8x128x128.Idx → EReal) = Cert.GraphSpec.roundMaps (m ((c : Thread nD τ).loc main_arg5)) 1 := by
  across hostOps3
  rw [BoundaryLate.at6_arg5, BoundaryLate.at4_arg5]
  exact maps_of_stack _ 1 _ _

theorem at9_v60 : (W9 m ρ c (Proc.devRef .tc main_v60) : S384x128.Idx → EReal) = Cert.GraphSpec.roundWeights (m ((c : Thread nD τ).loc main_arg7)) 1 := by
  across hostOps4
  rw [BoundaryLate.at8_arg7, Boundary.at4_arg7]
  exact weights_of_stack _ 1 _ _

theorem at9_v62 : (W9 m ρ c (Proc.devRef .tc main_v62) : S384x128.Idx → EReal) = Cert.GraphSpec.roundWeights (m ((c : Thread nD τ).loc main_arg8)) 1 := by
  across hostOps4
  rw [BoundaryLate.at8_arg8, Boundary.at4_arg8]
  exact weights_of_stack _ 1 _ _

theorem at9_v67 : (W9 m ρ c (Proc.devRef .tc main_v67) : S1x384.Idx → EReal) = Cert.GraphSpec.roundBias (m ((c : Thread nD τ).loc main_arg9)) 1 := by
  across hostOps4
  rw [BoundaryLate.at8_arg9, Boundary.at4_arg9]
  exact bias_of_stack _ 1 _ _ _

theorem at9_v68 : (W9 m ρ c (Proc.devRef .tc main_v68) : S1x384.Idx → EReal) = Cert.GraphSpec.roundBias (m ((c : Thread nD τ).loc main_arg10)) 1 := by
  across hostOps4
  rw [BoundaryLate.at8_arg10, Boundary.at4_arg10]
  exact bias_of_stack _ 1 _ _ _

/-! ### The output map's bias row -/

theorem at11_v70 : (W11 m ρ c (Proc.devRef .tc main_v70) : S1x128.Idx → EReal) = Cert.GraphSpec.asRow (m ((c : Thread nD τ).loc main_arg12)) := by
  across hostOps5
  rw [BoundaryLate.at10_arg12]
  exact row_of_vector _ _

end Cert.KernelIdeal.Prepared

end
-- ==== Proof.LibGatherPick.lean ====
/-
  A gather that takes one line along the last axis of a three-axis table, its start index a pair, read at an
  index; and the two small layout facts that build such pairs.

  The operand has axes `A x B x C`; there are `E` start pairs, laid out `E x 2`; the result is `E x C`. The slice
  is `1 x 1 x C`: the first two operand axes are collapsed and are the ones the pair names, in order. Entry
  `(i, q)` of the result is the operand at (the first coordinate of pair `i`, the second, `q`), each start
  coordinate read as a signed integer and clamped into its axis (a negative one is 0, one past the end is the last).
  This is what indexing a three-axis array by two integer vectors on its first two axes lowers to.

  A vector made a column `E x 1` reads at `(i, 0)` the vector at `i`; two columns laid side by side into
  `E x 2` read at `(i, 0)` the first and at `(i, 1)` the second.
-/
import Idealize.ShloMosaic.Lib.ValueIdx
import Idealize.ShloMosaic.Lib.Pipeline.Value

noncomputable section

namespace Cert.EdgeGather

open Idealize.ShloMosaic Idealize.ShloMosaic.ValueIdx

/-! ## A gather of one line along the last axis, its start index two coordinates

The operand has three axes `A x B x C`, the start indices are `E` pairs, and the result is `E x C`: the
slice is `1 x 1 x C`, the first two operand axes are collapsed and are the ones the start index names, in order,
and the pair lies along the second axis of the start indices. -/

section Pick
variable {α : Type}

/-- Those dimension numbers; their conditions `wf` are decided on a program's literal shapes. -/
abbrev pickDims (A B C E : Nat)
    (wf : GatherDims.WF ⟨3, ![A, B, C]⟩ ⟨2, ![E, 2]⟩ ⟨2, ![E, C]⟩ [1] [0, 1] [] [0, 1] [] 1 ![1, 1, C]) :
    GatherDims ⟨3, ![A, B, C]⟩ ⟨2, ![E, 2]⟩ ⟨2, ![E, C]⟩ where
  offsetDims := [1]
  collapsedSliceDims := [0, 1]
  operandBatchingDims := []
  startIndicesBatchingDims := []
  startIndexMap := [0, 1]
  indexVectorDim := 1
  sliceSizes := ![1, 1, C]
  wf := wf

/-- The gather read at `y = (i, q)`: the operand at the pair of start coordinates of `i`, each read signed and clamped
    into its axis, and `q` on the last axis. Axis by axis the operand index is start + batch coordinate + offset
    coordinate: there is no batch axis; on the two collapsed axes the offset is 0 and the start is the clamped entry
    of the pair; on the last axis the start is 0 (the start index does not name it) and the offset is `q`. -/
theorem gather_pick_apply {A B C E w : Nat} (hA : 0 < A) (hB : 0 < B)
    (wf : GatherDims.WF ⟨3, ![A, B, C]⟩ ⟨2, ![E, 2]⟩ ⟨2, ![E, C]⟩ [1] [0, 1] [] [0, 1] [] 1 ![1, 1, C])
    (x : (⟨3, ![A, B, C]⟩ : Shape).Idx → α) (idx : IVec ⟨2, ![E, 2]⟩ w) (y : (⟨2, ![E, C]⟩ : Shape).Idx) :
    Host.gather (pickDims A B C E wf) x idx y
      = x (ix3 (⟨min (idx (ix2 (y 0) (0 : Fin 2))).toInt.toNat (A - 1), by omega⟩ : Fin A)
               (⟨min (idx (ix2 (y 0) (1 : Fin 2))).toInt.toNat (B - 1), by omega⟩ : Fin B) (y 1)) := by
  unfold Host.gather
  congr 1
  funext a
  refine Fin.ext ?_
  show (pickDims A B C E wf).start y idx a + (pickDims A B C E wf).batchCoord y a + (pickDims A B C E wf).offCoord y a = _
  rw [GatherDims.batchCoord_eq_zero _ _ _ List.not_mem_nil, Nat.add_zero]
  match a with
  | ⟨0, h0⟩ =>
    rw [GatherDims.offCoord_eq_zero _ _ _ (fun h => ((GatherDims.mem_sKept _ _).mp h).1 (List.mem_cons_self ..)), Nat.add_zero]
    unfold GatherDims.start
    rw [dif_pos (show (⟨0, h0⟩ : Fin 3) ∈ (pickDims A B C E wf).startIndexMap from List.mem_cons_self ..)]
    have hsi : (pickDims A B C E wf).siIdx y ⟨List.idxOf (⟨0, h0⟩ : Fin 3) (pickDims A B C E wf).startIndexMap,
        List.idxOf_lt_length_iff.2 (List.mem_cons_self ..)⟩ = ix2 (y 0) (0 : Fin 2) := by
      funext b; refine Fin.ext ?_
      match b with
      | ⟨0, _⟩ => rfl
      | ⟨1, _⟩ => rfl
    rw [hsi]
    rfl
  | ⟨1, h1⟩ =>
    rw [GatherDims.offCoord_eq_zero _ _ _ (fun h => ((GatherDims.mem_sKept _ _).mp h).1 (List.mem_cons_of_mem _ (List.mem_cons_self ..))), Nat.add_zero]
    unfold GatherDims.start
    rw [dif_pos (show (⟨1, h1⟩ : Fin 3) ∈ (pickDims A B C E wf).startIndexMap from List.mem_cons_of_mem _ (List.mem_cons_self ..))]
    have hsi : (pickDims A B C E wf).siIdx y ⟨List.idxOf (⟨1, h1⟩ : Fin 3) (pickDims A B C E wf).startIndexMap,
        List.idxOf_lt_length_iff.2 (List.mem_cons_of_mem _ (List.mem_cons_self ..))⟩ = ix2 (y 0) (1 : Fin 2) := by
      funext b; refine Fin.ext ?_
      match b with
      | ⟨0, _⟩ => rfl
      | ⟨1, _⟩ => rfl
    rw [hsi]
    rfl
  | ⟨2, h2⟩ =>
    have hs : (pickDims A B C E wf).start y idx ⟨2, h2⟩ = 0 := by
      unfold GatherDims.start
      rw [dif_neg (fun h => by
        rcases List.mem_cons.1 h with h | h
        · exact absurd (show (2 : Nat) = 0 from congrArg Fin.val h) (by decide)
        · rcases List.mem_cons.1 h with h | h
          · exact absurd (show (2 : Nat) = 1 from congrArg Fin.val h) (by decide)
          · exact absurd h List.not_mem_nil)]
    rw [hs, Nat.zero_add]
    rfl

/-- The same at an index given by its two coordinates, the two entries of the start index named. -/
theorem gather_pick_at {A B C E w : Nat} (hA : 0 < A) (hB : 0 < B)
    (wf : GatherDims.WF ⟨3, ![A, B, C]⟩ ⟨2, ![E, 2]⟩ ⟨2, ![E, C]⟩ [1] [0, 1] [] [0, 1] [] 1 ![1, 1, C])
    (x : (⟨3, ![A, B, C]⟩ : Shape).Idx → α) (idx : IVec ⟨2, ![E, 2]⟩ w) (e : Fin E) (q : Fin C)
    (a b : BitVec w) (ha : idx (ix2 e (0 : Fin 2)) = a) (hb : idx (ix2 e (1 : Fin 2)) = b) :
    Host.gather (pickDims A B C E wf) x idx (ix2 e q)
      = x (ix3 (⟨min a.toInt.toNat (A - 1), by omega⟩ : Fin A) (⟨min b.toInt.toNat (B - 1), by omega⟩ : Fin B) q) := by
  subst ha hb
  exact gather_pick_apply hA hB wf x idx (ix2 e q)

end Pick

/-! ## The pairs of start indices -/

section Columns
variable {α : Type}

/-- A vector made a column reads, at `(e, 0)`, the vector at `e`. -/
theorem column_apply {E : Nat} (a : (⟨1, ![E]⟩ : Shape).Idx → α)
    (hb : (⟨1, ![E]⟩ : Shape).BroadcastsInDim ⟨2, ![E, 1]⟩ (![0] : Fin 1 → Fin 2)) (e : Fin E) :
    broadcastInDim ⟨2, ![E, 1]⟩ (![0] : Fin 1 → Fin 2) hb a (ix2 e (0 : Fin 1)) = a (ix1 e) := by
  refine broadcastInDim_apply _ hb a _ (ix1 e) (fun c => ?_)
  match c with
  | ⟨0, _⟩ =>
    show e.val = if E = 1 then 0 else e.val
    split
    · have := e.isLt; omega
    · rfl

/-- Two columns side by side read, at `(e, 0)`, the first column. -/
theorem column_pair_fst {E : Nat} (a b : (⟨2, ![E, 1]⟩ : Shape).Idx → α)
    (hcat : Shape.Concatenates [(⟨2, ![E, 1]⟩ : Shape), ⟨2, ![E, 1]⟩] ⟨2, ![E, 2]⟩ 1) (e : Fin E) :
    concatenate ⟨2, ![E, 2]⟩ 1 [⟨⟨2, ![E, 1]⟩, a⟩, ⟨⟨2, ![E, 1]⟩, b⟩] hcat (ix2 e (0 : Fin 2)) = a (ix2 e (0 : Fin 1)) := by
  refine concatenate_pair_apply_left _ a b hcat _ rfl _ (fun c => ?_)
  match c with
  | ⟨0, _⟩ => rfl
  | ⟨1, _⟩ => rfl

/-- Two columns side by side read, at `(e, 1)`, the second column. -/
theorem column_pair_snd {E : Nat} (a b : (⟨2, ![E, 1]⟩ : Shape).Idx → α)
    (hcat : Shape.Concatenates [(⟨2, ![E, 1]⟩ : Shape), ⟨2, ![E, 1]⟩] ⟨2, ![E, 2]⟩ 1) (e : Fin E) :
    concatenate ⟨2, ![E, 2]⟩ 1 [⟨⟨2, ![E, 1]⟩, a⟩, ⟨⟨2, ![E, 1]⟩, b⟩] hcat (ix2 e (1 : Fin 2)) = b (ix2 e (0 : Fin 1)) := by
  refine concatenate_pair_apply_right _ a b hcat _ rfl rfl _ (fun c hc => ?_) rfl
  match c with
  | ⟨0, _⟩ => rfl
  | ⟨1, _⟩ => exact absurd rfl hc

end Columns

end Cert.EdgeGather

end
-- ==== Proof.EdgeGather.lean ====
/-
  The rows the edges carry, read entry by entry, in the two layouts the two programs use.

  The typed messages form a table with one row per node and 1024 columns: column 128 * e + q of row n is entry q
  of node n's message of edge type e. Edge number i has a source node s_i and a type t_i; it carries the 128
  numbers (n, 128 * e + q), q = 0 … 127, where n is s_i clamped into 0 … 99999 and e is t_i clamped into 0 … 7
  (both read as signed integers, a negative one as 0).

  Both programs get these rows by one gather whose start index has two coordinates and whose slice is one line
  of 128 entries along the last axis of a three-axis table:
    * the first program views the table as 100000 x 8 x 128 (the same entries in row-major order, so entry
      (n, e, q) of the view is entry (n, 128 * e + q) of the table) and pairs the start indices as (source, type);
    * the second program holds the messages as 8 x 100000 x 128, entry (e, n, q) being the table's
      (n, 128 * e + q), and pairs the start indices as (type, source).
  In both the pairs are built the same way: each of the two vectors of 600000 integers becomes a column
  600000 x 1, and the two columns are laid side by side into 600000 x 2.

  The steps: a gather with these dimension numbers reads, at (i, q), the operand at (clamp of the first start
  coordinate of i, clamp of the second, q); a vector made a column reads at (i, 0) the vector at i; two columns
  side by side read at (i, 0) the first and at (i, 1) the second; the three-axis view reads at (n, e, q) the table
  at (n, 128 * e + q). Put together, each program's gather is the specification's `edgeRows`.
-/
import proofs.«144449_j22325240004851_1_alg».proof.KernelIdeal
import proofs.«144449_j22325240004851_1_alg».proof.ReferenceIdeal
import proofs.«144449_j22325240004851_1_alg».proof.Proof.GraphSpec
import Idealize.ShloMosaic.Lib.ValueIdx
import Idealize.ShloMosaic.Lib.Pipeline.Value
import proofs.«144449_j22325240004851_1_alg».proof.Proof.LibGatherPick

noncomputable section

namespace Cert.EdgeGather

open Idealize.ShloMosaic Idealize.ShloMosaic.ValueIdx

/-! ## The table viewed with its columns split into 8 groups of 128 -/

section Reshape
variable {α : Type}

/-- Entry `(n, e, q)` of the view is entry `(n, 128 * e + q)` of the table: both sit at row-major position
    `1024 * n + 128 * e + q`. -/
theorem split_columns_apply (T : (⟨2, ![100000, 1024]⟩ : Shape).Idx → α)
    (hc : (⟨2, ![100000, 1024]⟩ : Shape).ShapeCasts ⟨3, ![100000, 8, 128]⟩) (n : Fin 100000) (e : Fin 8) (q : Fin 128) :
    shapeCast ⟨3, ![100000, 8, 128]⟩ T hc (ix3 n e q) = T (ix2 n (⟨e.val * 128 + q.val, by omega⟩ : Fin 1024)) := by
  refine shapeCast_apply T hc _ _ ?_
  rw [Shape.rowMajor_val_two, Shape.rowMajor_val_three]
  show n.val * 1024 + (e.val * 128 + q.val) = (n.val * 8 + e.val) * 128 + q.val
  omega

end Reshape

/-! ## The first program's layout: operand `100000 x 8 x 128`, pairs (source, type) -/

section Rows

/-- The kernel's edge rows at the edge `e` and column `q`, over literal shapes. -/
theorem kernel_rows_at (T : (⟨2, ![100000, 1024]⟩ : Shape).Idx → EReal) (src ty : (⟨1, ![600000]⟩ : Shape).Idx → BitVec 32)
    (hc : (⟨2, ![100000, 1024]⟩ : Shape).ShapeCasts ⟨3, ![100000, 8, 128]⟩)
    (hb : (⟨1, ![600000]⟩ : Shape).BroadcastsInDim ⟨2, ![600000, 1]⟩ (![0] : Fin 1 → Fin 2))
    (hcat : Shape.Concatenates [(⟨2, ![600000, 1]⟩ : Shape), ⟨2, ![600000, 1]⟩] ⟨2, ![600000, 2]⟩ 1)
    (wf : GatherDims.WF ⟨3, ![100000, 8, 128]⟩ ⟨2, ![600000, 2]⟩ ⟨2, ![600000, 128]⟩ [1] [0, 1] [] [0, 1] [] 1 ![1, 1, 128])
    (e : Fin 600000) (q : Fin 128) :
    Host.gather (pickDims 100000 8 128 600000 wf) (shapeCast ⟨3, ![100000, 8, 128]⟩ T hc)
        (concatenate ⟨2, ![600000, 2]⟩ 1
          [⟨⟨2, ![600000, 1]⟩, broadcastInDim ⟨2, ![600000, 1]⟩ ![0] hb src⟩,
           ⟨⟨2, ![600000, 1]⟩, broadcastInDim ⟨2, ![600000, 1]⟩ ![0] hb ty⟩] hcat) (ix2 e q)
      = Cert.GraphSpec.edgeRows T src ty (ix2 e q) := by
  rw [gather_pick_at (by omega) (by omega) wf _ _ e q (src (ix1 e)) (ty (ix1 e))
      ((column_pair_fst _ _ hcat e).trans (column_apply src hb e))
      ((column_pair_snd _ _ hcat e).trans (column_apply ty hb e)),
    split_columns_apply]
  rfl

/-- The first program's gather is the specification's edge rows. -/
theorem kernel_rows [Cert.KernelIdeal.Facts₀] (T : Cert.KernelIdeal.S100000x1024.Idx → EReal) (src ty : Cert.KernelIdeal.S600000.Idx → BitVec 32)
    (hc : Cert.KernelIdeal.S100000x1024.ShapeCasts Cert.KernelIdeal.S100000x8x128)
    (hb : Cert.KernelIdeal.S600000.BroadcastsInDim Cert.KernelIdeal.S600000x1 (![0] : Fin 1 → Fin 2))
    (hcat : Shape.Concatenates [Cert.KernelIdeal.S600000x1, Cert.KernelIdeal.S600000x1] Cert.KernelIdeal.S600000x2 1) :
    Host.gather Cert.KernelIdeal.gather_S100000x8x128_S600000x2_S600000x128_1_01_n_n_01_1_11128
        (shapeCast Cert.KernelIdeal.S100000x8x128 T hc)
        (concatenate Cert.KernelIdeal.S600000x2 1
          [⟨Cert.KernelIdeal.S600000x1, broadcastInDim Cert.KernelIdeal.S600000x1 ![0] hb src⟩,
           ⟨Cert.KernelIdeal.S600000x1, broadcastInDim Cert.KernelIdeal.S600000x1 ![0] hb ty⟩] hcat)
      = Cert.GraphSpec.edgeRows T src ty := by
  funext y
  obtain ⟨e, q, rfl⟩ : ∃ (e : Fin 600000) (q : Fin 128), y = ix2 e q := ⟨y 0, y 1, eq_ix2 y⟩
  exact kernel_rows_at T src ty hc hb hcat
    Cert.KernelIdeal.Facts₀.gather_S100000x8x128_S600000x2_S600000x128_1_01_n_n_01_1_11128_wf e q

end Rows

/-! ## The second program's layout: operand `8 x 100000 x 128`, pairs (type, source) -/

section ReferenceRows

/-- The reference's edge rows at the edge `e` and column `q`, over literal shapes. -/
theorem reference_rows_at (R : (⟨3, ![8, 100000, 128]⟩ : Shape).Idx → EReal) (T : (⟨2, ![100000, 1024]⟩ : Shape).Idx → EReal)
    (hRT : ∀ (e : Fin 8) (n : Fin 100000) (q : Fin 128),
      R (ix3 e n q) = T (ix2 n (⟨e.val * 128 + q.val, by omega⟩ : Fin 1024)))
    (src ty : (⟨1, ![600000]⟩ : Shape).Idx → BitVec 32)
    (hb : (⟨1, ![600000]⟩ : Shape).BroadcastsInDim ⟨2, ![600000, 1]⟩ (![0] : Fin 1 → Fin 2))
    (hcat : Shape.Concatenates [(⟨2, ![600000, 1]⟩ : Shape), ⟨2, ![600000, 1]⟩] ⟨2, ![600000, 2]⟩ 1)
    (wf : GatherDims.WF ⟨3, ![8, 100000, 128]⟩ ⟨2, ![600000, 2]⟩ ⟨2, ![600000, 128]⟩ [1] [0, 1] [] [0, 1] [] 1 ![1, 1, 128])
    (e : Fin 600000) (q : Fin 128) :
    Host.gather (pickDims 8 100000 128 600000 wf) R
        (concatenate ⟨2, ![600000, 2]⟩ 1
          [⟨⟨2, ![600000, 1]⟩, broadcastInDim ⟨2, ![600000, 1]⟩ ![0] hb ty⟩,
           ⟨⟨2, ![600000, 1]⟩, broadcastInDim ⟨2, ![600000, 1]⟩ ![0] hb src⟩] hcat) (ix2 e q)
      = Cert.GraphSpec.edgeRows T src ty (ix2 e q) := by
  rw [gather_pick_at (by omega) (by omega) wf _ _ e q (ty (ix1 e)) (src (ix1 e))
      ((column_pair_fst _ _ hcat e).trans (column_apply ty hb e))
      ((column_pair_snd _ _ hcat e).trans (column_apply src hb e)),
    hRT]
  rfl

/-- The second program's gather is the specification's edge rows, for an operand that holds the table's entry
    `(n, 128 * e + q)` at `(e, n, q)`. -/
theorem reference_rows [Cert.ReferenceIdeal.Facts₀] (R : Cert.ReferenceIdeal.S8x100000x128.Idx → EReal)
    (T : (⟨2, ![100000, 1024]⟩ : Shape).Idx → EReal)
    (hRT : ∀ (e : Fin 8) (n : Fin 100000) (q : Fin 128),
      R (ix3 e n q) = T (ix2 n (⟨e.val * 128 + q.val, by omega⟩ : Fin 1024)))
    (src ty : Cert.ReferenceIdeal.S600000.Idx → BitVec 32)
    (hb : Cert.ReferenceIdeal.S600000.BroadcastsInDim Cert.ReferenceIdeal.S600000x1 (![0] : Fin 1 → Fin 2))
    (hcat : Shape.Concatenates [Cert.ReferenceIdeal.S600000x1, Cert.ReferenceIdeal.S600000x1] Cert.ReferenceIdeal.S600000x2 1) :
    Host.gather Cert.ReferenceIdeal.gather_S8x100000x128_S600000x2_S600000x128_1_01_n_n_01_1_11128 R
        (concatenate Cert.ReferenceIdeal.S600000x2 1
          [⟨Cert.ReferenceIdeal.S600000x1, broadcastInDim Cert.ReferenceIdeal.S600000x1 ![0] hb ty⟩,
           ⟨Cert.ReferenceIdeal.S600000x1, broadcastInDim Cert.ReferenceIdeal.S600000x1 ![0] hb src⟩] hcat)
      = Cert.GraphSpec.edgeRows T src ty := by
  funext y
  obtain ⟨e, q, rfl⟩ : ∃ (e : Fin 600000) (q : Fin 128), y = ix2 e q := ⟨y 0, y 1, eq_ix2 y⟩
  exact reference_rows_at R T hRT src ty hb hcat
    Cert.ReferenceIdeal.Facts₀.gather_S8x100000x128_S600000x2_S600000x128_1_01_n_n_01_1_11128_wf e q

end ReferenceRows

end Cert.EdgeGather

end
-- ==== Proof.Aggregated.lean ====
/-
  The aggregate each gated update reads.

  In a round the program reshapes the typed messages so that a node's eight types are an axis, wraps negative
  source and type numbers, pairs them into one index row per edge, gathers each edge's row of 128 entries, and sums
  the rows into their destination nodes starting from zeros. Read at an index the gathered rows are the
  specification's `edgeRows` of the typed messages; the summation is kept as the one function `aggregate` of the
  destinations and the rows.
-/
import proofs.«144449_j22325240004851_1_alg».proof.Proof.Prepared
import proofs.«144449_j22325240004851_1_alg».proof.Proof.EdgeGather

set_option maxRecDepth 16384

noncomputable section

namespace Cert.KernelIdeal.Net

open Idealize.ShloMosaic Idealize.ShloMosaic.TcCoe Idealize.ShloMosaic.Tactic Idealize.ShloMosaic.StableHlo
open Idealize.ShloMosaic.ValueIdx
open Idealize.SL Idealize.SL.Sem
open Cert.KernelIdeal Cert.KernelIdeal.Gen

/-- The rows `u` of the edges summed into their destination nodes `dst`, from zeros. -/
def aggregate (dst : S600000.Idx → BitVec 32) (u : S600000x128.Idx → EReal) : S100000x128.Idx → EReal :=
  Host.scatterAdd (F := Ideal) scatter_S100000x128_S600000x1_S600000x128_1_0_0_1
    (broadcastInDim S100000x128 ![] bcast_S_S100000x128 (constant (F := Ideal) S_ .f32 0x00000000#32))
    (broadcastInDim S600000x1 ![0] bcast_S600000_S600000x1_0 dst) u

/-- The summed gather depends on the two index columns only through their values. -/
theorem two_columns (D : ScatterDims S100000x128 S600000x1 S600000x128)
    (z : FVec Ideal S100000x128 .f32) (i : IVec S600000x1 32)
    (G : GatherDims S100000x8x128 S600000x2 S600000x128) (T : FVec Ideal S100000x8x128 .f32)
    (hcat : Shape.Concatenates [S600000x1, S600000x1] S600000x2 1)
    (A B : IVec S600000x1 32) {A' B' : IVec S600000x1 32} (hA : A = A') (hB : B = B') :
    Host.scatterAdd (F := Ideal) (φ := .f32) D z i
        (Host.gather G T (concatenate S600000x2 1 [⟨S600000x1, A⟩, ⟨S600000x1, B⟩] hcat))
      = Host.scatterAdd (F := Ideal) (φ := .f32) D z i
        (Host.gather G T (concatenate S600000x2 1 [⟨S600000x1, A'⟩, ⟨S600000x1, B'⟩] hcat)) := by
  subst hA hB; rfl

variable (m : (ℓ : Loc nD τ sig) → Buf (Elt Ideal) ℓ) (ρ : Dev nD → PrngReg) (c : Dev nD)

set_option maxHeartbeats 1600000 in
/-- The first round's aggregate. -/
theorem at5_v26 : (W5 m ρ c (Proc.devRef .tc main_v26) : S100000x128.Idx → EReal)
    = aggregate (Cert.GraphSpec.edgeEnds (m ((c : Thread nD τ).loc main_arg1)) 1)
        (Cert.GraphSpec.edgeRows (W4 m ρ c (Proc.devRef .tc main_v8))
          (Cert.GraphSpec.wrapNegative 100000#32 (Cert.GraphSpec.edgeEnds (m ((c : Thread nD τ).loc main_arg1)) 0))
          (Cert.GraphSpec.wrapNegative 8#32 (m ((c : Thread nD τ).loc main_arg2)))) := by
  show StableHlo.after hostOps2 _ (Proc.devRef .tc _) = _
  after_results_simp
  refine (two_columns _ _ _ _ _ _ _ _
    (A' := broadcastInDim S600000x1 ![0] bcast_S600000_S600000x1_0 (Cert.GraphSpec.wrapNegative 100000#32 (W4 m ρ c (Proc.devRef .tc main_v1))))
    (B' := broadcastInDim S600000x1 ![0] bcast_S600000_S600000x1_0 (Cert.GraphSpec.wrapNegative 8#32 (W4 m ρ c (Proc.devRef .tc main_arg2))))
    ?_ ?_).trans ?_
  · after_results_simp
    rfl
  · after_results_simp
    rfl
  · rw [Boundary.at4_v3, Prepared.at1_v3, Boundary.at4_v1, Prepared.at1_v1, Boundary.at4_arg2]
    exact congrArg _ (Cert.EdgeGather.kernel_rows (W4 m ρ c (Proc.devRef .tc main_v8)) _ _ shapeCasts_S100000x1024_S100000x8x128 bcast_S600000_S600000x1_0 concatenates_S600000x1_S600000x1_S600000x2_d1)

set_option maxHeartbeats 1600000 in
/-- The second round's aggregate. -/
theorem at9_v58 : (W9 m ρ c (Proc.devRef .tc main_v58) : S100000x128.Idx → EReal)
    = aggregate (Cert.GraphSpec.edgeEnds (m ((c : Thread nD τ).loc main_arg1)) 1)
        (Cert.GraphSpec.edgeRows (W8 m ρ c (Proc.devRef .tc main_v40))
          (Cert.GraphSpec.wrapNegative 100000#32 (Cert.GraphSpec.edgeEnds (m ((c : Thread nD τ).loc main_arg1)) 0))
          (Cert.GraphSpec.wrapNegative 8#32 (m ((c : Thread nD τ).loc main_arg2)))) := by
  show StableHlo.after hostOps4 _ (Proc.devRef .tc _) = _
  after_results_simp
  refine (two_columns _ _ _ _ _ _ _ _
    (A' := broadcastInDim S600000x1 ![0] bcast_S600000_S600000x1_0 (Cert.GraphSpec.wrapNegative 100000#32 (W8 m ρ c (Proc.devRef .tc main_v1))))
    (B' := broadcastInDim S600000x1 ![0] bcast_S600000_S600000x1_0 (Cert.GraphSpec.wrapNegative 8#32 (W8 m ρ c (Proc.devRef .tc main_arg2))))
    ?_ ?_).trans ?_
  · after_results_simp
    rfl
  · after_results_simp
    rfl
  · rw [BoundaryLate.at8_v3, Boundary.at4_v3, Prepared.at1_v3, BoundaryLate.at8_v1, Boundary.at4_v1, Prepared.at1_v1, BoundaryLate.at8_arg2, Boundary.at4_arg2]
    exact congrArg _ (Cert.EdgeGather.kernel_rows (W8 m ρ c (Proc.devRef .tc main_v40)) _ _ shapeCasts_S100000x1024_S100000x8x128 bcast_S600000_S600000x1_0 concatenates_S600000x1_S600000x1_S600000x2_d1)

end Cert.KernelIdeal.Net

end
-- ==== Proof.AffineArray0.lean ====
/-
  The input map of the network, read off the kernel: the region computes, block by block of 2000 rows,
      y[n, q] = max((sum over k of x[n, k] * w[q, k]) + b[0, q], 0)
  for the 100000 rows of x, the 128 weight rows w and the one-row bias b.

  The steps:
    * the body's stored value at an index of its block: its matrix product contracts axis 1 of both operands, so the
      entry (p, q) is the sum over k of (row p of the left block at k) times (row q of the weights at k); the change
      of float format is the identity over the extended reals; the bias row is spread over the block's rows; the
      positive part is taken against the zero word;
    * the block of the input rows at grid point t is rows 2000 t … 2000 t + 1999 of the array, the weights' and
      the bias's windows are their whole arrays, and the output's block at point t sits at the same rows;
    * so what point t writes back is block t of the specification's function of the three arrays;
    * the fifty blocks fill the 100000 rows (row r is in the block of point r / 2000), hence the output array ends
      holding the specification's function.
-/
import proofs.«144449_j22325240004851_1_alg».proof.Proof.Gen.KernelIdeal.Frame
import proofs.«144449_j22325240004851_1_alg».proof.Proof.GraphSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.AffineArray0

open Idealize.ShloMosaic Idealize.ShloMosaic.ValueIdx Idealize.ShloMosaic.TcCoe Idealize.SL.Sem
open Cert.KernelIdeal

/-- The left operand's index of the product on its row axis: the output's row. -/
theorem lhs_row (j : S2000x128.Idx) (κ : dot_S2000x128_S128x128_S2000x128_1_1_0_0_n_n.contr.Idx) :
    (dot_S2000x128_S128x128_S2000x128_1_1_0_0_n_n.lhsIdx j κ 0).val = (j 0).val := by
  unfold DotDims.lhsIdx
  rw [dif_neg (show ¬(0 : Fin S2000x128.rank) ∈ dot_S2000x128_S128x128_S2000x128_1_1_0_0_n_n.lhsBatch by decide),
    dif_pos (show (0 : Fin S2000x128.rank) ∈ dot_S2000x128_S128x128_S2000x128_1_1_0_0_n_n.lhsNonContracting by decide)]
  rfl

/-- The right operand's index of the product on its row axis: the output's column. -/
theorem rhs_row (j : S2000x128.Idx) (κ : dot_S2000x128_S128x128_S2000x128_1_1_0_0_n_n.contr.Idx) :
    (dot_S2000x128_S128x128_S2000x128_1_1_0_0_n_n.rhsIdx j κ 0).val = (j 1).val := by
  unfold DotDims.rhsIdx
  rw [dif_neg (show ¬(0 : Fin S128x128.rank) ∈ dot_S2000x128_S128x128_S2000x128_1_1_0_0_n_n.rhsBatch by decide),
    dif_pos (show (0 : Fin S128x128.rank) ∈ dot_S2000x128_S128x128_S2000x128_1_1_0_0_n_n.rhsNonContracting by decide)]
  rfl

/-- The left operand's index of the product: output row, contraction position. -/
theorem lhs_index (p : Fin 2000) (q : Fin 128) (k : Fin 128) :
    dot_S2000x128_S128x128_S2000x128_1_1_0_0_n_n.lhsIdx (ix2 p q)
        ((contrEquiv1 dot_S2000x128_S128x128_S2000x128_1_1_0_0_n_n 128 rfl rfl).symm k)
      = ix2 p k := by
  have hk := contrEquiv1_symm_val dot_S2000x128_S128x128_S2000x128_1_1_0_0_n_n 128 rfl rfl k
  funext a; apply Fin.ext
  match a with
  | ⟨0, _⟩ => exact lhs_row _ _
  | ⟨1, _⟩ => exact (dot_S2000x128_S128x128_S2000x128_1_1_0_0_n_n.lhsIdx_val_of_single rfl _ _).trans hk

/-- The right operand's index of the product: output column (a row of the weights), contraction position. -/
theorem rhs_index (p : Fin 2000) (q : Fin 128) (k : Fin 128) :
    dot_S2000x128_S128x128_S2000x128_1_1_0_0_n_n.rhsIdx (ix2 p q)
        ((contrEquiv1 dot_S2000x128_S128x128_S2000x128_1_1_0_0_n_n 128 rfl rfl).symm k)
      = ix2 q k := by
  have hk := contrEquiv1_symm_val dot_S2000x128_S128x128_S2000x128_1_1_0_0_n_n 128 rfl rfl k
  funext a; apply Fin.ext
  match a with
  | ⟨0, _⟩ => exact rhs_row _ _
  | ⟨1, _⟩ => exact (dot_S2000x128_S128x128_S2000x128_1_1_0_0_n_n.rhsIdx_val_of_single rfl _ _).trans hk

/-- The body's product into a zero accumulator, at an index: rows of the left block against rows of the right. -/
theorem contraction_apply (a : FVec Ideal S2000x128 .bf16) (b : FVec Ideal S128x128 .bf16) (p : Fin 2000) (q : Fin 128) :
    Idealize.ShloMosaic.matmul dot_S2000x128_S128x128_S2000x128_1_1_0_0_n_n none a b (constant (F := Ideal) S2000x128 .f32 0x00000000#32) (ix2 p q)
      = ∑ k : Fin 128, a (ix2 p k) * b (ix2 q k) := by
  refine (Ideal.matmul_constant_zero_apply dot_S2000x128_S128x128_S2000x128_1_1_0_0_n_n none a b (ix2 p q)).trans ?_
  rw [← Equiv.sum_comp (contrEquiv1 dot_S2000x128_S128x128_S2000x128_1_1_0_0_n_n 128 rfl rfl).symm]
  refine Finset.sum_congr rfl fun k _ => ?_
  rw [lhs_index, rhs_index]

/-- The bias row spread over the block's rows, at an index: the bias of the column. -/
theorem bias_apply (x2 : Vec Ideal S1x128 .f32) (p : Fin 2000) (q : Fin 128) :
    broadcastTo S2000x128 (shapeCast S1x128 x2 Facts₀.shapeCasts_S1x128_S1x128) Facts₀.broadcasts_S1x128_S2000x128 (ix2 p q)
      = x2 (ix2 (0 : Fin 1) q) := by
  rw [shapeCast_self]
  refine broadcastTo_apply x2 _ (ix2 p q) (ix2 (0 : Fin 1) q) fun a => ?_
  match a with
  | ⟨0, _⟩ => rfl
  | ⟨1, _⟩ => rfl

/-- The body's stored value at an index: the row of the left block against the column's weight row, plus the
    column's bias, and the positive part of that. -/
theorem payload_apply (x0 : Vec Ideal S2000x128 .f32) (x1 : Vec Ideal S128x128 .f32) (x2 : Vec Ideal S1x128 .f32)
    (p : Fin 2000) (q : Fin 128) :
    Gen.k0_pay1 x0 x1 x2 (ix2 p q)
      = max ((∑ k : Fin 128, x0 (ix2 p k) * x1 (ix2 q k)) + x2 (ix2 (0 : Fin 1) q)) (Ideal.ofBits .f32 0x00000000#32) := by
  unfold Gen.k0_pay1
  rw [maximumf_apply, addf_apply, broadcast_apply, bias_apply]
  refine congrArg (fun z => max (z + x2 (ix2 (0 : Fin 1) q)) _) ?_
  exact contraction_apply _ _ p q

theorem offsets_zero : (![0, 0] : Fin 2 → Nat) = fun _ => 0 := funext fun a => by fin_cases a <;> rfl

/-- The printed index maps over the grid: the row-block windows sit at block (t, 0), the whole windows at (0, 0). -/
theorem index_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- The body's stored value at any index of the block. -/
theorem payload_at (x0 : Vec Ideal S2000x128 .f32) (x1 : Vec Ideal S128x128 .f32) (x2 : Vec Ideal S1x128 .f32)
    (j : S2000x128.Idx) :
    Gen.k0_pay1 x0 x1 x2 j
      = max ((∑ k : Fin 128, x0 (ix2 (j 0) k) * x1 (ix2 (j 1) k)) + x2 (ix2 (0 : Fin 1) (j 1))) (Ideal.ofBits .f32 0x00000000#32) := by
  obtain ⟨p, q, rfl⟩ : ∃ (p : Fin 2000) (q : Fin 128), j = ix2 p q := ⟨j 0, j 1, eq_ix2 j⟩
  exact payload_apply x0 x1 x2 p q

/-- Row `p` of the block of point `t` is row `2000 t + p` of the array. -/
abbrev blockRow (t : Fin cfg0.N) (p : Fin 2000) : Fin 100000 :=
  ⟨t.val * 2000 + p.val, by
    have h : t.val < 50 := lt_of_lt_of_eq t.isLt Gen.N_0
    have hp : p.val < 2000 := p.isLt
    omega⟩

/-- The input rows' block at point `t`, read at an index: the array's row `2000 t + p`. -/
theorem rows_block (A : S100000x128.Idx → EReal) (t : Fin cfg0.N) (p : Fin 2000) (k : Fin 128) :
    ((cfg0.win 0).blk t).view.read (Elt Ideal) A (ix2 p k) = A (ix2 (blockRow t p) k) := by
  obtain ⟨e0, e1, -⟩ := index_facts t
  rw [View.read_apply]
  refine congrArg A (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

/-- The weights' window is the whole array at every point. -/
theorem weights_block (W : S128x128.Idx → EReal) (t : Fin cfg0.N) (q : Fin 128) (k : Fin 128) :
    ((cfg0.win 1).blk t).view.read (Elt Ideal) W (ix2 q k) = W (ix2 q k) := by
  obtain ⟨-, -, e0, e1, -⟩ := index_facts t
  rw [View.read_apply]
  refine congrArg W (funext fun a => Fin.ext ?_)
  match a with
  | ⟨0, _⟩ => show win0_1.index t (0 : Fin 2) * 128 + 1 * q.val = q.val; rw [e0]; omega
  | ⟨1, _⟩ => show win0_1.index t (1 : Fin 2) * 128 + 1 * k.val = k.val; rw [e1]; omega

/-- The bias's window is the whole one-row array at every point. -/
theorem bias_block (B : S1x128.Idx → EReal) (t : Fin cfg0.N) (q : Fin 128) :
    ((cfg0.win 2).blk t).view.read (Elt Ideal) B (ix2 (0 : Fin 1) q) = B (ix2 (0 : Fin 1) q) := by
  obtain ⟨-, -, -, -, e0, e1, -⟩ := index_facts t
  rw [View.read_apply]
  refine congrArg B (funext fun a => Fin.ext ?_)
  match a with
  | ⟨0, _⟩ => show win0_2.index t (0 : Fin 2) * 1 + 1 * 0 = 0; rw [e0]
  | ⟨1, _⟩ => show win0_2.index t (1 : Fin 2) * 128 + 1 * q.val = q.val; rw [e1]; omega

/-- An index of the output's block at point `t`, in the array: row `2000 t + p`, the same column. -/
theorem out_index (t : Fin cfg0.N) (y : S2000x128.Idx) :
    ((cfg0.win 3).blk t).view.emb y = ix2 (blockRow t (y 0)) (y 1) := by
  obtain ⟨-, -, -, -, -, -, e0, e1⟩ := index_facts t
  funext a; apply Fin.ext
  match a with
  | ⟨0, _⟩ => show win0_3.index t (0 : Fin 2) * 2000 + 1 * (y 0).val = t.val * 2000 + (y 0).val; rw [e0]; omega
  | ⟨1, _⟩ => show win0_3.index t (1 : Fin 2) * 128 + 1 * (y 1).val = (y 1).val; rw [e1]; omega

/-- What point `t` writes back is block `t` of the specification's rows of the arrays the region finds. -/
theorem flushed_eq (V : (c : Dev nD) → (b : Ref sig .tc) → Buf (Elt Ideal) ((c : Thread nD τ).loc b)) (c : Dev nD) (t : Fin cfg0.N) :
    (Gen.dat0 (F := Ideal) V c).flushed 3 t
      = ((cfg0.win 3).blk t).view.read (Elt Ideal)
          (Cert.GraphSpec.affineReluRows (V c (Pipeline.arrRef spec0 0)) (V c (Pipeline.arrRef spec0 1)) (V c (Pipeline.arrRef spec0 2))) := by
  show (cfg0.win 3).cut (grid0.coords t) ((Gen.dat0 V c).after 3 t) = _
  rw [Gen.after0_3]
  unfold Gen.out0_3
  rw [View.canon_unit_zero offsets_zero]
  simp only [View.ld_unit_zero (S := S2000x128) offsets_zero, View.ld_unit_zero (S := S128x128) offsets_zero, View.ld_unit_zero (S := S1x128) offsets_zero]
  funext y
  refine (payload_at _ _ _ y).trans ?_
  rw [View.read_apply]
  refine Eq.trans ?_ (congrArg (Cert.GraphSpec.affineReluRows _ _ _) (out_index t y)).symm
  unfold Gen.iblk0 Cert.GraphSpec.affineReluRows Cert.GraphSpec.affineRows
  refine congrArg₂ max (congrArg₂ (· + ·) (Finset.sum_congr rfl fun k _ => ?_) ?_) rfl
  · exact congrArg₂ (· * ·) (rows_block _ t (y 0) k) (weights_block _ t (y 1) k)
  · exact bias_block _ t (y 1)

/-- An index of the array is in point `t`'s block iff each coordinate is in the block's range on its axis. -/
theorem mem_block (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v5).slice (win0_3.rect t)).set ↔ _
  rw [View.set_slice_whole, Rect.mem_set_unit]
  exact Iff.rfl

/-- The fifty blocks of 2000 rows fill the array: row `r` is in the block of point `r / 2000`. -/
theorem covered (i : S100000x128.Idx) :
    ∃ t : Fin cfg0.N, (cfg0.win 3).flush t = true ∧ i ∈ ((cfg0.win 3).blk t).view.set := by
  have hi0 : (i 0).val < 100000 := idx2_lt0 i
  have hi1 : (i 1).val < 128 := idx2_lt1 i
  have ht : (i 0).val / 2000 < cfg0.N := lt_of_lt_of_eq (by omega : (i 0).val / 2000 < 50) Gen.N_0.symm
  obtain ⟨-, -, -, -, -, -, e0, e1⟩ := index_facts ⟨(i 0).val / 2000, ht⟩
  refine ⟨⟨(i 0).val / 2000, ht⟩, Gen.flush0_3 _, ?_⟩
  rw [mem_block]
  intro a
  match a with
  | ⟨0, _⟩ =>
    show win0_3.index ⟨(i 0).val / 2000, ht⟩ (0 : Fin 2) * 2000 ≤ (i 0).val
      ∧ (i 0).val < win0_3.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_3.index ⟨(i 0).val / 2000, ht⟩ (1 : Fin 2) * 128 ≤ (i 1).val
      ∧ (i 1).val < win0_3.index ⟨(i 0).val / 2000, ht⟩ (1 : Fin 2) * 128 + 128
    rw [e1]
    omega

/-- The output array after the region's fifty points: the affine map of the input rows by the weight rows plus the bias,
    and the positive part of that, index by index. -/
theorem array (V : (c : Dev nD) → (b : Ref sig .tc) → Buf (Elt Ideal) ((c : Thread nD τ).loc b)) (c : Dev nD) :
    (Gen.dat0 (F := Ideal) V c).arrAt 3 cfg0.N
      = Cert.GraphSpec.affineReluRows (V c (Pipeline.arrRef spec0 0)) (V c (Pipeline.arrRef spec0 1)) (V c (Pipeline.arrRef spec0 2)) :=
  (Gen.dat0 (F := Ideal) V c).arrAt_eq_of_cover 3 _ (fun t _ => flushed_eq V c t) covered

end Cert.KernelIdeal.AffineArray0

end
-- ==== Proof.AffineArray5.lean ====
/-
  The output map of the network, read off the kernel: the region computes, block by block of 2000 rows,
      y[n, q] = (sum over k of x[n, k] * w[q, k]) + b[0, q]
  for the 100000 rows of x, the 128 weight rows w and the one-row bias b.

  The steps:
    * the body's stored value at an index of its block: its matrix product contracts axis 1 of both operands, so the
      entry (p, q) is the sum over k of (row p of the left block at k) times (row q of the weights at k); the change
      of float format and the reshape to the same shape are the identity; the bias row is spread over the block's rows;
    * the block of the input rows at grid point t is rows 2000 t … 2000 t + 1999 of the array, the weights' and
      the bias's windows are their whole arrays, and the output's block at point t sits at the same rows;
    * so what point t writes back is block t of the specification's function of the three arrays;
    * the fifty blocks fill the 100000 rows (row r is in the block of point r / 2000), hence the output array ends
      holding the specification's function.
-/
import proofs.«144449_j22325240004851_1_alg».proof.Proof.Gen.KernelIdeal.Frame
import proofs.«144449_j22325240004851_1_alg».proof.Proof.GraphSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.AffineArray5

open Idealize.ShloMosaic Idealize.ShloMosaic.ValueIdx Idealize.ShloMosaic.TcCoe Idealize.SL.Sem
open Cert.KernelIdeal

/-- The left operand's index of the product on its row axis: the output's row. -/
theorem lhs_row (j : S2000x128.Idx) (κ : dot_S2000x128_S128x128_S2000x128_1_1_0_0_n_n.contr.Idx) :
    (dot_S2000x128_S128x128_S2000x128_1_1_0_0_n_n.lhsIdx j κ 0).val = (j 0).val := by
  unfold DotDims.lhsIdx
  rw [dif_neg (show ¬(0 : Fin S2000x128.rank) ∈ dot_S2000x128_S128x128_S2000x128_1_1_0_0_n_n.lhsBatch by decide),
    dif_pos (show (0 : Fin S2000x128.rank) ∈ dot_S2000x128_S128x128_S2000x128_1_1_0_0_n_n.lhsNonContracting by decide)]
  rfl

/-- The right operand's index of the product on its row axis: the output's column. -/
theorem rhs_row (j : S2000x128.Idx) (κ : dot_S2000x128_S128x128_S2000x128_1_1_0_0_n_n.contr.Idx) :
    (dot_S2000x128_S128x128_S2000x128_1_1_0_0_n_n.rhsIdx j κ 0).val = (j 1).val := by
  unfold DotDims.rhsIdx
  rw [dif_neg (show ¬(0 : Fin S128x128.rank) ∈ dot_S2000x128_S128x128_S2000x128_1_1_0_0_n_n.rhsBatch by decide),
    dif_pos (show (0 : Fin S128x128.rank) ∈ dot_S2000x128_S128x128_S2000x128_1_1_0_0_n_n.rhsNonContracting by decide)]
  rfl

/-- The left operand's index of the product: output row, contraction position. -/
theorem lhs_index (p : Fin 2000) (q : Fin 128) (k : Fin 128) :
    dot_S2000x128_S128x128_S2000x128_1_1_0_0_n_n.lhsIdx (ix2 p q)
        ((contrEquiv1 dot_S2000x128_S128x128_S2000x128_1_1_0_0_n_n 128 rfl rfl).symm k)
      = ix2 p k := by
  have hk := contrEquiv1_symm_val dot_S2000x128_S128x128_S2000x128_1_1_0_0_n_n 128 rfl rfl k
  funext a; apply Fin.ext
  match a with
  | ⟨0, _⟩ => exact lhs_row _ _
  | ⟨1, _⟩ => exact (dot_S2000x128_S128x128_S2000x128_1_1_0_0_n_n.lhsIdx_val_of_single rfl _ _).trans hk

/-- The right operand's index of the product: output column (a row of the weights), contraction position. -/
theorem rhs_index (p : Fin 2000) (q : Fin 128) (k : Fin 128) :
    dot_S2000x128_S128x128_S2000x128_1_1_0_0_n_n.rhsIdx (ix2 p q)
        ((contrEquiv1 dot_S2000x128_S128x128_S2000x128_1_1_0_0_n_n 128 rfl rfl).symm k)
      = ix2 q k := by
  have hk := contrEquiv1_symm_val dot_S2000x128_S128x128_S2000x128_1_1_0_0_n_n 128 rfl rfl k
  funext a; apply Fin.ext
  match a with
  | ⟨0, _⟩ => exact rhs_row _ _
  | ⟨1, _⟩ => exact (dot_S2000x128_S128x128_S2000x128_1_1_0_0_n_n.rhsIdx_val_of_single rfl _ _).trans hk

/-- The body's product into a zero accumulator, at an index: rows of the left block against rows of the right. -/
theorem contraction_apply (a : FVec Ideal S2000x128 .bf16) (b : FVec Ideal S128x128 .bf16) (p : Fin 2000) (q : Fin 128) :
    Idealize.ShloMosaic.matmul dot_S2000x128_S128x128_S2000x128_1_1_0_0_n_n none a b (constant (F := Ideal) S2000x128 .f32 0x00000000#32) (ix2 p q)
      = ∑ k : Fin 128, a (ix2 p k) * b (ix2 q k) := by
  refine (Ideal.matmul_constant_zero_apply dot_S2000x128_S128x128_S2000x128_1_1_0_0_n_n none a b (ix2 p q)).trans ?_
  rw [← Equiv.sum_comp (contrEquiv1 dot_S2000x128_S128x128_S2000x128_1_1_0_0_n_n 128 rfl rfl).symm]
  refine Finset.sum_congr rfl fun k _ => ?_
  rw [lhs_index, rhs_index]

/-- The bias row spread over the block's rows, at an index: the bias of the column. -/
theorem bias_apply (x2 : Vec Ideal S1x128 .f32) (p : Fin 2000) (q : Fin 128) :
    broadcastTo S2000x128 (shapeCast S1x128 x2 Facts₀.shapeCasts_S1x128_S1x128) Facts₀.broadcasts_S1x128_S2000x128 (ix2 p q)
      = x2 (ix2 (0 : Fin 1) q) := by
  rw [shapeCast_self]
  refine broadcastTo_apply x2 _ (ix2 p q) (ix2 (0 : Fin 1) q) fun a => ?_
  match a with
  | ⟨0, _⟩ => rfl
  | ⟨1, _⟩ => rfl

/-- The body's stored value at an index: the row of the left block against the column's weight row, plus the
    column's bias. -/
theorem payload_apply (x0 : Vec Ideal S2000x128 .f32) (x1 : Vec Ideal S128x128 .f32) (x2 : Vec Ideal S1x128 .f32)
    (p : Fin 2000) (q : Fin 128) :
    Gen.k5_pay1 x0 x1 x2 (ix2 p q)
      = (∑ k : Fin 128, x0 (ix2 p k) * x1 (ix2 q k)) + x2 (ix2 (0 : Fin 1) q) := by
  unfold Gen.k5_pay1
  rw [addf_apply, bias_apply, shapeCast_self]
  refine congrArg (fun z => z + x2 (ix2 (0 : Fin 1) q)) ?_
  exact contraction_apply _ _ p q

theorem offsets_zero : (![0, 0] : Fin 2 → Nat) = fun _ => 0 := funext fun a => by fin_cases a <;> rfl

/-- The printed index maps over the grid: the row-block windows sit at block (t, 0), the whole windows at (0, 0). -/
theorem index_facts : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = t.val
    ∧ win5_3.index t (1 : Fin 2) = 0 :=
  (by decide +kernel : ∀ t : Fin grid5.N, _)

/-- The body's stored value at any index of the block. -/
theorem payload_at (x0 : Vec Ideal S2000x128 .f32) (x1 : Vec Ideal S128x128 .f32) (x2 : Vec Ideal S1x128 .f32)
    (j : S2000x128.Idx) :
    Gen.k5_pay1 x0 x1 x2 j
      = (∑ k : Fin 128, x0 (ix2 (j 0) k) * x1 (ix2 (j 1) k)) + x2 (ix2 (0 : Fin 1) (j 1)) := by
  obtain ⟨p, q, rfl⟩ : ∃ (p : Fin 2000) (q : Fin 128), j = ix2 p q := ⟨j 0, j 1, eq_ix2 j⟩
  exact payload_apply x0 x1 x2 p q

/-- Row `p` of the block of point `t` is row `2000 t + p` of the array. -/
abbrev blockRow (t : Fin cfg5.N) (p : Fin 2000) : Fin 100000 :=
  ⟨t.val * 2000 + p.val, by
    have h : t.val < 50 := lt_of_lt_of_eq t.isLt Gen.N_5
    have hp : p.val < 2000 := p.isLt
    omega⟩

/-- The input rows' block at point `t`, read at an index: the array's row `2000 t + p`. -/
theorem rows_block (A : S100000x128.Idx → EReal) (t : Fin cfg5.N) (p : Fin 2000) (k : Fin 128) :
    ((cfg5.win 0).blk t).view.read (Elt Ideal) A (ix2 p k) = A (ix2 (blockRow t p) k) := by
  obtain ⟨e0, e1, -⟩ := index_facts t
  rw [View.read_apply]
  refine congrArg A (funext fun a => Fin.ext ?_)
  match a with
  | ⟨0, _⟩ => show win5_0.index t (0 : Fin 2) * 2000 + 1 * p.val = t.val * 2000 + p.val; rw [e0]; omega
  | ⟨1, _⟩ => show win5_0.index t (1 : Fin 2) * 128 + 1 * k.val = k.val; rw [e1]; omega

/-- The weights' window is the whole array at every point. -/
theorem weights_block (W : S128x128.Idx → EReal) (t : Fin cfg5.N) (q : Fin 128) (k : Fin 128) :
    ((cfg5.win 1).blk t).view.read (Elt Ideal) W (ix2 q k) = W (ix2 q k) := by
  obtain ⟨-, -, e0, e1, -⟩ := index_facts t
  rw [View.read_apply]
  refine congrArg W (funext fun a => Fin.ext ?_)
  match a with
  | ⟨0, _⟩ => show win5_1.index t (0 : Fin 2) * 128 + 1 * q.val = q.val; rw [e0]; omega
  | ⟨1, _⟩ => show win5_1.index t (1 : Fin 2) * 128 + 1 * k.val = k.val; rw [e1]; omega

/-- The bias's window is the whole one-row array at every point. -/
theorem bias_block (B : S1x128.Idx → EReal) (t : Fin cfg5.N) (q : Fin 128) :
    ((cfg5.win 2).blk t).view.read (Elt Ideal) B (ix2 (0 : Fin 1) q) = B (ix2 (0 : Fin 1) q) := by
  obtain ⟨-, -, -, -, e0, e1, -⟩ := index_facts t
  rw [View.read_apply]
  refine congrArg B (funext fun a => Fin.ext ?_)
  match a with
  | ⟨0, _⟩ => show win5_2.index t (0 : Fin 2) * 1 + 1 * 0 = 0; rw [e0]
  | ⟨1, _⟩ => show win5_2.index t (1 : Fin 2) * 128 + 1 * q.val = q.val; rw [e1]; omega

/-- An index of the output's block at point `t`, in the array: row `2000 t + p`, the same column. -/
theorem out_index (t : Fin cfg5.N) (y : S2000x128.Idx) :
    ((cfg5.win 3).blk t).view.emb y = ix2 (blockRow t (y 0)) (y 1) := by
  obtain ⟨-, -, -, -, -, -, e0, e1⟩ := index_facts t
  funext a; apply Fin.ext
  match a with
  | ⟨0, _⟩ => show win5_3.index t (0 : Fin 2) * 2000 + 1 * (y 0).val = t.val * 2000 + (y 0).val; rw [e0]; omega
  | ⟨1, _⟩ => show win5_3.index t (1 : Fin 2) * 128 + 1 * (y 1).val = (y 1).val; rw [e1]; omega

/-- What point `t` writes back is block `t` of the specification's rows of the arrays the region finds. -/
theorem flushed_eq (V : (c : Dev nD) → (b : Ref sig .tc) → Buf (Elt Ideal) ((c : Thread nD τ).loc b)) (c : Dev nD) (t : Fin cfg5.N) :
    (Gen.dat5 (F := Ideal) V c).flushed 3 t
      = ((cfg5.win 3).blk t).view.read (Elt Ideal)
          (Cert.GraphSpec.affineRows (V c (Pipeline.arrRef spec5 0)) (V c (Pipeline.arrRef spec5 1)) (V c (Pipeline.arrRef spec5 2))) := by
  show (cfg5.win 3).cut (grid5.coords t) ((Gen.dat5 V c).after 3 t) = _
  rw [Gen.after5_3]
  unfold Gen.out5_3
  rw [View.canon_unit_zero offsets_zero]
  simp only [View.ld_unit_zero (S := S2000x128) offsets_zero, View.ld_unit_zero (S := S128x128) offsets_zero, View.ld_unit_zero (S := S1x128) offsets_zero]
  funext y
  refine (payload_at _ _ _ y).trans ?_
  rw [View.read_apply]
  refine Eq.trans ?_ (congrArg (Cert.GraphSpec.affineRows _ _ _) (out_index t y)).symm
  unfold Gen.iblk5 Cert.GraphSpec.affineRows
  refine congrArg₂ (· + ·) (Finset.sum_congr rfl fun k _ => ?_) ?_
  · exact congrArg₂ (· * ·) (rows_block _ t (y 0) k) (weights_block _ t (y 1) k)
  · exact bias_block _ t (y 1)

/-- An index of the array is in point `t`'s block iff each coordinate is in the block's range on its axis. -/
theorem mem_block (t : Fin cfg5.N) (i : S100000x128.Idx) :
    i ∈ ((cfg5.win 3).blk t).view.set ↔ ∀ a : Fin 2, win5_3.index t a * S2000x128.size a ≤ (i a).val ∧ (i a).val < win5_3.index t a * S2000x128.size a + S2000x128.size a := by
  show i ∈ ((View.whole main_v71).slice (win5_3.rect t)).set ↔ _
  rw [View.set_slice_whole, Rect.mem_set_unit]
  exact Iff.rfl

/-- The fifty blocks of 2000 rows fill the array: row `r` is in the block of point `r / 2000`. -/
theorem covered (i : S100000x128.Idx) :
    ∃ t : Fin cfg5.N, (cfg5.win 3).flush t = true ∧ i ∈ ((cfg5.win 3).blk t).view.set := by
  have hi0 : (i 0).val < 100000 := idx2_lt0 i
  have hi1 : (i 1).val < 128 := idx2_lt1 i
  have ht : (i 0).val / 2000 < cfg5.N := lt_of_lt_of_eq (by omega : (i 0).val / 2000 < 50) Gen.N_5.symm
  obtain ⟨-, -, -, -, -, -, e0, e1⟩ := index_facts ⟨(i 0).val / 2000, ht⟩
  refine ⟨⟨(i 0).val / 2000, ht⟩, Gen.flush5_3 _, ?_⟩
  rw [mem_block]
  intro a
  match a with
  | ⟨0, _⟩ =>
    show win5_3.index ⟨(i 0).val / 2000, ht⟩ (0 : Fin 2) * 2000 ≤ (i 0).val
      ∧ (i 0).val < win5_3.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win5_3.index ⟨(i 0).val / 2000, ht⟩ (1 : Fin 2) * 128 ≤ (i 1).val
      ∧ (i 1).val < win5_3.index ⟨(i 0).val / 2000, ht⟩ (1 : Fin 2) * 128 + 128
    rw [e1]
    omega

/-- The output array after the region's fifty points: the affine map of the input rows by the weight rows plus the bias,
    index by index. -/
theorem array (V : (c : Dev nD) → (b : Ref sig .tc) → Buf (Elt Ideal) ((c : Thread nD τ).loc b)) (c : Dev nD) :
    (Gen.dat5 (F := Ideal) V c).arrAt 3 cfg5.N
      = Cert.GraphSpec.affineRows (V c (Pipeline.arrRef spec5 0)) (V c (Pipeline.arrRef spec5 1)) (V c (Pipeline.arrRef spec5 2)) :=
  (Gen.dat5 (F := Ideal) V c).arrAt_eq_of_cover 3 _ (fun t _ => flushed_eq V c t) covered

end Cert.KernelIdeal.AffineArray5

end
-- ==== Proof.MessageArray1.lean ====
/-
  The typed messages of a state, as region 1 of the program leaves them in its output array.

  The region walks the 100000 rows of the state h in fifty blocks of 2000 rows. On one block X it forms, for
  each of the eight edge types e, the product of X with the e-th 128 x 128 map W_e, rows of X against rows of
  W_e: entry (p, q) is the sum over k of X[p, k] * W[e, q, k] (the change of float format in front of the
  product is the identity on the extended reals, and the accumulator it adds to is zero). The eight products
  are written side by side into the 2000 x 1024 output block, product e into columns 128 e … 128 e + 127.

  So column j of the output block is type j / 128, entry j % 128: the block is the typed messages of X.
  Since block t of the state is rows 2000 t … 2000 t + 1999 of h, the maps are taken whole at every point,
  and the output block t is rows 2000 t … of the output array, what point t writes back is block t of the
  typed messages of h; the fifty blocks cover the 100000 rows (row n lies in block n / 2000), hence the
  output array ends as the typed messages of h.
-/
import proofs.«144449_j22325240004851_1_alg».proof.Proof.Gen.KernelIdeal.Frame
import proofs.«144449_j22325240004851_1_alg».proof.Proof.GraphSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.MessageArray1

open Idealize.ShloMosaic Idealize.ShloMosaic.ValueIdx Idealize.ShloMosaic.TcCoe
open Idealize.ShloMosaic.Pipeline (Dat)
open Cert.KernelIdeal Cert.KernelIdeal.Gen
open Cert.GraphSpec (typedRows)

/-! ## One product at an index

The product's dimension numbers contract the second axis of both operands, so the left operand is read at
(row of the output, k) and the right one at (column of the output, k). -/

theorem lhs_row (i : S2000x128.Idx) (q : dot_S2000x128_S128x128_S2000x128_1_1_0_0_n_n.contr.Idx) :
    (dot_S2000x128_S128x128_S2000x128_1_1_0_0_n_n.lhsIdx i q 0).val = (i 0).val := by
  unfold DotDims.lhsIdx
  rw [dif_neg (show ¬(0 : Fin S2000x128.rank) ∈ dot_S2000x128_S128x128_S2000x128_1_1_0_0_n_n.lhsBatch by decide), dif_pos (show (0 : Fin S2000x128.rank) ∈ dot_S2000x128_S128x128_S2000x128_1_1_0_0_n_n.lhsNonContracting by decide)]
  rfl

theorem lhs_col (i : S2000x128.Idx) (q : dot_S2000x128_S128x128_S2000x128_1_1_0_0_n_n.contr.Idx) :
    (dot_S2000x128_S128x128_S2000x128_1_1_0_0_n_n.lhsIdx i q 1).val = (q ⟨0, by decide⟩).val :=
  dot_S2000x128_S128x128_S2000x128_1_1_0_0_n_n.lhsIdx_val_of_single rfl i q

theorem rhs_row (i : S2000x128.Idx) (q : dot_S2000x128_S128x128_S2000x128_1_1_0_0_n_n.contr.Idx) :
    (dot_S2000x128_S128x128_S2000x128_1_1_0_0_n_n.rhsIdx i q 0).val = (i 1).val := by
  unfold DotDims.rhsIdx
  rw [dif_neg (show ¬(0 : Fin S128x128.rank) ∈ dot_S2000x128_S128x128_S2000x128_1_1_0_0_n_n.rhsBatch by decide), dif_pos (show (0 : Fin S128x128.rank) ∈ dot_S2000x128_S128x128_S2000x128_1_1_0_0_n_n.rhsNonContracting by decide)]
  rfl

theorem rhs_col (i : S2000x128.Idx) (q : dot_S2000x128_S128x128_S2000x128_1_1_0_0_n_n.contr.Idx) :
    (dot_S2000x128_S128x128_S2000x128_1_1_0_0_n_n.rhsIdx i q 1).val = (q ⟨0, by decide⟩).val :=
  dot_S2000x128_S128x128_S2000x128_1_1_0_0_n_n.rhsIdx_val_of_single rfl i q

theorem rowsDot_apply (h : FVec Ideal S2000x128 .bf16) (w : FVec Ideal S128x128 .bf16) (p : Fin 2000) (q : Fin 128) :
    matmul dot_S2000x128_S128x128_S2000x128_1_1_0_0_n_n none h w (constant S2000x128 .f32 0x00000000#32) (ix2 p q)
      = ∑ k : Fin 128, h (ix2 p k) * w (ix2 q k) := by
  show FloatOps.matmul _ _ _ _ _ _ = _
  rw [Ideal.matmul_constant_zero_apply, ← Equiv.sum_comp (contrEquiv1 dot_S2000x128_S128x128_S2000x128_1_1_0_0_n_n 128 rfl rfl).symm]
  refine Finset.sum_congr rfl fun k _ => ?_
  have hk := contrEquiv1_symm_val dot_S2000x128_S128x128_S2000x128_1_1_0_0_n_n 128 rfl rfl k
  have el : dot_S2000x128_S128x128_S2000x128_1_1_0_0_n_n.lhsIdx (ix2 p q) ((contrEquiv1 dot_S2000x128_S128x128_S2000x128_1_1_0_0_n_n 128 rfl rfl).symm k) = ix2 p k := funext fun a => Fin.ext (by
    match a with
    | ⟨0, _⟩ => exact lhs_row _ _
    | ⟨1, _⟩ => exact (lhs_col _ _).trans hk)
  have er : dot_S2000x128_S128x128_S2000x128_1_1_0_0_n_n.rhsIdx (ix2 p q) ((contrEquiv1 dot_S2000x128_S128x128_S2000x128_1_1_0_0_n_n 128 rfl rfl).symm k) = ix2 q k := funext fun a => Fin.ext (by
    match a with
    | ⟨0, _⟩ => exact rhs_row _ _
    | ⟨1, _⟩ => exact (rhs_col _ _).trans hk)
  rw [el, er]

/-- The product of a block of states with one slice of the maps, as the body computes it. -/
def sliceProduct (X : Vec Ideal S2000x128 .f32) (S : Vec Ideal S1x128x128 .f32) : FVec Ideal S2000x128 .f32 :=
  matmul dot_S2000x128_S128x128_S2000x128_1_1_0_0_n_n none
    (truncf .bf16 (shapeCast S2000x128 X shapeCasts_S2000x128_S2000x128) bitsLt_bf16_f32)
    (truncf .bf16 (shapeCast S128x128 S shapeCasts_S1x128x128_S128x128) bitsLt_bf16_f32)
    (constant S2000x128 .f32 0x00000000#32)

/-- Entry (p, q) of that product: row p of the block against row q of the slice (the slice's leading axis has
    one position, and dropping it keeps the row-major position). -/
theorem sliceProduct_apply (X : Vec Ideal S2000x128 .f32) (S : Vec Ideal S1x128x128 .f32) (p : Fin 2000) (q : Fin 128) :
    sliceProduct X S (ix2 p q) = ∑ k : Fin 128, X (ix2 p k) * S (ix3 (0 : Fin 1) q k) := by
  unfold sliceProduct
  rw [rowsDot_apply]
  refine Finset.sum_congr rfl fun k _ => ?_
  rw [truncf_apply, truncf_apply, shapeCast_self]
  rw [shapeCast_apply S shapeCasts_S1x128x128_S128x128 (ix2 q k) (ix3 (0 : Fin 1) q k) ?_]
  show ((⟨3, ![1, 128, 128]⟩ : Shape).rowMajor (ix3 (0 : Fin 1) q k)).val = ((⟨2, ![128, 128]⟩ : Shape).rowMajor (ix2 q k)).val
  rw [Shape.rowMajor_val_three, Shape.rowMajor_val_two]
  show ((0 : Fin 1).val * 128 + q.val) * 128 + k.val = q.val * 128 + k.val
  simp

/-! Each of the body's eight stored values is such a product (the same operations, bound in a different order). -/

theorem pay1_eq (X : Vec Ideal S2000x128 .f32) (S : Vec Ideal S1x128x128 .f32) : k1_pay1 (k1_pay5 X) (k1_pay10 S) = sliceProduct X S := rfl
theorem pay2_eq (X : Vec Ideal S2000x128 .f32) (S : Vec Ideal S1x128x128 .f32) : k1_pay2 (k1_pay5 X) S = sliceProduct X S := rfl
theorem pay3_eq (X : Vec Ideal S2000x128 .f32) (S : Vec Ideal S1x128x128 .f32) : k1_pay3 (k1_pay5 X) S = sliceProduct X S := rfl
theorem pay4_eq (X : Vec Ideal S2000x128 .f32) (S : Vec Ideal S1x128x128 .f32) : k1_pay4 (k1_pay5 X) S = sliceProduct X S := rfl
theorem pay6_eq (X : Vec Ideal S2000x128 .f32) (S : Vec Ideal S1x128x128 .f32) : k1_pay6 X S = sliceProduct X S := rfl
theorem pay7_eq (X : Vec Ideal S2000x128 .f32) (S : Vec Ideal S1x128x128 .f32) : k1_pay7 X S = sliceProduct X S := rfl
theorem pay8_eq (X : Vec Ideal S2000x128 .f32) (S : Vec Ideal S1x128x128 .f32) : k1_pay8 X S = sliceProduct X S := rfl
theorem pay9_eq (X : Vec Ideal S2000x128 .f32) (S : Vec Ideal S1x128x128 .f32) : k1_pay9 X S = sliceProduct X S := rfl

/-! ## The eight column pieces are one function of the output block's index -/

theorem hz2 : (![0, 0] : Fin 2 → Nat) = fun _ => 0 := funext fun a => by fin_cases a <;> rfl

/-- Slice `e` of the maps, loaded as a 1x128x128 block, read at an index. -/
theorem slice_apply (W : Vec Ideal S8x128x128 .f32) (e : Nat) (he : e < 8)
    (inb : ∀ a, (![e, 0, 0] : Fin 3 → Nat) a + S1x128x128.size a ≤ S8x128x128.size a) (q k : Fin 128) :
    View.ld W (Rect.unit (s := S8x128x128) ![e, 0, 0] S1x128x128.size inb) (ix3 (0 : Fin 1) q k)
      = W (ix3 (⟨e, he⟩ : Fin 8) q k) := by
  show W ((Rect.unit (s := S8x128x128) ![e, 0, 0] S1x128x128.size inb).idx (ix3 (0 : Fin 1) q k)) = _
  refine congrArg W (funext fun a => Fin.ext ?_)
  match a with
  | ⟨0, _⟩ => show e + 1 * (0 : Fin 1).val = e; simp
  | ⟨1, _⟩ => show 0 + 1 * q.val = q.val; omega
  | ⟨2, _⟩ => show 0 + 1 * k.val = k.val; omega

/-- The product with slice `e`, stored at columns `128 e …`, is the typed messages there. -/
theorem piece_eq (X : Vec Ideal S2000x128 .f32) (W : Vec Ideal S8x128x128 .f32) (e : Nat) (he : e < 8)
    (inbW : ∀ a, (![e, 0, 0] : Fin 3 → Nat) a + S1x128x128.size a ≤ S8x128x128.size a)
    (c : Nat) (hc : c = 128 * e)
    (inbO : ∀ a, (![0, c] : Fin 2 → Nat) a + S2000x128.size a ≤ S2000x1024.size a)
    (x : S2000x128.Idx) :
    sliceProduct X (View.ld W (Rect.unit (s := S8x128x128) ![e, 0, 0] S1x128x128.size inbW)) x
      = typedRows X W ((Rect.unit (s := S2000x1024) ![0, c] S2000x128.size inbO).emb x) := by
  obtain ⟨p, q, rfl⟩ : ∃ (p : Fin 2000) (q : Fin 128), x = ix2 p q := ⟨x 0, x 1, eq_ix2 x⟩
  rw [sliceProduct_apply]
  unfold typedRows
  refine Finset.sum_congr rfl fun k _ => ?_
  rw [slice_apply W e he inbW q k]
  have hq := q.isLt
  have eX : ix2 (((Rect.unit (s := S2000x1024) ![0, c] S2000x128.size inbO).emb (ix2 p q)) 0) k = ix2 p k :=
    funext fun a => Fin.ext (by
      match a with
      | ⟨0, _⟩ => show 0 + 1 * p.val = p.val; omega
      | ⟨1, _⟩ => rfl)
  have eW : ix3 (⟨(((Rect.unit (s := S2000x1024) ![0, c] S2000x128.size inbO).emb (ix2 p q)) 1).val / 128, by
                have := idx2_lt1 ((Rect.unit (s := S2000x1024) ![0, c] S2000x128.size inbO).emb (ix2 p q)); omega⟩ : Fin 8)
              (⟨(((Rect.unit (s := S2000x1024) ![0, c] S2000x128.size inbO).emb (ix2 p q)) 1).val % 128, Nat.mod_lt _ (by decide)⟩ : Fin 128) k
            = ix3 (⟨e, he⟩ : Fin 8) q k :=
    funext fun a => Fin.ext (by
      match a with
      | ⟨0, _⟩ => show (c + 1 * q.val) / 128 = e; omega
      | ⟨1, _⟩ => show (c + 1 * q.val) % 128 = q.val; omega
      | ⟨2, _⟩ => rfl)
  exact congrArg₂ (· * ·) (congrArg X eX.symm) (congrArg W eW.symm)

/-- What the body leaves in the output block: the typed messages of the block of states. -/
theorem out_eq (X : Vec Ideal S2000x128 .f32) (W : Vec Ideal S8x128x128 .f32) :
    out1_2 X W = typedRows X W := by
  funext y
  unfold out1_2
  simp only [View.ld_unit_zero (S := S2000x128) hz2]
  refine View.canon_apply_of_pieces (Val := Elt Ideal) (S := S2000x1024) (e := .f32) (typedRows X W) _ ?_ y (cover1_2 _ _ _ _ _ _ _ _ y)
  intro p hp
  simp only [List.mem_cons, List.not_mem_nil, or_false] at hp
  rcases hp with rfl | rfl | rfl | rfl | rfl | rfl | rfl | rfl
  · intro x; exact (congrFun (pay4_eq X _) x).trans (piece_eq X W 7 (by omega) inb_S8x128x128_S1x128x128_7_0_0 896 rfl inb_S2000x1024_S2000x128_0_896 x)
  · intro x; exact (congrFun (pay3_eq X _) x).trans (piece_eq X W 6 (by omega) inb_S8x128x128_S1x128x128_6_0_0 768 rfl inb_S2000x1024_S2000x128_0_768 x)
  · intro x; exact (congrFun (pay2_eq X _) x).trans (piece_eq X W 5 (by omega) inb_S8x128x128_S1x128x128_5_0_0 640 rfl inb_S2000x1024_S2000x128_0_640 x)
  · intro x; exact (congrFun (pay1_eq X _) x).trans (piece_eq X W 4 (by omega) inb_S8x128x128_S1x128x128_4_0_0 512 rfl inb_S2000x1024_S2000x128_0_512 x)
  · intro x; exact (congrFun (pay9_eq X _) x).trans (piece_eq X W 3 (by omega) inb_S8x128x128_S1x128x128_3_0_0 384 rfl inb_S2000x1024_S2000x128_0_384 x)
  · intro x; exact (congrFun (pay8_eq X _) x).trans (piece_eq X W 2 (by omega) inb_S8x128x128_S1x128x128_2_0_0 256 rfl inb_S2000x1024_S2000x128_0_256 x)
  · intro x; exact (congrFun (pay7_eq X _) x).trans (piece_eq X W 1 (by omega) inb_S8x128x128_S1x128x128_1_0_0 128 rfl inb_S2000x1024_S2000x128_0_128 x)
  · intro x; exact (congrFun (pay6_eq X _) x).trans (piece_eq X W 0 (by omega) inb_S8x128x128_S1x128x128_0_0_0 0 rfl inb_S2000x1024_S2000x128_0_0 x)

/-! ## From blocks to the array -/

/-- The typed messages of a block of rows are the rows of the typed messages of the whole state: block `r` of
    the states holds rows `2000 r …`, the maps are the same, and the output index sits at row `2000 r + ` its own. -/
theorem typedRows_block (A : S100000x128.Idx → EReal) (M : S8x128x128.Idx → EReal)
    (B : S2000x128.Idx → EReal) (M' : S8x128x128.Idx → EReal) (r : Nat)
    (hB : ∀ (p : Fin 2000) (k : Fin 128) (i : Fin 100000), i.val = 2000 * r + p.val → B (ix2 p k) = A (ix2 i k))
    (hM : M' = M)
    (j : S2000x1024.Idx) (i : S100000x1024.Idx) (hi0 : (i 0).val = 2000 * r + (j 0).val) (hi1 : (i 1).val = (j 1).val) :
    typedRows B M' j = typedRows A M i := by
  subst hM
  unfold typedRows
  refine Finset.sum_congr rfl fun k _ => ?_
  have eW : ix3 (⟨(j 1).val / 128, by have := idx2_lt1 j; omega⟩ : Fin 8) (⟨(j 1).val % 128, Nat.mod_lt _ (by decide)⟩ : Fin 128) k
      = ix3 (⟨(i 1).val / 128, by have := idx2_lt1 i; omega⟩ : Fin 8) (⟨(i 1).val % 128, Nat.mod_lt _ (by decide)⟩ : Fin 128) k :=
    funext fun a => Fin.ext (by
      match a with
      | ⟨0, _⟩ => show (j 1).val / 128 = (i 1).val / 128; rw [hi1]
      | ⟨1, _⟩ => show (j 1).val % 128 = (i 1).val % 128; rw [hi1]
      | ⟨2, _⟩ => rfl)
  exact congrArg₂ (· * ·) (hB (j 0) k (i 0) hi0) (congrArg M' eW)

variable (V : (c : Dev nD) → (b : Ref sig .tc) → Buf (Elt Ideal) ((c : Thread nD τ).loc b))

/-- The printed index maps, decided over the grid: the block of states and the output block are block `t` down the
    rows, and the maps are taken whole. -/
theorem idx_facts : ∀ t : Fin cfg1.N, win1_0.index t (0 : Fin 2) = t.val ∧ win1_0.index t (1 : Fin 2) = 0
    ∧ win1_1.index t (0 : Fin 3) = 0 ∧ win1_1.index t (1 : Fin 3) = 0 ∧ win1_1.index t (2 : Fin 3) = 0
    ∧ win1_2.index t (0 : Fin 2) = t.val ∧ win1_2.index t (1 : Fin 2) = 0 :=
  (by decide +kernel : ∀ t : Fin grid1.N, _)

/-- What point `t` writes back is block `t` of the typed messages of the arrays the region finds. -/
theorem flushed_eq (c : Dev nD) (t : Fin cfg1.N) :
    (dat1 (F := Ideal) V c).flushed 2 t
      = ((cfg1.win 2).blk t).view.read (Elt Ideal) (typedRows (V c (Pipeline.arrRef spec1 0)) (V c (Pipeline.arrRef spec1 1))) := by
  show (cfg1.win 2).cut (grid1.coords t) ((dat1 V c).after 2 t) = _
  rw [after1_2, out_eq]
  obtain ⟨e0, e1, e2, e3, e4, e5, e6⟩ := idx_facts t
  funext j
  refine typedRows_block (V c (Pipeline.arrRef spec1 0)) (V c (Pipeline.arrRef spec1 1)) (iblk1 V c 0 t) (iblk1 V c 1 t) t.val ?_ ?_ j (((cfg1.win 2).blk t).view.emb j) ?_ ?_
  · intro p k i hi
    show V c (Pipeline.arrRef spec1 0) (((cfg1.win 0).blk t).view.emb (ix2 p k)) = _
    refine congrArg _ (funext fun a => Fin.ext ?_)
    match a with
    | ⟨0, _⟩ => show win1_0.index t (0 : Fin 2) * 2000 + 1 * p.val = i.val; rw [e0, hi]; omega
    | ⟨1, _⟩ => show win1_0.index t (1 : Fin 2) * 128 + 1 * k.val = k.val; rw [e1]; omega
  · funext x
    show V c (Pipeline.arrRef spec1 1) (((cfg1.win 1).blk t).view.emb x) = _
    refine congrArg _ (funext fun a => Fin.ext ?_)
    match a with
    | ⟨0, _⟩ => show win1_1.index t (0 : Fin 3) * 8 + 1 * (x 0).val = (x 0).val; rw [e2]; omega
    | ⟨1, _⟩ => show win1_1.index t (1 : Fin 3) * 128 + 1 * (x 1).val = (x 1).val; rw [e3]; omega
    | ⟨2, _⟩ => show win1_1.index t (2 : Fin 3) * 128 + 1 * (x 2).val = (x 2).val; rw [e4]; omega
  · show win1_2.index t (0 : Fin 2) * 2000 + 1 * (j 0).val = 2000 * t.val + (j 0).val; rw [e5]; omega
  · show win1_2.index t (1 : Fin 2) * 1024 + 1 * (j 1).val = (j 1).val; rw [e6]; omega

/-- An index of the output array is in point `t`'s block iff each coordinate is in the block's range on its axis. -/
theorem mem_blk (t : Fin cfg1.N) (i : S100000x1024.Idx) :
    i ∈ ((cfg1.win 2).blk t).view.set ↔ ∀ a : Fin 2, win1_2.index t a * S2000x1024.size a ≤ (i a).val ∧ (i a).val < win1_2.index t a * S2000x1024.size a + S2000x1024.size a := by
  show i ∈ ((View.whole main_v8).slice (win1_2.rect t)).set ↔ _
  rw [View.set_slice_whole, Rect.mem_set_unit]
  exact Iff.rfl

/-- The fifty blocks of 2000 rows cover the 100000 rows: row `n` is in block `n / 2000`. -/
theorem cover (i : S100000x1024.Idx) :
    ∃ t : Fin cfg1.N, (cfg1.win 2).flush t = true ∧ i ∈ ((cfg1.win 2).blk t).view.set := by
  have hi0 : (i 0).val < 100000 := (i 0).isLt
  have hi1 : (i 1).val < 1024 := (i 1).isLt
  have hN : cfg1.N = 50 := N_1
  have ht : (i 0).val / 2000 < cfg1.N := by rw [hN]; omega
  obtain ⟨e0, e1, e2, e3, e4, e5, e6⟩ := idx_facts ⟨(i 0).val / 2000, ht⟩
  refine ⟨⟨(i 0).val / 2000, ht⟩, flush1_2 _, ?_⟩
  rw [mem_blk]
  intro a
  match a with
  | ⟨0, _⟩ =>
    show win1_2.index ⟨(i 0).val / 2000, ht⟩ (0 : Fin 2) * 2000 ≤ (i 0).val ∧ (i 0).val < win1_2.index ⟨(i 0).val / 2000, ht⟩ (0 : Fin 2) * 2000 + 2000
    rw [e5]; show (i 0).val / 2000 * 2000 ≤ (i 0).val ∧ (i 0).val < (i 0).val / 2000 * 2000 + 2000; omega
  | ⟨1, _⟩ =>
    show win1_2.index ⟨(i 0).val / 2000, ht⟩ (1 : Fin 2) * 1024 ≤ (i 1).val ∧ (i 1).val < win1_2.index ⟨(i 0).val / 2000, ht⟩ (1 : Fin 2) * 1024 + 1024
    rw [e6]; omega

/-- The output array after the region: the typed messages of the state array and the maps the region found. -/
theorem array (c : Dev nD) :
    (dat1 (F := Ideal) V c).arrAt 2 cfg1.N = typedRows (V c (Pipeline.arrRef spec1 0)) (V c (Pipeline.arrRef spec1 1)) :=
  (dat1 V c).arrAt_eq_of_cover 2 _ (fun t _ => flushed_eq V c t) cover

end Cert.KernelIdeal.MessageArray1

end
-- ==== Proof.MessageArray3.lean ====
/-
  The typed messages of a state, as region 3 of the program leaves them in its output array.

  The region walks the 100000 rows of the state h in fifty blocks of 2000 rows. On one block X it forms, for
  each of the eight edge types e, the product of X with the e-th 128 x 128 map W_e, rows of X against rows of
  W_e: entry (p, q) is the sum over k of X[p, k] * W[e, q, k] (the change of float format in front of the
  product is the identity on the extended reals, and the accumulator it adds to is zero). The eight products
  are written side by side into the 2000 x 1024 output block, product e into columns 128 e … 128 e + 127.

  So column j of the output block is type j / 128, entry j % 128: the block is the typed messages of X.
  Since block t of the state is rows 2000 t … 2000 t + 1999 of h, the maps are taken whole at every point,
  and the output block t is rows 2000 t … of the output array, what point t writes back is block t of the
  typed messages of h; the fifty blocks cover the 100000 rows (row n lies in block n / 2000), hence the
  output array ends as the typed messages of h.
-/
import proofs.«144449_j22325240004851_1_alg».proof.Proof.Gen.KernelIdeal.Frame
import proofs.«144449_j22325240004851_1_alg».proof.Proof.GraphSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.MessageArray3

open Idealize.ShloMosaic Idealize.ShloMosaic.ValueIdx Idealize.ShloMosaic.TcCoe
open Idealize.ShloMosaic.Pipeline (Dat)
open Cert.KernelIdeal Cert.KernelIdeal.Gen
open Cert.GraphSpec (typedRows)

/-! ## One product at an index

The product's dimension numbers contract the second axis of both operands, so the left operand is read at
(row of the output, k) and the right one at (column of the output, k). -/

theorem lhs_row (i : S2000x128.Idx) (q : dot_S2000x128_S128x128_S2000x128_1_1_0_0_n_n.contr.Idx) :
    (dot_S2000x128_S128x128_S2000x128_1_1_0_0_n_n.lhsIdx i q 0).val = (i 0).val := by
  unfold DotDims.lhsIdx
  rw [dif_neg (show ¬(0 : Fin S2000x128.rank) ∈ dot_S2000x128_S128x128_S2000x128_1_1_0_0_n_n.lhsBatch by decide), dif_pos (show (0 : Fin S2000x128.rank) ∈ dot_S2000x128_S128x128_S2000x128_1_1_0_0_n_n.lhsNonContracting by decide)]
  rfl

theorem lhs_col (i : S2000x128.Idx) (q : dot_S2000x128_S128x128_S2000x128_1_1_0_0_n_n.contr.Idx) :
    (dot_S2000x128_S128x128_S2000x128_1_1_0_0_n_n.lhsIdx i q 1).val = (q ⟨0, by decide⟩).val :=
  dot_S2000x128_S128x128_S2000x128_1_1_0_0_n_n.lhsIdx_val_of_single rfl i q

theorem rhs_row (i : S2000x128.Idx) (q : dot_S2000x128_S128x128_S2000x128_1_1_0_0_n_n.contr.Idx) :
    (dot_S2000x128_S128x128_S2000x128_1_1_0_0_n_n.rhsIdx i q 0).val = (i 1).val := by
  unfold DotDims.rhsIdx
  rw [dif_neg (show ¬(0 : Fin S128x128.rank) ∈ dot_S2000x128_S128x128_S2000x128_1_1_0_0_n_n.rhsBatch by decide), dif_pos (show (0 : Fin S128x128.rank) ∈ dot_S2000x128_S128x128_S2000x128_1_1_0_0_n_n.rhsNonContracting by decide)]
  rfl

theorem rhs_col (i : S2000x128.Idx) (q : dot_S2000x128_S128x128_S2000x128_1_1_0_0_n_n.contr.Idx) :
    (dot_S2000x128_S128x128_S2000x128_1_1_0_0_n_n.rhsIdx i q 1).val = (q ⟨0, by decide⟩).val :=
  dot_S2000x128_S128x128_S2000x128_1_1_0_0_n_n.rhsIdx_val_of_single rfl i q

theorem rowsDot_apply (h : FVec Ideal S2000x128 .bf16) (w : FVec Ideal S128x128 .bf16) (p : Fin 2000) (q : Fin 128) :
    matmul dot_S2000x128_S128x128_S2000x128_1_1_0_0_n_n none h w (constant S2000x128 .f32 0x00000000#32) (ix2 p q)
      = ∑ k : Fin 128, h (ix2 p k) * w (ix2 q k) := by
  show FloatOps.matmul _ _ _ _ _ _ = _
  rw [Ideal.matmul_constant_zero_apply, ← Equiv.sum_comp (contrEquiv1 dot_S2000x128_S128x128_S2000x128_1_1_0_0_n_n 128 rfl rfl).symm]
  refine Finset.sum_congr rfl fun k _ => ?_
  have hk := contrEquiv1_symm_val dot_S2000x128_S128x128_S2000x128_1_1_0_0_n_n 128 rfl rfl k
  have el : dot_S2000x128_S128x128_S2000x128_1_1_0_0_n_n.lhsIdx (ix2 p q) ((contrEquiv1 dot_S2000x128_S128x128_S2000x128_1_1_0_0_n_n 128 rfl rfl).symm k) = ix2 p k := funext fun a => Fin.ext (by
    match a with
    | ⟨0, _⟩ => exact lhs_row _ _
    | ⟨1, _⟩ => exact (lhs_col _ _).trans hk)
  have er : dot_S2000x128_S128x128_S2000x128_1_1_0_0_n_n.rhsIdx (ix2 p q) ((contrEquiv1 dot_S2000x128_S128x128_S2000x128_1_1_0_0_n_n 128 rfl rfl).symm k) = ix2 q k := funext fun a => Fin.ext (by
    match a with
    | ⟨0, _⟩ => exact rhs_row _ _
    | ⟨1, _⟩ => exact (rhs_col _ _).trans hk)
  rw [el, er]

/-- The product of a block of states with one slice of the maps, as the body computes it. -/
def sliceProduct (X : Vec Ideal S2000x128 .f32) (S : Vec Ideal S1x128x128 .f32) : FVec Ideal S2000x128 .f32 :=
  matmul dot_S2000x128_S128x128_S2000x128_1_1_0_0_n_n none
    (truncf .bf16 (shapeCast S2000x128 X shapeCasts_S2000x128_S2000x128) bitsLt_bf16_f32)
    (truncf .bf16 (shapeCast S128x128 S shapeCasts_S1x128x128_S128x128) bitsLt_bf16_f32)
    (constant S2000x128 .f32 0x00000000#32)

/-- Entry (p, q) of that product: row p of the block against row q of the slice (the slice's leading axis has
    one position, and dropping it keeps the row-major position). -/
theorem sliceProduct_apply (X : Vec Ideal S2000x128 .f32) (S : Vec Ideal S1x128x128 .f32) (p : Fin 2000) (q : Fin 128) :
    sliceProduct X S (ix2 p q) = ∑ k : Fin 128, X (ix2 p k) * S (ix3 (0 : Fin 1) q k) := by
  unfold sliceProduct
  rw [rowsDot_apply]
  refine Finset.sum_congr rfl fun k _ => ?_
  rw [truncf_apply, truncf_apply, shapeCast_self]
  rw [shapeCast_apply S shapeCasts_S1x128x128_S128x128 (ix2 q k) (ix3 (0 : Fin 1) q k) ?_]
  show ((⟨3, ![1, 128, 128]⟩ : Shape).rowMajor (ix3 (0 : Fin 1) q k)).val = ((⟨2, ![128, 128]⟩ : Shape).rowMajor (ix2 q k)).val
  rw [Shape.rowMajor_val_three, Shape.rowMajor_val_two]
  show ((0 : Fin 1).val * 128 + q.val) * 128 + k.val = q.val * 128 + k.val
  simp

/-! Each of the body's eight stored values is such a product (the same operations, bound in a different order). -/

theorem pay1_eq (X : Vec Ideal S2000x128 .f32) (S : Vec Ideal S1x128x128 .f32) : k3_pay1 (k3_pay5 X) (k3_pay10 S) = sliceProduct X S := rfl
theorem pay2_eq (X : Vec Ideal S2000x128 .f32) (S : Vec Ideal S1x128x128 .f32) : k3_pay2 (k3_pay5 X) S = sliceProduct X S := rfl
theorem pay3_eq (X : Vec Ideal S2000x128 .f32) (S : Vec Ideal S1x128x128 .f32) : k3_pay3 (k3_pay5 X) S = sliceProduct X S := rfl
theorem pay4_eq (X : Vec Ideal S2000x128 .f32) (S : Vec Ideal S1x128x128 .f32) : k3_pay4 (k3_pay5 X) S = sliceProduct X S := rfl
theorem pay6_eq (X : Vec Ideal S2000x128 .f32) (S : Vec Ideal S1x128x128 .f32) : k3_pay6 X S = sliceProduct X S := rfl
theorem pay7_eq (X : Vec Ideal S2000x128 .f32) (S : Vec Ideal S1x128x128 .f32) : k3_pay7 X S = sliceProduct X S := rfl
theorem pay8_eq (X : Vec Ideal S2000x128 .f32) (S : Vec Ideal S1x128x128 .f32) : k3_pay8 X S = sliceProduct X S := rfl
theorem pay9_eq (X : Vec Ideal S2000x128 .f32) (S : Vec Ideal S1x128x128 .f32) : k3_pay9 X S = sliceProduct X S := rfl

/-! ## The eight column pieces are one function of the output block's index -/

theorem hz2 : (![0, 0] : Fin 2 → Nat) = fun _ => 0 := funext fun a => by fin_cases a <;> rfl

/-- Slice `e` of the maps, loaded as a 1x128x128 block, read at an index. -/
theorem slice_apply (W : Vec Ideal S8x128x128 .f32) (e : Nat) (he : e < 8)
    (inb : ∀ a, (![e, 0, 0] : Fin 3 → Nat) a + S1x128x128.size a ≤ S8x128x128.size a) (q k : Fin 128) :
    View.ld W (Rect.unit (s := S8x128x128) ![e, 0, 0] S1x128x128.size inb) (ix3 (0 : Fin 1) q k)
      = W (ix3 (⟨e, he⟩ : Fin 8) q k) := by
  show W ((Rect.unit (s := S8x128x128) ![e, 0, 0] S1x128x128.size inb).idx (ix3 (0 : Fin 1) q k)) = _
  refine congrArg W (funext fun a => Fin.ext ?_)
  match a with
  | ⟨0, _⟩ => show e + 1 * (0 : Fin 1).val = e; simp
  | ⟨1, _⟩ => show 0 + 1 * q.val = q.val; omega
  | ⟨2, _⟩ => show 0 + 1 * k.val = k.val; omega

/-- The product with slice `e`, stored at columns `128 e …`, is the typed messages there. -/
theorem piece_eq (X : Vec Ideal S2000x128 .f32) (W : Vec Ideal S8x128x128 .f32) (e : Nat) (he : e < 8)
    (inbW : ∀ a, (![e, 0, 0] : Fin 3 → Nat) a + S1x128x128.size a ≤ S8x128x128.size a)
    (c : Nat) (hc : c = 128 * e)
    (inbO : ∀ a, (![0, c] : Fin 2 → Nat) a + S2000x128.size a ≤ S2000x1024.size a)
    (x : S2000x128.Idx) :
    sliceProduct X (View.ld W (Rect.unit (s := S8x128x128) ![e, 0, 0] S1x128x128.size inbW)) x
      = typedRows X W ((Rect.unit (s := S2000x1024) ![0, c] S2000x128.size inbO).emb x) := by
  obtain ⟨p, q, rfl⟩ : ∃ (p : Fin 2000) (q : Fin 128), x = ix2 p q := ⟨x 0, x 1, eq_ix2 x⟩
  rw [sliceProduct_apply]
  unfold typedRows
  refine Finset.sum_congr rfl fun k _ => ?_
  rw [slice_apply W e he inbW q k]
  have hq := q.isLt
  have eX : ix2 (((Rect.unit (s := S2000x1024) ![0, c] S2000x128.size inbO).emb (ix2 p q)) 0) k = ix2 p k :=
    funext fun a => Fin.ext (by
      match a with
      | ⟨0, _⟩ => show 0 + 1 * p.val = p.val; omega
      | ⟨1, _⟩ => rfl)
  have eW : ix3 (⟨(((Rect.unit (s := S2000x1024) ![0, c] S2000x128.size inbO).emb (ix2 p q)) 1).val / 128, by
                have := idx2_lt1 ((Rect.unit (s := S2000x1024) ![0, c] S2000x128.size inbO).emb (ix2 p q)); omega⟩ : Fin 8)
              (⟨(((Rect.unit (s := S2000x1024) ![0, c] S2000x128.size inbO).emb (ix2 p q)) 1).val % 128, Nat.mod_lt _ (by decide)⟩ : Fin 128) k
            = ix3 (⟨e, he⟩ : Fin 8) q k :=
    funext fun a => Fin.ext (by
      match a with
      | ⟨0, _⟩ => show (c + 1 * q.val) / 128 = e; omega
      | ⟨1, _⟩ => show (c + 1 * q.val) % 128 = q.val; omega
      | ⟨2, _⟩ => rfl)
  exact congrArg₂ (· * ·) (congrArg X eX.symm) (congrArg W eW.symm)

/-- What the body leaves in the output block: the typed messages of the block of states. -/
theorem out_eq (X : Vec Ideal S2000x128 .f32) (W : Vec Ideal S8x128x128 .f32) :
    out3_2 X W = typedRows X W := by
  funext y
  unfold out3_2
  simp only [View.ld_unit_zero (S := S2000x128) hz2]
  refine View.canon_apply_of_pieces (Val := Elt Ideal) (S := S2000x1024) (e := .f32) (typedRows X W) _ ?_ y (cover3_2 _ _ _ _ _ _ _ _ y)
  intro p hp
  simp only [List.mem_cons, List.not_mem_nil, or_false] at hp
  rcases hp with rfl | rfl | rfl | rfl | rfl | rfl | rfl | rfl
  · intro x; exact (congrFun (pay4_eq X _) x).trans (piece_eq X W 7 (by omega) inb_S8x128x128_S1x128x128_7_0_0 896 rfl inb_S2000x1024_S2000x128_0_896 x)
  · intro x; exact (congrFun (pay3_eq X _) x).trans (piece_eq X W 6 (by omega) inb_S8x128x128_S1x128x128_6_0_0 768 rfl inb_S2000x1024_S2000x128_0_768 x)
  · intro x; exact (congrFun (pay2_eq X _) x).trans (piece_eq X W 5 (by omega) inb_S8x128x128_S1x128x128_5_0_0 640 rfl inb_S2000x1024_S2000x128_0_640 x)
  · intro x; exact (congrFun (pay1_eq X _) x).trans (piece_eq X W 4 (by omega) inb_S8x128x128_S1x128x128_4_0_0 512 rfl inb_S2000x1024_S2000x128_0_512 x)
  · intro x; exact (congrFun (pay9_eq X _) x).trans (piece_eq X W 3 (by omega) inb_S8x128x128_S1x128x128_3_0_0 384 rfl inb_S2000x1024_S2000x128_0_384 x)
  · intro x; exact (congrFun (pay8_eq X _) x).trans (piece_eq X W 2 (by omega) inb_S8x128x128_S1x128x128_2_0_0 256 rfl inb_S2000x1024_S2000x128_0_256 x)
  · intro x; exact (congrFun (pay7_eq X _) x).trans (piece_eq X W 1 (by omega) inb_S8x128x128_S1x128x128_1_0_0 128 rfl inb_S2000x1024_S2000x128_0_128 x)
  · intro x; exact (congrFun (pay6_eq X _) x).trans (piece_eq X W 0 (by omega) inb_S8x128x128_S1x128x128_0_0_0 0 rfl inb_S2000x1024_S2000x128_0_0 x)

/-! ## From blocks to the array -/

/-- The typed messages of a block of rows are the rows of the typed messages of the whole state: block `r` of
    the states holds rows `2000 r …`, the maps are the same, and the output index sits at row `2000 r + ` its own. -/
theorem typedRows_block (A : S100000x128.Idx → EReal) (M : S8x128x128.Idx → EReal)
    (B : S2000x128.Idx → EReal) (M' : S8x128x128.Idx → EReal) (r : Nat)
    (hB : ∀ (p : Fin 2000) (k : Fin 128) (i : Fin 100000), i.val = 2000 * r + p.val → B (ix2 p k) = A (ix2 i k))
    (hM : M' = M)
    (j : S2000x1024.Idx) (i : S100000x1024.Idx) (hi0 : (i 0).val = 2000 * r + (j 0).val) (hi1 : (i 1).val = (j 1).val) :
    typedRows B M' j = typedRows A M i := by
  subst hM
  unfold typedRows
  refine Finset.sum_congr rfl fun k _ => ?_
  have eW : ix3 (⟨(j 1).val / 128, by have := idx2_lt1 j; omega⟩ : Fin 8) (⟨(j 1).val % 128, Nat.mod_lt _ (by decide)⟩ : Fin 128) k
      = ix3 (⟨(i 1).val / 128, by have := idx2_lt1 i; omega⟩ : Fin 8) (⟨(i 1).val % 128, Nat.mod_lt _ (by decide)⟩ : Fin 128) k :=
    funext fun a => Fin.ext (by
      match a with
      | ⟨0, _⟩ => show (j 1).val / 128 = (i 1).val / 128; rw [hi1]
      | ⟨1, _⟩ => show (j 1).val % 128 = (i 1).val % 128; rw [hi1]
      | ⟨2, _⟩ => rfl)
  exact congrArg₂ (· * ·) (hB (j 0) k (i 0) hi0) (congrArg M' eW)

variable (V : (c : Dev nD) → (b : Ref sig .tc) → Buf (Elt Ideal) ((c : Thread nD τ).loc b))

/-- The printed index maps, decided over the grid: the block of states and the output block are block `t` down the
    rows, and the maps are taken whole. -/
theorem idx_facts : ∀ t : Fin cfg3.N, win3_0.index t (0 : Fin 2) = t.val ∧ win3_0.index t (1 : Fin 2) = 0
    ∧ win3_1.index t (0 : Fin 3) = 0 ∧ win3_1.index t (1 : Fin 3) = 0 ∧ win3_1.index t (2 : Fin 3) = 0
    ∧ win3_2.index t (0 : Fin 2) = t.val ∧ win3_2.index t (1 : Fin 2) = 0 :=
  (by decide +kernel : ∀ t : Fin grid3.N, _)

/-- What point `t` writes back is block `t` of the typed messages of the arrays the region finds. -/
theorem flushed_eq (c : Dev nD) (t : Fin cfg3.N) :
    (dat3 (F := Ideal) V c).flushed 2 t
      = ((cfg3.win 2).blk t).view.read (Elt Ideal) (typedRows (V c (Pipeline.arrRef spec3 0)) (V c (Pipeline.arrRef spec3 1))) := by
  show (cfg3.win 2).cut (grid3.coords t) ((dat3 V c).after 2 t) = _
  rw [after3_2, out_eq]
  obtain ⟨e0, e1, e2, e3, e4, e5, e6⟩ := idx_facts t
  funext j
  refine typedRows_block (V c (Pipeline.arrRef spec3 0)) (V c (Pipeline.arrRef spec3 1)) (iblk3 V c 0 t) (iblk3 V c 1 t) t.val ?_ ?_ j (((cfg3.win 2).blk t).view.emb j) ?_ ?_
  · intro p k i hi
    show V c (Pipeline.arrRef spec3 0) (((cfg3.win 0).blk t).view.emb (ix2 p k)) = _
    refine congrArg _ (funext fun a => Fin.ext ?_)
    match a with
    | ⟨0, _⟩ => show win3_0.index t (0 : Fin 2) * 2000 + 1 * p.val = i.val; rw [e0, hi]; omega
    | ⟨1, _⟩ => show win3_0.index t (1 : Fin 2) * 128 + 1 * k.val = k.val; rw [e1]; omega
  · funext x
    show V c (Pipeline.arrRef spec3 1) (((cfg3.win 1).blk t).view.emb x) = _
    refine congrArg _ (funext fun a => Fin.ext ?_)
    match a with
    | ⟨0, _⟩ => show win3_1.index t (0 : Fin 3) * 8 + 1 * (x 0).val = (x 0).val; rw [e2]; omega
    | ⟨1, _⟩ => show win3_1.index t (1 : Fin 3) * 128 + 1 * (x 1).val = (x 1).val; rw [e3]; omega
    | ⟨2, _⟩ => show win3_1.index t (2 : Fin 3) * 128 + 1 * (x 2).val = (x 2).val; rw [e4]; omega
  · show win3_2.index t (0 : Fin 2) * 2000 + 1 * (j 0).val = 2000 * t.val + (j 0).val; rw [e5]; omega
  · show win3_2.index t (1 : Fin 2) * 1024 + 1 * (j 1).val = (j 1).val; rw [e6]; omega

/-- An index of the output array is in point `t`'s block iff each coordinate is in the block's range on its axis. -/
theorem mem_blk (t : Fin cfg3.N) (i : S100000x1024.Idx) :
    i ∈ ((cfg3.win 2).blk t).view.set ↔ ∀ a : Fin 2, win3_2.index t a * S2000x1024.size a ≤ (i a).val ∧ (i a).val < win3_2.index t a * S2000x1024.size a + S2000x1024.size a := by
  show i ∈ ((View.whole main_v40).slice (win3_2.rect t)).set ↔ _
  rw [View.set_slice_whole, Rect.mem_set_unit]
  exact Iff.rfl

/-- The fifty blocks of 2000 rows cover the 100000 rows: row `n` is in block `n / 2000`. -/
theorem cover (i : S100000x1024.Idx) :
    ∃ t : Fin cfg3.N, (cfg3.win 2).flush t = true ∧ i ∈ ((cfg3.win 2).blk t).view.set := by
  have hi0 : (i 0).val < 100000 := (i 0).isLt
  have hi1 : (i 1).val < 1024 := (i 1).isLt
  have hN : cfg3.N = 50 := N_3
  have ht : (i 0).val / 2000 < cfg3.N := by rw [hN]; omega
  obtain ⟨e0, e1, e2, e3, e4, e5, e6⟩ := idx_facts ⟨(i 0).val / 2000, ht⟩
  refine ⟨⟨(i 0).val / 2000, ht⟩, flush3_2 _, ?_⟩
  rw [mem_blk]
  intro a
  match a with
  | ⟨0, _⟩ =>
    show win3_2.index ⟨(i 0).val / 2000, ht⟩ (0 : Fin 2) * 2000 ≤ (i 0).val ∧ (i 0).val < win3_2.index ⟨(i 0).val / 2000, ht⟩ (0 : Fin 2) * 2000 + 2000
    rw [e5]; show (i 0).val / 2000 * 2000 ≤ (i 0).val ∧ (i 0).val < (i 0).val / 2000 * 2000 + 2000; omega
  | ⟨1, _⟩ =>
    show win3_2.index ⟨(i 0).val / 2000, ht⟩ (1 : Fin 2) * 1024 ≤ (i 1).val ∧ (i 1).val < win3_2.index ⟨(i 0).val / 2000, ht⟩ (1 : Fin 2) * 1024 + 1024
    rw [e6]; omega

/-- The output array after the region: the typed messages of the state array and the maps the region found. -/
theorem array (c : Dev nD) :
    (dat3 (F := Ideal) V c).arrAt 2 cfg3.N = typedRows (V c (Pipeline.arrRef spec3 0)) (V c (Pipeline.arrRef spec3 1)) :=
  (dat3 V c).arrAt_eq_of_cover 2 _ (fun t _ => flushed_eq V c t) cover

end Cert.KernelIdeal.MessageArray3

end
-- ==== Proof.GateArray2.lean ====
/-
  The gated update of one round, from the 50 blocks of 2000 rows to the whole array of 100000 rows.

  At each of the 50 grid points the body reads 2000 rows of the aggregate a and of the state h, the two weight
  matrices (384 rows of 128, a row per output) and the two biases (one row of 384), and leaves 2000 rows of the
  new state. Over the extended reals, where a change of number format does nothing:
    * a product of rows against rows into a zero accumulator is, at row p and column q, the sum over k of
      x[p, k] * w[q, k]; with the bias of column q added it is the specification's affine map;
    * the three slices of 128 columns at offsets 0, 128, 256 read columns q, 128 + q, 256 + q: the reset, update
      and candidate pre-activations;
    * everything between those six pre-activations and the result acts entry by entry, and is the specification's
      gate of the six numbers and the old entry;
  so the body's result on a block IS the specification's gated update of that block of rows. The gated update
  reads, for an output row, only the same row of a and of h, so the update of rows 2000 t … 2000 t + 1999 is that
  block of the update of the whole arrays. Point t stages exactly those rows (and the weights and biases whole) and
  writes its result back to exactly those rows; the 50 blocks cover every row (row r lies in block r / 2000). Hence
  the array the region leaves is the gated update of the arrays it found.
-/
import proofs.«144449_j22325240004851_1_alg».proof.Proof.Gen.KernelIdeal.Frame
import proofs.«144449_j22325240004851_1_alg».proof.Proof.GraphSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.GateArray2

open Cert.KernelIdeal Cert.KernelIdeal.Gen Idealize.ShloMosaic Idealize.ShloMosaic.ValueIdx Idealize.ShloMosaic.TcCoe Idealize.SL.Sem
open Idealize.ShloMosaic.Pipeline (Dat)

/-! ## A matrix product of rows against rows, at an index -/

/-- The left operand's row is the output's row. -/
theorem lhs_row (i : S2000x384.Idx) (u : dot_S2000x128_S384x128_S2000x384_1_1_0_0_n_n.contr.Idx) :
    (dot_S2000x128_S384x128_S2000x384_1_1_0_0_n_n.lhsIdx i u 0).val = (i 0).val := by
  unfold DotDims.lhsIdx
  rw [dif_neg (show ¬(0 : Fin S2000x128.rank) ∈ dot_S2000x128_S384x128_S2000x384_1_1_0_0_n_n.lhsBatch by decide),
    dif_pos (show (0 : Fin S2000x128.rank) ∈ dot_S2000x128_S384x128_S2000x384_1_1_0_0_n_n.lhsNonContracting by decide)]
  rfl

/-- The left operand's column is the summation index. -/
theorem lhs_col (i : S2000x384.Idx) (u : dot_S2000x128_S384x128_S2000x384_1_1_0_0_n_n.contr.Idx) :
    (dot_S2000x128_S384x128_S2000x384_1_1_0_0_n_n.lhsIdx i u 1).val = (u ⟨0, by decide⟩).val :=
  dot_S2000x128_S384x128_S2000x384_1_1_0_0_n_n.lhsIdx_val_of_single rfl i u

/-- The right operand's row is the output's column: the weights are stored a row per output. -/
theorem rhs_row (i : S2000x384.Idx) (u : dot_S2000x128_S384x128_S2000x384_1_1_0_0_n_n.contr.Idx) :
    (dot_S2000x128_S384x128_S2000x384_1_1_0_0_n_n.rhsIdx i u 0).val = (i 1).val := by
  unfold DotDims.rhsIdx
  rw [dif_neg (show ¬(0 : Fin S384x128.rank) ∈ dot_S2000x128_S384x128_S2000x384_1_1_0_0_n_n.rhsBatch by decide),
    dif_pos (show (0 : Fin S384x128.rank) ∈ dot_S2000x128_S384x128_S2000x384_1_1_0_0_n_n.rhsNonContracting by decide)]
  rfl

/-- The right operand's column is the summation index. -/
theorem rhs_col (i : S2000x384.Idx) (u : dot_S2000x128_S384x128_S2000x384_1_1_0_0_n_n.contr.Idx) :
    (dot_S2000x128_S384x128_S2000x384_1_1_0_0_n_n.rhsIdx i u 1).val = (u ⟨0, by decide⟩).val :=
  dot_S2000x128_S384x128_S2000x384_1_1_0_0_n_n.rhsIdx_val_of_single rfl i u

/-- The product into a zero accumulator at row p, column q: row p of the left operand against row q of the
    right one. -/
theorem rowsDot_apply (x : FVec Ideal S2000x128 .bf16) (w : FVec Ideal S384x128 .bf16) (p : Fin 2000) (q : Fin 384) :
    matmul dot_S2000x128_S384x128_S2000x384_1_1_0_0_n_n none x w (constant (F := Ideal) S2000x384 .f32 0x00000000#32) (ix2 p q)
      = ∑ k : Fin 128, x (ix2 p k) * w (ix2 q k) := by
  simp only [matmul]
  rw [Ideal.matmul_constant_zero_apply,
    ← Equiv.sum_comp (contrEquiv1 dot_S2000x128_S384x128_S2000x384_1_1_0_0_n_n 128 rfl rfl).symm]
  refine Finset.sum_congr rfl fun k _ => ?_
  have hk := contrEquiv1_symm_val dot_S2000x128_S384x128_S2000x384_1_1_0_0_n_n 128 rfl rfl k
  have el : dot_S2000x128_S384x128_S2000x384_1_1_0_0_n_n.lhsIdx (ix2 p q) ((contrEquiv1 dot_S2000x128_S384x128_S2000x384_1_1_0_0_n_n 128 rfl rfl).symm k) = ix2 p k :=
    funext fun a => Fin.ext (by
      match a with
      | ⟨0, _⟩ => exact lhs_row _ _
      | ⟨1, _⟩ => exact (lhs_col _ _).trans hk)
  have er : dot_S2000x128_S384x128_S2000x384_1_1_0_0_n_n.rhsIdx (ix2 p q) ((contrEquiv1 dot_S2000x128_S384x128_S2000x384_1_1_0_0_n_n 128 rfl rfl).symm k) = ix2 q k :=
    funext fun a => Fin.ext (by
      match a with
      | ⟨0, _⟩ => exact rhs_row _ _
      | ⟨1, _⟩ => exact (rhs_col _ _).trans hk)
  rw [el, er]

/-! ## One affine map of the body, at an index -/

/-- An affine map as the body writes it: the operands brought to the product's format (nothing, over the
    extended reals), rows against rows into a zero accumulator, plus the one-row bias repeated down the rows. -/
def preact (x : Vec Ideal S2000x128 .f32) (w : Vec Ideal S384x128 .f32) (b : Vec Ideal S1x384 .f32) : FVec Ideal S2000x384 .f32 :=
  addf (matmul dot_S2000x128_S384x128_S2000x384_1_1_0_0_n_n none
      (truncf .bf16 (shapeCast S2000x128 x shapeCasts_S2000x128_S2000x128) bitsLt_bf16_f32)
      (truncf .bf16 (shapeCast S384x128 w shapeCasts_S384x128_S384x128) bitsLt_bf16_f32)
      (constant S2000x384 .f32 0x00000000#32))
    (broadcastTo S2000x384 (shapeCast S1x384 b shapeCasts_S1x384_S1x384) broadcasts_S1x384_S2000x384)

/-- The bias repeated down the rows reads the bias's column. -/
theorem biasRows_apply (b : Vec Ideal S1x384 .f32) (p : Fin 2000) (q : Fin 384) :
    broadcastTo S2000x384 b broadcasts_S1x384_S2000x384 (ix2 p q) = b (ix2 (0 : Fin 1) q) :=
  broadcastTo_apply b broadcasts_S1x384_S2000x384 (ix2 p q) (ix2 (0 : Fin 1) q) (fun a => match a with
    | ⟨0, _⟩ => by show (0 : Nat) = if (1 : Nat) = 1 then 0 else p.val; rw [if_pos rfl]
    | ⟨1, _⟩ => by show q.val = if (384 : Nat) = 1 then 0 else q.val; rw [if_neg (by decide)])

/-- The body's affine map is the specification's, entry by entry. -/
theorem preact_apply (x : Vec Ideal S2000x128 .f32) (w : Vec Ideal S384x128 .f32) (b : Vec Ideal S1x384 .f32)
    (p : Fin 2000) (q : Fin 384) :
    preact x w b (ix2 p q) = Cert.GraphSpec.affineRows x w b (ix2 p q) := by
  unfold preact
  rw [shapeCast_self, shapeCast_self, shapeCast_self, addf_apply, rowsDot_apply, biasRows_apply]
  rfl

/-! ## The three groups of columns -/

/-- Group g (columns 128 g … 128 g + 127) of a 384-column array, read at column q, is column 128 g + q. -/
theorem group0_apply (v : FVec Ideal S2000x384 .f32) (p : Fin 2000) (q : Fin 128) :
    extractStridedSlice S2000x128 ![0, 0] v slices_S2000x384_o0_0_S2000x128 (ix2 p q)
      = v (ix2 p (⟨q.val, by omega⟩ : Fin 384)) :=
  extractStridedSlice_apply ![0, 0] v slices_S2000x384_o0_0_S2000x128 (ix2 p q) (ix2 p (⟨q.val, by omega⟩ : Fin 384))
    (fun a => match a with
      | ⟨0, _⟩ => by show p.val = 0 + p.val; omega
      | ⟨1, _⟩ => by show q.val = 0 + q.val; omega)

theorem group1_apply (v : FVec Ideal S2000x384 .f32) (p : Fin 2000) (q : Fin 128) :
    extractStridedSlice S2000x128 ![0, 128] v slices_S2000x384_o0_128_S2000x128 (ix2 p q)
      = v (ix2 p (⟨128 + q.val, by omega⟩ : Fin 384)) :=
  extractStridedSlice_apply ![0, 128] v slices_S2000x384_o0_128_S2000x128 (ix2 p q) (ix2 p (⟨128 + q.val, by omega⟩ : Fin 384))
    (fun a => match a with
      | ⟨0, _⟩ => by show p.val = 0 + p.val; omega
      | ⟨1, _⟩ => by show 128 + q.val = 128 + q.val; rfl)

theorem group2_apply (v : FVec Ideal S2000x384 .f32) (p : Fin 2000) (q : Fin 128) :
    extractStridedSlice S2000x128 ![0, 256] v slices_S2000x384_o0_256_S2000x128 (ix2 p q)
      = v (ix2 p (⟨256 + q.val, by omega⟩ : Fin 384)) :=
  extractStridedSlice_apply ![0, 256] v slices_S2000x384_o0_256_S2000x128 (ix2 p q) (ix2 p (⟨256 + q.val, by omega⟩ : Fin 384))
    (fun a => match a with
      | ⟨0, _⟩ => by show p.val = 0 + p.val; omega
      | ⟨1, _⟩ => by show 256 + q.val = 256 + q.val; rfl)

/-! ## The body's result -/

/-- Between the six pre-activations and the result every operation acts entry by entry, so an entry of the
    body's result is the gate of the six pre-activation entries and the old state's entry. -/
theorem pay_cell (h a : Vec Ideal S2000x128 .f32) (wi wh : Vec Ideal S384x128 .f32) (bi bh : Vec Ideal S1x384 .f32)
    (j : S2000x128.Idx) :
    k2_pay1 (F := Ideal) h a wi wh bi bh j = Cert.GraphSpec.gateCell
      (extractStridedSlice S2000x128 ![0, 0] (preact a wi bi) slices_S2000x384_o0_0_S2000x128 j)
      (extractStridedSlice S2000x128 ![0, 0] (preact h wh bh) slices_S2000x384_o0_0_S2000x128 j)
      (extractStridedSlice S2000x128 ![0, 128] (preact a wi bi) slices_S2000x384_o0_128_S2000x128 j)
      (extractStridedSlice S2000x128 ![0, 128] (preact h wh bh) slices_S2000x384_o0_128_S2000x128 j)
      (extractStridedSlice S2000x128 ![0, 256] (preact a wi bi) slices_S2000x384_o0_256_S2000x128 j)
      (extractStridedSlice S2000x128 ![0, 256] (preact h wh bh) slices_S2000x384_o0_256_S2000x128 j)
      (shapeCast S2000x128 h shapeCasts_S2000x128_S2000x128 j) := rfl

/-- The body's result on a block of 2000 rows is the gated update of those rows. -/
theorem pay_eq (h a : Vec Ideal S2000x128 .f32) (wi wh : Vec Ideal S384x128 .f32) (bi bh : Vec Ideal S1x384 .f32) :
    k2_pay1 (F := Ideal) h a wi wh bi bh = Cert.GraphSpec.gatedRows a h wi wh bi bh := by
  funext j
  obtain ⟨p, q, rfl⟩ : ∃ (p : Fin 2000) (q : Fin 128), j = ix2 p q := ⟨j 0, j 1, eq_ix2 j⟩
  rw [pay_cell, group0_apply, group0_apply, group1_apply, group1_apply, group2_apply, group2_apply,
    preact_apply, preact_apply, preact_apply, preact_apply, preact_apply, preact_apply, shapeCast_self]
  rfl

/-! ## The gated update acts row by row -/

/-- An entry of an affine map reads one row of its input. -/
theorem affineRows_row {n n' p : Nat} (x : (⟨2, ![n, 128]⟩ : Shape).Idx → EReal) (x' : (⟨2, ![n', 128]⟩ : Shape).Idx → EReal)
    (w : (⟨2, ![p, 128]⟩ : Shape).Idx → EReal) (b : (⟨2, ![1, p]⟩ : Shape).Idx → EReal) (r : Fin n) (r' : Fin n') (q : Fin p)
    (hx : ∀ k : Fin 128, x (ix2 r k) = x' (ix2 r' k)) :
    Cert.GraphSpec.affineRows x w b (ix2 r q) = Cert.GraphSpec.affineRows x' w b (ix2 r' q) := by
  show (∑ k : Fin 128, x (ix2 r k) * w (ix2 q k)) + b (ix2 (0 : Fin 1) q)
    = (∑ k : Fin 128, x' (ix2 r' k) * w (ix2 q k)) + b (ix2 (0 : Fin 1) q)
  exact congrArg (· + b (ix2 (0 : Fin 1) q)) (Finset.sum_congr rfl fun k _ => by rw [hx k])

/-- So does an entry of the gated update: row r of the update of (a, h) is the same as row r' of the update of
    (a', h') once row r of a is row r' of a' and row r of h is row r' of h'. -/
theorem gatedRows_row {n n' : Nat} (a h : (⟨2, ![n, 128]⟩ : Shape).Idx → EReal) (a' h' : (⟨2, ![n', 128]⟩ : Shape).Idx → EReal)
    (wi wh : (⟨2, ![384, 128]⟩ : Shape).Idx → EReal) (bi bh : (⟨2, ![1, 384]⟩ : Shape).Idx → EReal)
    (r : Fin n) (r' : Fin n') (q : Fin 128)
    (ha : ∀ k : Fin 128, a (ix2 r k) = a' (ix2 r' k)) (hh : ∀ k : Fin 128, h (ix2 r k) = h' (ix2 r' k)) :
    Cert.GraphSpec.gatedRows a h wi wh bi bh (ix2 r q) = Cert.GraphSpec.gatedRows a' h' wi wh bi bh (ix2 r' q) := by
  have ea : ∀ q' : Fin 384, Cert.GraphSpec.affineRows a wi bi (ix2 r q') = Cert.GraphSpec.affineRows a' wi bi (ix2 r' q') :=
    fun q' => affineRows_row a a' wi bi r r' q' ha
  have eh : ∀ q' : Fin 384, Cert.GraphSpec.affineRows h wh bh (ix2 r q') = Cert.GraphSpec.affineRows h' wh bh (ix2 r' q') :=
    fun q' => affineRows_row h h' wh bh r r' q' hh
  show Cert.GraphSpec.gateCell
      (Cert.GraphSpec.affineRows a wi bi (ix2 r ⟨q.val, _⟩)) (Cert.GraphSpec.affineRows h wh bh (ix2 r ⟨q.val, _⟩))
      (Cert.GraphSpec.affineRows a wi bi (ix2 r ⟨128 + q.val, _⟩)) (Cert.GraphSpec.affineRows h wh bh (ix2 r ⟨128 + q.val, _⟩))
      (Cert.GraphSpec.affineRows a wi bi (ix2 r ⟨256 + q.val, _⟩)) (Cert.GraphSpec.affineRows h wh bh (ix2 r ⟨256 + q.val, _⟩))
      (h (ix2 r q))
    = Cert.GraphSpec.gateCell
      (Cert.GraphSpec.affineRows a' wi bi (ix2 r' ⟨q.val, _⟩)) (Cert.GraphSpec.affineRows h' wh bh (ix2 r' ⟨q.val, _⟩))
      (Cert.GraphSpec.affineRows a' wi bi (ix2 r' ⟨128 + q.val, _⟩)) (Cert.GraphSpec.affineRows h' wh bh (ix2 r' ⟨128 + q.val, _⟩))
      (Cert.GraphSpec.affineRows a' wi bi (ix2 r' ⟨256 + q.val, _⟩)) (Cert.GraphSpec.affineRows h' wh bh (ix2 r' ⟨256 + q.val, _⟩))
      (h' (ix2 r' q))
  rw [ea, ea, ea, eh, eh, eh, hh q]

/-! ## From the blocks to the array -/

theorem hz : (![0, 0] : Fin 2 → Nat) = fun _ => 0 := funext fun a => by fin_cases a <;> rfl

/-- The index maps over the 50 points: the aggregate, the state and the result move together, block t at point t,
    all 128 columns; the weights and the biases are whole at every point. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The gated update of a block of rows is that block of the gated update of the arrays: stated over variables,
    with the block's place in the arrays as hypotheses (the result's entry j is the arrays' entry i; row j 0 of
    the two row blocks is row i 0 of the two arrays; the weights and biases are the arrays'). -/
theorem gatedRows_block {n n' : Nat} (a h : (⟨2, ![n, 128]⟩ : Shape).Idx → EReal) (A H : (⟨2, ![n', 128]⟩ : Shape).Idx → EReal)
    (wi wh wi' wh' : (⟨2, ![384, 128]⟩ : Shape).Idx → EReal) (bi bh bi' bh' : (⟨2, ![1, 384]⟩ : Shape).Idx → EReal)
    (j : (⟨2, ![n, 128]⟩ : Shape).Idx) (i : (⟨2, ![n', 128]⟩ : Shape).Idx)
    (hc : (j 1).val = (i 1).val)
    (ha : ∀ k : Fin 128, a (ix2 (j 0) k) = A (ix2 (i 0) k)) (hh : ∀ k : Fin 128, h (ix2 (j 0) k) = H (ix2 (i 0) k))
    (hwi : ∀ y, wi' y = wi y) (hwh : ∀ y, wh' y = wh y) (hbi : ∀ y, bi' y = bi y) (hbh : ∀ y, bh' y = bh y) :
    Cert.GraphSpec.gatedRows a h wi' wh' bi' bh' j = Cert.GraphSpec.gatedRows A H wi wh bi bh i := by
  obtain rfl : wi' = wi := funext hwi
  obtain rfl : wh' = wh := funext hwh
  obtain rfl : bi' = bi := funext hbi
  obtain rfl : bh' = bh := funext hbh
  have ei : ix2 (i 0) (j 1) = i := (congrArg (ix2 (i 0)) (Fin.ext hc)).trans (eq_ix2 i).symm
  exact (congrArg (Cert.GraphSpec.gatedRows a h wi' wh' bi' bh') (eq_ix2 j)).trans
    ((gatedRows_row a h A H wi' wh' bi' bh' (j 0) (i 0) (j 1) ha hh).trans
      (congrArg (Cert.GraphSpec.gatedRows A H wi' wh' bi' bh') ei))

section Region
variable (V : (c : Dev nD) → (b : Ref sig .tc) → Buf (Elt Ideal) ((c : Thread nD τ).loc b)) (c : Dev nD)

/-- The aggregate's block at point t is rows 2000 t … 2000 t + 1999 of its array. -/
theorem aggBlock_apply (t : Fin cfg2.N) (y : S2000x128.Idx) (i : S100000x128.Idx)
    (h0 : (i 0).val = t.val * 2000 + (y 0).val) (h1 : (i 1).val = (y 1).val) :
    (iblk2 V c 0 t : Vec Ideal S2000x128 .f32) y = (V c (Pipeline.arrRef spec2 0) : S100000x128.Idx → Elt Ideal .f32) i := by
  obtain ⟨e00, e01, e10, e11, -⟩ := idx_facts t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 2000 + 1 * (y 0).val = (i 0).val; omega
  | ⟨1, _⟩ => show win2_0.index t (1 : Fin 2) * 128 + 1 * (y 1).val = (i 1).val; omega

/-- The state's block at point t is rows 2000 t … 2000 t + 1999 of its array. -/
theorem stateBlock_apply (t : Fin cfg2.N) (y : S2000x128.Idx) (i : S100000x128.Idx)
    (h0 : (i 0).val = t.val * 2000 + (y 0).val) (h1 : (i 1).val = (y 1).val) :
    (iblk2 V c 1 t : Vec Ideal S2000x128 .f32) y = (V c (Pipeline.arrRef spec2 1) : S100000x128.Idx → Elt Ideal .f32) i := by
  obtain ⟨e00, e01, e10, e11, -⟩ := idx_facts t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 2000 + 1 * (y 0).val = (i 0).val; omega
  | ⟨1, _⟩ => show win2_1.index t (1 : Fin 2) * 128 + 1 * (y 1).val = (i 1).val; omega

/-- The aggregate's weights are staged whole at every point. -/
theorem wiBlock_apply (t : Fin cfg2.N) (y : S384x128.Idx) :
    (iblk2 V c 2 t : Vec Ideal S384x128 .f32) y = (V c (Pipeline.arrRef spec2 2) : S384x128.Idx → Elt Ideal .f32) y := by
  obtain ⟨-, -, -, -, e20, e21, e30, e31, e40, e41, e50, e51, -⟩ := idx_facts t
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 384 + 1 * (y 0).val = (y 0).val; omega
  | ⟨1, _⟩ => show win2_2.index t (1 : Fin 2) * 128 + 1 * (y 1).val = (y 1).val; omega

/-- The state's weights are staged whole at every point. -/
theorem whBlock_apply (t : Fin cfg2.N) (y : S384x128.Idx) :
    (iblk2 V c 3 t : Vec Ideal S384x128 .f32) y = (V c (Pipeline.arrRef spec2 3) : S384x128.Idx → Elt Ideal .f32) y := by
  obtain ⟨-, -, -, -, e20, e21, e30, e31, e40, e41, e50, e51, -⟩ := idx_facts t
  unfold iblk2
  rw [View.read_apply]
  show V c (Pipeline.arrRef spec2 3) _ = V c (Pipeline.arrRef spec2 3) _
  congr 1
  funext a
  apply Fin.ext
  match a with
  | ⟨0, _⟩ => show win2_3.index t (0 : Fin 2) * 384 + 1 * (y 0).val = (y 0).val; omega
  | ⟨1, _⟩ => show win2_3.index t (1 : Fin 2) * 128 + 1 * (y 1).val = (y 1).val; omega

/-- The aggregate's bias is staged whole at every point. -/
theorem biBlock_apply (t : Fin cfg2.N) (y : S1x384.Idx) :
    (iblk2 V c 4 t : Vec Ideal S1x384 .f32) y = (V c (Pipeline.arrRef spec2 4) : S1x384.Idx → Elt Ideal .f32) y := by
  obtain ⟨-, -, -, -, e20, e21, e30, e31, e40, e41, e50, e51, -⟩ := idx_facts t
  unfold iblk2
  rw [View.read_apply]
  show V c (Pipeline.arrRef spec2 4) _ = V c (Pipeline.arrRef spec2 4) _
  congr 1
  funext a
  apply Fin.ext
  match a with
  | ⟨0, _⟩ => show win2_4.index t (0 : Fin 2) * 1 + 1 * (y 0).val = (y 0).val; omega
  | ⟨1, _⟩ => show win2_4.index t (1 : Fin 2) * 384 + 1 * (y 1).val = (y 1).val; omega

/-- The state's bias is staged whole at every point. -/
theorem bhBlock_apply (t : Fin cfg2.N) (y : S1x384.Idx) :
    (iblk2 V c 5 t : Vec Ideal S1x384 .f32) y = (V c (Pipeline.arrRef spec2 5) : S1x384.Idx → Elt Ideal .f32) y := by
  obtain ⟨-, -, -, -, e20, e21, e30, e31, e40, e41, e50, e51, -⟩ := idx_facts t
  unfold iblk2
  rw [View.read_apply]
  show V c (Pipeline.arrRef spec2 5) _ = V c (Pipeline.arrRef spec2 5) _
  congr 1
  funext a
  apply Fin.ext
  match a with
  | ⟨0, _⟩ => show win2_5.index t (0 : Fin 2) * 1 + 1 * (y 0).val = (y 0).val; omega
  | ⟨1, _⟩ => show win2_5.index t (1 : Fin 2) * 384 + 1 * (y 1).val = (y 1).val; omega

/-- An entry of the result's block at point t sits in the array at row 2000 t + its row, same column. -/
theorem resultBlock_emb (t : Fin cfg2.N) (j : S2000x128.Idx) :
    ((((cfg2.win 6).blk t).view.emb j : S100000x128.Idx) 0).val = t.val * 2000 + (j 0).val
    ∧ ((((cfg2.win 6).blk t).view.emb j : S100000x128.Idx) 1).val = (j 1).val := by
  obtain ⟨-, -, -, -, -, -, -, -, -, -, -, -, e60, e61⟩ := idx_facts t
  constructor
  · show win2_6.index t (0 : Fin 2) * 2000 + 1 * (j 0).val = t.val * 2000 + (j 0).val; omega
  · show win2_6.index t (1 : Fin 2) * 128 + 1 * (j 1).val = (j 1).val; omega

/-- What point t leaves in the result's staging buffer: the gated update of the staged blocks. -/
theorem after_eq (t : Fin cfg2.N) :
    (dat2 (F := Ideal) V c).after 6 t = Cert.GraphSpec.gatedRows (n := 2000)
      (iblk2 V c 0 t : Vec Ideal S2000x128 .f32) (iblk2 V c 1 t : Vec Ideal S2000x128 .f32)
      (iblk2 V c 2 t : Vec Ideal S384x128 .f32) (iblk2 V c 3 t : Vec Ideal S384x128 .f32)
      (iblk2 V c 4 t : Vec Ideal S1x384 .f32) (iblk2 V c 5 t : Vec Ideal S1x384 .f32) := by
  rw [after2_6]
  unfold out2_6
  rw [View.canon_unit_zero hz]
  simp only [View.ld_unit_zero (S := S2000x128) hz, View.ld_unit_zero (S := S384x128) hz, View.ld_unit_zero (S := S1x384) hz]
  rw [pay_eq]

/-- What point t writes back is block t of the gated update of the arrays the region finds. -/
theorem flushed_eq (t : Fin cfg2.N) :
    (dat2 (F := Ideal) V c).flushed 6 t = ((cfg2.win 6).blk t).view.read (Elt Ideal)
      (Cert.GraphSpec.gatedRows (n := 100000) (V c (Pipeline.arrRef spec2 0)) (V c (Pipeline.arrRef spec2 1))
        (V c (Pipeline.arrRef spec2 2)) (V c (Pipeline.arrRef spec2 3)) (V c (Pipeline.arrRef spec2 4)) (V c (Pipeline.arrRef spec2 5))) := by
  show (cfg2.win 6).cut (grid2.coords t) ((dat2 V c).after 6 t) = _
  rw [after_eq]
  funext j
  obtain ⟨r0, r1⟩ := resultBlock_emb t j
  show Cert.GraphSpec.gatedRows (n := 2000) (iblk2 V c 0 t) (iblk2 V c 1 t) (iblk2 V c 2 t) (iblk2 V c 3 t) (iblk2 V c 4 t) (iblk2 V c 5 t) j
    = Cert.GraphSpec.gatedRows (n := 100000) (V c (Pipeline.arrRef spec2 0)) (V c (Pipeline.arrRef spec2 1))
        (V c (Pipeline.arrRef spec2 2)) (V c (Pipeline.arrRef spec2 3)) (V c (Pipeline.arrRef spec2 4)) (V c (Pipeline.arrRef spec2 5))
        (((cfg2.win 6).blk t).view.emb j)
  exact gatedRows_block _ _ _ _ _ _ _ _ _ _ _ _ j _ r1.symm
    (fun k => aggBlock_apply V c t (ix2 (j 0) k) (ix2 ((((cfg2.win 6).blk t).view.emb j : S100000x128.Idx) 0) k) r0 rfl)
    (fun k => stateBlock_apply V c t (ix2 (j 0) k) (ix2 ((((cfg2.win 6).blk t).view.emb j : S100000x128.Idx) 0) k) r0 rfl)
    (wiBlock_apply V c t) (whBlock_apply V c t) (biBlock_apply V c t) (bhBlock_apply V c t)

/-- An index of the result array is in point t's block iff each coordinate is in the block's range on its axis. -/
theorem mem_blk (t : Fin cfg2.N) (i : S100000x128.Idx) :
    i ∈ ((cfg2.win 6).blk t).view.set ↔ ∀ a : Fin 2, win2_6.index t a * S2000x128.size a ≤ (i a).val
      ∧ (i a).val < win2_6.index t a * S2000x128.size a + S2000x128.size a := by
  show i ∈ ((View.whole main_v37).slice (win2_6.rect t)).set ↔ _
  rw [View.set_slice_whole, Rect.mem_set_unit]
  exact Iff.rfl

/-- The 50 blocks of 2000 rows cover the 100000 rows: row r is in the block of point r / 2000. -/
theorem covered (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hN : grid2.N = 50 := N_2
  have ht : (i 0).val / 2000 < cfg2.N := by show (i 0).val / 2000 < grid2.N; omega
  obtain ⟨-, -, -, -, -, -, -, -, -, -, -, -, e60, e61⟩ := idx_facts ⟨(i 0).val / 2000, ht⟩
  have e60' : win2_6.index ⟨(i 0).val / 2000, ht⟩ (0 : Fin 2) = (i 0).val / 2000 := e60
  refine ⟨⟨(i 0).val / 2000, ht⟩, flush2_6 _, ?_⟩
  rw [mem_blk]
  intro a
  match a with
  | ⟨0, _⟩ =>
    show win2_6.index ⟨(i 0).val / 2000, ht⟩ (0 : Fin 2) * 2000 ≤ (i 0).val
      ∧ (i 0).val < win2_6.index ⟨(i 0).val / 2000, ht⟩ (0 : Fin 2) * 2000 + 2000
    omega
  | ⟨1, _⟩ =>
    show win2_6.index ⟨(i 0).val / 2000, ht⟩ (1 : Fin 2) * 128 ≤ (i 1).val
      ∧ (i 1).val < win2_6.index ⟨(i 0).val / 2000, ht⟩ (1 : Fin 2) * 128 + 128
    omega

/-- The result array after the region: the gated update of the state by the aggregate, with the weights and biases
    the region finds. -/
theorem array :
    (dat2 (F := Ideal) V c).arrAt 6 cfg2.N
      = Cert.GraphSpec.gatedRows (V c (Pipeline.arrRef spec2 0)) (V c (Pipeline.arrRef spec2 1))
          (V c (Pipeline.arrRef spec2 2)) (V c (Pipeline.arrRef spec2 3)) (V c (Pipeline.arrRef spec2 4)) (V c (Pipeline.arrRef spec2 5)) :=
  (dat2 (F := Ideal) V c).arrAt_eq_of_cover 6 _ (fun t _ => flushed_eq V c t) covered

end Region

end Cert.KernelIdeal.GateArray2

end
-- ==== Proof.GateArray4.lean ====
/-
  The gated update of one round, from the 50 blocks of 2000 rows to the whole array of 100000 rows.

  At each of the 50 grid points the body reads 2000 rows of the aggregate a and of the state h, the two weight
  matrices (384 rows of 128, a row per output) and the two biases (one row of 384), and leaves 2000 rows of the
  new state. Over the extended reals, where a change of number format does nothing:
    * a product of rows against rows into a zero accumulator is, at row p and column q, the sum over k of
      x[p, k] * w[q, k]; with the bias of column q added it is the specification's affine map;
    * the three slices of 128 columns at offsets 0, 128, 256 read columns q, 128 + q, 256 + q: the reset, update
      and candidate pre-activations;
    * everything between those six pre-activations and the result acts entry by entry, and is the specification's
      gate of the six numbers and the old entry;
  so the body's result on a block IS the specification's gated update of that block of rows. The gated update
  reads, for an output row, only the same row of a and of h, so the update of rows 2000 t … 2000 t + 1999 is that
  block of the update of the whole arrays. Point t stages exactly those rows (and the weights and biases whole) and
  writes its result back to exactly those rows; the 50 blocks cover every row (row r lies in block r / 2000). Hence
  the array the region leaves is the gated update of the arrays it found.
-/
import proofs.«144449_j22325240004851_1_alg».proof.Proof.Gen.KernelIdeal.Frame
import proofs.«144449_j22325240004851_1_alg».proof.Proof.GraphSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.GateArray4

open Cert.KernelIdeal Cert.KernelIdeal.Gen Idealize.ShloMosaic Idealize.ShloMosaic.ValueIdx Idealize.ShloMosaic.TcCoe Idealize.SL.Sem
open Idealize.ShloMosaic.Pipeline (Dat)

/-! ## A matrix product of rows against rows, at an index -/

/-- The left operand's row is the output's row. -/
theorem lhs_row (i : S2000x384.Idx) (u : dot_S2000x128_S384x128_S2000x384_1_1_0_0_n_n.contr.Idx) :
    (dot_S2000x128_S384x128_S2000x384_1_1_0_0_n_n.lhsIdx i u 0).val = (i 0).val := by
  unfold DotDims.lhsIdx
  rw [dif_neg (show ¬(0 : Fin S2000x128.rank) ∈ dot_S2000x128_S384x128_S2000x384_1_1_0_0_n_n.lhsBatch by decide),
    dif_pos (show (0 : Fin S2000x128.rank) ∈ dot_S2000x128_S384x128_S2000x384_1_1_0_0_n_n.lhsNonContracting by decide)]
  rfl

/-- The left operand's column is the summation index. -/
theorem lhs_col (i : S2000x384.Idx) (u : dot_S2000x128_S384x128_S2000x384_1_1_0_0_n_n.contr.Idx) :
    (dot_S2000x128_S384x128_S2000x384_1_1_0_0_n_n.lhsIdx i u 1).val = (u ⟨0, by decide⟩).val :=
  dot_S2000x128_S384x128_S2000x384_1_1_0_0_n_n.lhsIdx_val_of_single rfl i u

/-- The right operand's row is the output's column: the weights are stored a row per output. -/
theorem rhs_row (i : S2000x384.Idx) (u : dot_S2000x128_S384x128_S2000x384_1_1_0_0_n_n.contr.Idx) :
    (dot_S2000x128_S384x128_S2000x384_1_1_0_0_n_n.rhsIdx i u 0).val = (i 1).val := by
  unfold DotDims.rhsIdx
  rw [dif_neg (show ¬(0 : Fin S384x128.rank) ∈ dot_S2000x128_S384x128_S2000x384_1_1_0_0_n_n.rhsBatch by decide),
    dif_pos (show (0 : Fin S384x128.rank) ∈ dot_S2000x128_S384x128_S2000x384_1_1_0_0_n_n.rhsNonContracting by decide)]
  rfl

/-- The right operand's column is the summation index. -/
theorem rhs_col (i : S2000x384.Idx) (u : dot_S2000x128_S384x128_S2000x384_1_1_0_0_n_n.contr.Idx) :
    (dot_S2000x128_S384x128_S2000x384_1_1_0_0_n_n.rhsIdx i u 1).val = (u ⟨0, by decide⟩).val :=
  dot_S2000x128_S384x128_S2000x384_1_1_0_0_n_n.rhsIdx_val_of_single rfl i u

/-- The product into a zero accumulator at row p, column q: row p of the left operand against row q of the
    right one. -/
theorem rowsDot_apply (x : FVec Ideal S2000x128 .bf16) (w : FVec Ideal S384x128 .bf16) (p : Fin 2000) (q : Fin 384) :
    matmul dot_S2000x128_S384x128_S2000x384_1_1_0_0_n_n none x w (constant (F := Ideal) S2000x384 .f32 0x00000000#32) (ix2 p q)
      = ∑ k : Fin 128, x (ix2 p k) * w (ix2 q k) := by
  simp only [matmul]
  rw [Ideal.matmul_constant_zero_apply,
    ← Equiv.sum_comp (contrEquiv1 dot_S2000x128_S384x128_S2000x384_1_1_0_0_n_n 128 rfl rfl).symm]
  refine Finset.sum_congr rfl fun k _ => ?_
  have hk := contrEquiv1_symm_val dot_S2000x128_S384x128_S2000x384_1_1_0_0_n_n 128 rfl rfl k
  have el : dot_S2000x128_S384x128_S2000x384_1_1_0_0_n_n.lhsIdx (ix2 p q) ((contrEquiv1 dot_S2000x128_S384x128_S2000x384_1_1_0_0_n_n 128 rfl rfl).symm k) = ix2 p k :=
    funext fun a => Fin.ext (by
      match a with
      | ⟨0, _⟩ => exact lhs_row _ _
      | ⟨1, _⟩ => exact (lhs_col _ _).trans hk)
  have er : dot_S2000x128_S384x128_S2000x384_1_1_0_0_n_n.rhsIdx (ix2 p q) ((contrEquiv1 dot_S2000x128_S384x128_S2000x384_1_1_0_0_n_n 128 rfl rfl).symm k) = ix2 q k :=
    funext fun a => Fin.ext (by
      match a with
      | ⟨0, _⟩ => exact rhs_row _ _
      | ⟨1, _⟩ => exact (rhs_col _ _).trans hk)
  rw [el, er]

/-! ## One affine map of the body, at an index -/

/-- An affine map as the body writes it: the operands brought to the product's format (nothing, over the
    extended reals), rows against rows into a zero accumulator, plus the one-row bias repeated down the rows. -/
def preact (x : Vec Ideal S2000x128 .f32) (w : Vec Ideal S384x128 .f32) (b : Vec Ideal S1x384 .f32) : FVec Ideal S2000x384 .f32 :=
  addf (matmul dot_S2000x128_S384x128_S2000x384_1_1_0_0_n_n none
      (truncf .bf16 (shapeCast S2000x128 x shapeCasts_S2000x128_S2000x128) bitsLt_bf16_f32)
      (truncf .bf16 (shapeCast S384x128 w shapeCasts_S384x128_S384x128) bitsLt_bf16_f32)
      (constant S2000x384 .f32 0x00000000#32))
    (broadcastTo S2000x384 (shapeCast S1x384 b shapeCasts_S1x384_S1x384) broadcasts_S1x384_S2000x384)

/-- The bias repeated down the rows reads the bias's column. -/
theorem biasRows_apply (b : Vec Ideal S1x384 .f32) (p : Fin 2000) (q : Fin 384) :
    broadcastTo S2000x384 b broadcasts_S1x384_S2000x384 (ix2 p q) = b (ix2 (0 : Fin 1) q) :=
  broadcastTo_apply b broadcasts_S1x384_S2000x384 (ix2 p q) (ix2 (0 : Fin 1) q) (fun a => match a with
    | ⟨0, _⟩ => by show (0 : Nat) = if (1 : Nat) = 1 then 0 else p.val; rw [if_pos rfl]
    | ⟨1, _⟩ => by show q.val = if (384 : Nat) = 1 then 0 else q.val; rw [if_neg (by decide)])

/-- The body's affine map is the specification's, entry by entry. -/
theorem preact_apply (x : Vec Ideal S2000x128 .f32) (w : Vec Ideal S384x128 .f32) (b : Vec Ideal S1x384 .f32)
    (p : Fin 2000) (q : Fin 384) :
    preact x w b (ix2 p q) = Cert.GraphSpec.affineRows x w b (ix2 p q) := by
  unfold preact
  rw [shapeCast_self, shapeCast_self, shapeCast_self, addf_apply, rowsDot_apply, biasRows_apply]
  rfl

/-! ## The three groups of columns -/

/-- Group g (columns 128 g … 128 g + 127) of a 384-column array, read at column q, is column 128 g + q. -/
theorem group0_apply (v : FVec Ideal S2000x384 .f32) (p : Fin 2000) (q : Fin 128) :
    extractStridedSlice S2000x128 ![0, 0] v slices_S2000x384_o0_0_S2000x128 (ix2 p q)
      = v (ix2 p (⟨q.val, by omega⟩ : Fin 384)) :=
  extractStridedSlice_apply ![0, 0] v slices_S2000x384_o0_0_S2000x128 (ix2 p q) (ix2 p (⟨q.val, by omega⟩ : Fin 384))
    (fun a => match a with
      | ⟨0, _⟩ => by show p.val = 0 + p.val; omega
      | ⟨1, _⟩ => by show q.val = 0 + q.val; omega)

theorem group1_apply (v : FVec Ideal S2000x384 .f32) (p : Fin 2000) (q : Fin 128) :
    extractStridedSlice S2000x128 ![0, 128] v slices_S2000x384_o0_128_S2000x128 (ix2 p q)
      = v (ix2 p (⟨128 + q.val, by omega⟩ : Fin 384)) :=
  extractStridedSlice_apply ![0, 128] v slices_S2000x384_o0_128_S2000x128 (ix2 p q) (ix2 p (⟨128 + q.val, by omega⟩ : Fin 384))
    (fun a => match a with
      | ⟨0, _⟩ => by show p.val = 0 + p.val; omega
      | ⟨1, _⟩ => by show 128 + q.val = 128 + q.val; rfl)

theorem group2_apply (v : FVec Ideal S2000x384 .f32) (p : Fin 2000) (q : Fin 128) :
    extractStridedSlice S2000x128 ![0, 256] v slices_S2000x384_o0_256_S2000x128 (ix2 p q)
      = v (ix2 p (⟨256 + q.val, by omega⟩ : Fin 384)) :=
  extractStridedSlice_apply ![0, 256] v slices_S2000x384_o0_256_S2000x128 (ix2 p q) (ix2 p (⟨256 + q.val, by omega⟩ : Fin 384))
    (fun a => match a with
      | ⟨0, _⟩ => by show p.val = 0 + p.val; omega
      | ⟨1, _⟩ => by show 256 + q.val = 256 + q.val; rfl)

/-! ## The body's result -/

/-- Between the six pre-activations and the result every operation acts entry by entry, so an entry of the
    body's result is the gate of the six pre-activation entries and the old state's entry. -/
theorem pay_cell (h a : Vec Ideal S2000x128 .f32) (wi wh : Vec Ideal S384x128 .f32) (bi bh : Vec Ideal S1x384 .f32)
    (j : S2000x128.Idx) :
    k4_pay1 (F := Ideal) h a wi wh bi bh j = Cert.GraphSpec.gateCell
      (extractStridedSlice S2000x128 ![0, 0] (preact a wi bi) slices_S2000x384_o0_0_S2000x128 j)
      (extractStridedSlice S2000x128 ![0, 0] (preact h wh bh) slices_S2000x384_o0_0_S2000x128 j)
      (extractStridedSlice S2000x128 ![0, 128] (preact a wi bi) slices_S2000x384_o0_128_S2000x128 j)
      (extractStridedSlice S2000x128 ![0, 128] (preact h wh bh) slices_S2000x384_o0_128_S2000x128 j)
      (extractStridedSlice S2000x128 ![0, 256] (preact a wi bi) slices_S2000x384_o0_256_S2000x128 j)
      (extractStridedSlice S2000x128 ![0, 256] (preact h wh bh) slices_S2000x384_o0_256_S2000x128 j)
      (shapeCast S2000x128 h shapeCasts_S2000x128_S2000x128 j) := rfl

/-- The body's result on a block of 2000 rows is the gated update of those rows. -/
theorem pay_eq (h a : Vec Ideal S2000x128 .f32) (wi wh : Vec Ideal S384x128 .f32) (bi bh : Vec Ideal S1x384 .f32) :
    k4_pay1 (F := Ideal) h a wi wh bi bh = Cert.GraphSpec.gatedRows a h wi wh bi bh := by
  funext j
  obtain ⟨p, q, rfl⟩ : ∃ (p : Fin 2000) (q : Fin 128), j = ix2 p q := ⟨j 0, j 1, eq_ix2 j⟩
  rw [pay_cell, group0_apply, group0_apply, group1_apply, group1_apply, group2_apply, group2_apply,
    preact_apply, preact_apply, preact_apply, preact_apply, preact_apply, preact_apply, shapeCast_self]
  rfl

/-! ## The gated update acts row by row -/

/-- An entry of an affine map reads one row of its input. -/
theorem affineRows_row {n n' p : Nat} (x : (⟨2, ![n, 128]⟩ : Shape).Idx → EReal) (x' : (⟨2, ![n', 128]⟩ : Shape).Idx → EReal)
    (w : (⟨2, ![p, 128]⟩ : Shape).Idx → EReal) (b : (⟨2, ![1, p]⟩ : Shape).Idx → EReal) (r : Fin n) (r' : Fin n') (q : Fin p)
    (hx : ∀ k : Fin 128, x (ix2 r k) = x' (ix2 r' k)) :
    Cert.GraphSpec.affineRows x w b (ix2 r q) = Cert.GraphSpec.affineRows x' w b (ix2 r' q) := by
  show (∑ k : Fin 128, x (ix2 r k) * w (ix2 q k)) + b (ix2 (0 : Fin 1) q)
    = (∑ k : Fin 128, x' (ix2 r' k) * w (ix2 q k)) + b (ix2 (0 : Fin 1) q)
  exact congrArg (· + b (ix2 (0 : Fin 1) q)) (Finset.sum_congr rfl fun k _ => by rw [hx k])

/-- So does an entry of the gated update: row r of the update of (a, h) is the same as row r' of the update of
    (a', h') once row r of a is row r' of a' and row r of h is row r' of h'. -/
theorem gatedRows_row {n n' : Nat} (a h : (⟨2, ![n, 128]⟩ : Shape).Idx → EReal) (a' h' : (⟨2, ![n', 128]⟩ : Shape).Idx → EReal)
    (wi wh : (⟨2, ![384, 128]⟩ : Shape).Idx → EReal) (bi bh : (⟨2, ![1, 384]⟩ : Shape).Idx → EReal)
    (r : Fin n) (r' : Fin n') (q : Fin 128)
    (ha : ∀ k : Fin 128, a (ix2 r k) = a' (ix2 r' k)) (hh : ∀ k : Fin 128, h (ix2 r k) = h' (ix2 r' k)) :
    Cert.GraphSpec.gatedRows a h wi wh bi bh (ix2 r q) = Cert.GraphSpec.gatedRows a' h' wi wh bi bh (ix2 r' q) := by
  have ea : ∀ q' : Fin 384, Cert.GraphSpec.affineRows a wi bi (ix2 r q') = Cert.GraphSpec.affineRows a' wi bi (ix2 r' q') :=
    fun q' => affineRows_row a a' wi bi r r' q' ha
  have eh : ∀ q' : Fin 384, Cert.GraphSpec.affineRows h wh bh (ix2 r q') = Cert.GraphSpec.affineRows h' wh bh (ix2 r' q') :=
    fun q' => affineRows_row h h' wh bh r r' q' hh
  show Cert.GraphSpec.gateCell
      (Cert.GraphSpec.affineRows a wi bi (ix2 r ⟨q.val, _⟩)) (Cert.GraphSpec.affineRows h wh bh (ix2 r ⟨q.val, _⟩))
      (Cert.GraphSpec.affineRows a wi bi (ix2 r ⟨128 + q.val, _⟩)) (Cert.GraphSpec.affineRows h wh bh (ix2 r ⟨128 + q.val, _⟩))
      (Cert.GraphSpec.affineRows a wi bi (ix2 r ⟨256 + q.val, _⟩)) (Cert.GraphSpec.affineRows h wh bh (ix2 r ⟨256 + q.val, _⟩))
      (h (ix2 r q))
    = Cert.GraphSpec.gateCell
      (Cert.GraphSpec.affineRows a' wi bi (ix2 r' ⟨q.val, _⟩)) (Cert.GraphSpec.affineRows h' wh bh (ix2 r' ⟨q.val, _⟩))
      (Cert.GraphSpec.affineRows a' wi bi (ix2 r' ⟨128 + q.val, _⟩)) (Cert.GraphSpec.affineRows h' wh bh (ix2 r' ⟨128 + q.val, _⟩))
      (Cert.GraphSpec.affineRows a' wi bi (ix2 r' ⟨256 + q.val, _⟩)) (Cert.GraphSpec.affineRows h' wh bh (ix2 r' ⟨256 + q.val, _⟩))
      (h' (ix2 r' q))
  rw [ea, ea, ea, eh, eh, eh, hh q]

/-! ## From the blocks to the array -/

theorem hz : (![0, 0] : Fin 2 → Nat) = fun _ => 0 := funext fun a => by fin_cases a <;> rfl

/-- The index maps over the 50 points: the aggregate, the state and the result move together, block t at point t,
    all 128 columns; the weights and the biases are whole at every point. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- The gated update of a block of rows is that block of the gated update of the arrays: stated over variables,
    with the block's place in the arrays as hypotheses (the result's entry j is the arrays' entry i; row j 0 of
    the two row blocks is row i 0 of the two arrays; the weights and biases are the arrays'). -/
theorem gatedRows_block {n n' : Nat} (a h : (⟨2, ![n, 128]⟩ : Shape).Idx → EReal) (A H : (⟨2, ![n', 128]⟩ : Shape).Idx → EReal)
    (wi wh wi' wh' : (⟨2, ![384, 128]⟩ : Shape).Idx → EReal) (bi bh bi' bh' : (⟨2, ![1, 384]⟩ : Shape).Idx → EReal)
    (j : (⟨2, ![n, 128]⟩ : Shape).Idx) (i : (⟨2, ![n', 128]⟩ : Shape).Idx)
    (hc : (j 1).val = (i 1).val)
    (ha : ∀ k : Fin 128, a (ix2 (j 0) k) = A (ix2 (i 0) k)) (hh : ∀ k : Fin 128, h (ix2 (j 0) k) = H (ix2 (i 0) k))
    (hwi : ∀ y, wi' y = wi y) (hwh : ∀ y, wh' y = wh y) (hbi : ∀ y, bi' y = bi y) (hbh : ∀ y, bh' y = bh y) :
    Cert.GraphSpec.gatedRows a h wi' wh' bi' bh' j = Cert.GraphSpec.gatedRows A H wi wh bi bh i := by
  obtain rfl : wi' = wi := funext hwi
  obtain rfl : wh' = wh := funext hwh
  obtain rfl : bi' = bi := funext hbi
  obtain rfl : bh' = bh := funext hbh
  have ei : ix2 (i 0) (j 1) = i := (congrArg (ix2 (i 0)) (Fin.ext hc)).trans (eq_ix2 i).symm
  exact (congrArg (Cert.GraphSpec.gatedRows a h wi' wh' bi' bh') (eq_ix2 j)).trans
    ((gatedRows_row a h A H wi' wh' bi' bh' (j 0) (i 0) (j 1) ha hh).trans
      (congrArg (Cert.GraphSpec.gatedRows A H wi' wh' bi' bh') ei))

section Region
variable (V : (c : Dev nD) → (b : Ref sig .tc) → Buf (Elt Ideal) ((c : Thread nD τ).loc b)) (c : Dev nD)

/-- The aggregate's block at point t is rows 2000 t … 2000 t + 1999 of its array. -/
theorem aggBlock_apply (t : Fin cfg4.N) (y : S2000x128.Idx) (i : S100000x128.Idx)
    (h0 : (i 0).val = t.val * 2000 + (y 0).val) (h1 : (i 1).val = (y 1).val) :
    (iblk4 V c 0 t : Vec Ideal S2000x128 .f32) y = (V c (Pipeline.arrRef spec4 0) : S100000x128.Idx → Elt Ideal .f32) i := by
  obtain ⟨e00, e01, e10, e11, -⟩ := idx_facts t
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 2000 + 1 * (y 0).val = (i 0).val; omega
  | ⟨1, _⟩ => show win4_0.index t (1 : Fin 2) * 128 + 1 * (y 1).val = (i 1).val; omega

/-- The state's block at point t is rows 2000 t … 2000 t + 1999 of its array. -/
theorem stateBlock_apply (t : Fin cfg4.N) (y : S2000x128.Idx) (i : S100000x128.Idx)
    (h0 : (i 0).val = t.val * 2000 + (y 0).val) (h1 : (i 1).val = (y 1).val) :
    (iblk4 V c 1 t : Vec Ideal S2000x128 .f32) y = (V c (Pipeline.arrRef spec4 1) : S100000x128.Idx → Elt Ideal .f32) i := by
  obtain ⟨e00, e01, e10, e11, -⟩ := idx_facts t
  unfold iblk4
  rw [View.read_apply]
  show V c (Pipeline.arrRef spec4 1) _ = V c (Pipeline.arrRef spec4 1) _
  congr 1
  funext a
  apply Fin.ext
  match a with
  | ⟨0, _⟩ => show win4_1.index t (0 : Fin 2) * 2000 + 1 * (y 0).val = (i 0).val; omega
  | ⟨1, _⟩ => show win4_1.index t (1 : Fin 2) * 128 + 1 * (y 1).val = (i 1).val; omega

/-- The aggregate's weights are staged whole at every point. -/
theorem wiBlock_apply (t : Fin cfg4.N) (y : S384x128.Idx) :
    (iblk4 V c 2 t : Vec Ideal S384x128 .f32) y = (V c (Pipeline.arrRef spec4 2) : S384x128.Idx → Elt Ideal .f32) y := by
  obtain ⟨-, -, -, -, e20, e21, e30, e31, e40, e41, e50, e51, -⟩ := idx_facts t
  unfold iblk4
  rw [View.read_apply]
  show V c (Pipeline.arrRef spec4 2) _ = V c (Pipeline.arrRef spec4 2) _
  congr 1
  funext a
  apply Fin.ext
  match a with
  | ⟨0, _⟩ => show win4_2.index t (0 : Fin 2) * 384 + 1 * (y 0).val = (y 0).val; omega
  | ⟨1, _⟩ => show win4_2.index t (1 : Fin 2) * 128 + 1 * (y 1).val = (y 1).val; omega

/-- The state's weights are staged whole at every point. -/
theorem whBlock_apply (t : Fin cfg4.N) (y : S384x128.Idx) :
    (iblk4 V c 3 t : Vec Ideal S384x128 .f32) y = (V c (Pipeline.arrRef spec4 3) : S384x128.Idx → Elt Ideal .f32) y := by
  obtain ⟨-, -, -, -, e20, e21, e30, e31, e40, e41, e50, e51, -⟩ := idx_facts t
  unfold iblk4
  rw [View.read_apply]
  show V c (Pipeline.arrRef spec4 3) _ = V c (Pipeline.arrRef spec4 3) _
  congr 1
  funext a
  apply Fin.ext
  match a with
  | ⟨0, _⟩ => show win4_3.index t (0 : Fin 2) * 384 + 1 * (y 0).val = (y 0).val; omega
  | ⟨1, _⟩ => show win4_3.index t (1 : Fin 2) * 128 + 1 * (y 1).val = (y 1).val; omega

/-- The aggregate's bias is staged whole at every point. -/
theorem biBlock_apply (t : Fin cfg4.N) (y : S1x384.Idx) :
    (iblk4 V c 4 t : Vec Ideal S1x384 .f32) y = (V c (Pipeline.arrRef spec4 4) : S1x384.Idx → Elt Ideal .f32) y := by
  obtain ⟨-, -, -, -, e20, e21, e30, e31, e40, e41, e50, e51, -⟩ := idx_facts t
  unfold iblk4
  rw [View.read_apply]
  show V c (Pipeline.arrRef spec4 4) _ = V c (Pipeline.arrRef spec4 4) _
  congr 1
  funext a
  apply Fin.ext
  match a with
  | ⟨0, _⟩ => show win4_4.index t (0 : Fin 2) * 1 + 1 * (y 0).val = (y 0).val; omega
  | ⟨1, _⟩ => show win4_4.index t (1 : Fin 2) * 384 + 1 * (y 1).val = (y 1).val; omega

/-- The state's bias is staged whole at every point. -/
theorem bhBlock_apply (t : Fin cfg4.N) (y : S1x384.Idx) :
    (iblk4 V c 5 t : Vec Ideal S1x384 .f32) y = (V c (Pipeline.arrRef spec4 5) : S1x384.Idx → Elt Ideal .f32) y := by
  obtain ⟨-, -, -, -, e20, e21, e30, e31, e40, e41, e50, e51, -⟩ := idx_facts t
  unfold iblk4
  rw [View.read_apply]
  show V c (Pipeline.arrRef spec4 5) _ = V c (Pipeline.arrRef spec4 5) _
  congr 1
  funext a
  apply Fin.ext
  match a with
  | ⟨0, _⟩ => show win4_5.index t (0 : Fin 2) * 1 + 1 * (y 0).val = (y 0).val; omega
  | ⟨1, _⟩ => show win4_5.index t (1 : Fin 2) * 384 + 1 * (y 1).val = (y 1).val; omega

/-- An entry of the result's block at point t sits in the array at row 2000 t + its row, same column. -/
theorem resultBlock_emb (t : Fin cfg4.N) (j : S2000x128.Idx) :
    ((((cfg4.win 6).blk t).view.emb j : S100000x128.Idx) 0).val = t.val * 2000 + (j 0).val
    ∧ ((((cfg4.win 6).blk t).view.emb j : S100000x128.Idx) 1).val = (j 1).val := by
  obtain ⟨-, -, -, -, -, -, -, -, -, -, -, -, e60, e61⟩ := idx_facts t
  constructor
  · show win4_6.index t (0 : Fin 2) * 2000 + 1 * (j 0).val = t.val * 2000 + (j 0).val; omega
  · show win4_6.index t (1 : Fin 2) * 128 + 1 * (j 1).val = (j 1).val; omega

/-- What point t leaves in the result's staging buffer: the gated update of the staged blocks. -/
theorem after_eq (t : Fin cfg4.N) :
    (dat4 (F := Ideal) V c).after 6 t = Cert.GraphSpec.gatedRows (n := 2000)
      (iblk4 V c 0 t : Vec Ideal S2000x128 .f32) (iblk4 V c 1 t : Vec Ideal S2000x128 .f32)
      (iblk4 V c 2 t : Vec Ideal S384x128 .f32) (iblk4 V c 3 t : Vec Ideal S384x128 .f32)
      (iblk4 V c 4 t : Vec Ideal S1x384 .f32) (iblk4 V c 5 t : Vec Ideal S1x384 .f32) := by
  rw [after4_6]
  unfold out4_6
  rw [View.canon_unit_zero hz]
  simp only [View.ld_unit_zero (S := S2000x128) hz, View.ld_unit_zero (S := S384x128) hz, View.ld_unit_zero (S := S1x384) hz]
  rw [pay_eq]

/-- What point t writes back is block t of the gated update of the arrays the region finds. -/
theorem flushed_eq (t : Fin cfg4.N) :
    (dat4 (F := Ideal) V c).flushed 6 t = ((cfg4.win 6).blk t).view.read (Elt Ideal)
      (Cert.GraphSpec.gatedRows (n := 100000) (V c (Pipeline.arrRef spec4 0)) (V c (Pipeline.arrRef spec4 1))
        (V c (Pipeline.arrRef spec4 2)) (V c (Pipeline.arrRef spec4 3)) (V c (Pipeline.arrRef spec4 4)) (V c (Pipeline.arrRef spec4 5))) := by
  show (cfg4.win 6).cut (grid4.coords t) ((dat4 V c).after 6 t) = _
  rw [after_eq]
  funext j
  obtain ⟨r0, r1⟩ := resultBlock_emb t j
  show Cert.GraphSpec.gatedRows (n := 2000) (iblk4 V c 0 t) (iblk4 V c 1 t) (iblk4 V c 2 t) (iblk4 V c 3 t) (iblk4 V c 4 t) (iblk4 V c 5 t) j
    = Cert.GraphSpec.gatedRows (n := 100000) (V c (Pipeline.arrRef spec4 0)) (V c (Pipeline.arrRef spec4 1))
        (V c (Pipeline.arrRef spec4 2)) (V c (Pipeline.arrRef spec4 3)) (V c (Pipeline.arrRef spec4 4)) (V c (Pipeline.arrRef spec4 5))
        (((cfg4.win 6).blk t).view.emb j)
  exact gatedRows_block _ _ _ _ _ _ _ _ _ _ _ _ j _ r1.symm
    (fun k => aggBlock_apply V c t (ix2 (j 0) k) (ix2 ((((cfg4.win 6).blk t).view.emb j : S100000x128.Idx) 0) k) r0 rfl)
    (fun k => stateBlock_apply V c t (ix2 (j 0) k) (ix2 ((((cfg4.win 6).blk t).view.emb j : S100000x128.Idx) 0) k) r0 rfl)
    (wiBlock_apply V c t) (whBlock_apply V c t) (biBlock_apply V c t) (bhBlock_apply V c t)

/-- An index of the result array is in point t's block iff each coordinate is in the block's range on its axis. -/
theorem mem_blk (t : Fin cfg4.N) (i : S100000x128.Idx) :
    i ∈ ((cfg4.win 6).blk t).view.set ↔ ∀ a : Fin 2, win4_6.index t a * S2000x128.size a ≤ (i a).val
      ∧ (i a).val < win4_6.index t a * S2000x128.size a + S2000x128.size a := by
  show i ∈ ((View.whole main_v69).slice (win4_6.rect t)).set ↔ _
  rw [View.set_slice_whole, Rect.mem_set_unit]
  exact Iff.rfl

/-- The 50 blocks of 2000 rows cover the 100000 rows: row r is in the block of point r / 2000. -/
theorem covered (i : S100000x128.Idx) :
    ∃ t : Fin cfg4.N, (cfg4.win 6).flush t = true ∧ i ∈ ((cfg4.win 6).blk t).view.set := by
  have hi0 : (i 0).val < 100000 := (i 0).isLt
  have hi1 : (i 1).val < 128 := (i 1).isLt
  have hN : grid4.N = 50 := N_4
  have ht : (i 0).val / 2000 < cfg4.N := by show (i 0).val / 2000 < grid4.N; omega
  obtain ⟨-, -, -, -, -, -, -, -, -, -, -, -, e60, e61⟩ := idx_facts ⟨(i 0).val / 2000, ht⟩
  have e60' : win4_6.index ⟨(i 0).val / 2000, ht⟩ (0 : Fin 2) = (i 0).val / 2000 := e60
  refine ⟨⟨(i 0).val / 2000, ht⟩, flush4_6 _, ?_⟩
  rw [mem_blk]
  intro a
  match a with
  | ⟨0, _⟩ =>
    show win4_6.index ⟨(i 0).val / 2000, ht⟩ (0 : Fin 2) * 2000 ≤ (i 0).val
      ∧ (i 0).val < win4_6.index ⟨(i 0).val / 2000, ht⟩ (0 : Fin 2) * 2000 + 2000
    omega
  | ⟨1, _⟩ =>
    show win4_6.index ⟨(i 0).val / 2000, ht⟩ (1 : Fin 2) * 128 ≤ (i 1).val
      ∧ (i 1).val < win4_6.index ⟨(i 0).val / 2000, ht⟩ (1 : Fin 2) * 128 + 128
    omega

/-- The result array after the region: the gated update of the state by the aggregate, with the weights and biases
    the region finds. -/
theorem array :
    (dat4 (F := Ideal) V c).arrAt 6 cfg4.N
      = Cert.GraphSpec.gatedRows (V c (Pipeline.arrRef spec4 0)) (V c (Pipeline.arrRef spec4 1))
          (V c (Pipeline.arrRef spec4 2)) (V c (Pipeline.arrRef spec4 3)) (V c (Pipeline.arrRef spec4 4)) (V c (Pipeline.arrRef spec4 5)) :=
  (dat4 (F := Ideal) V c).arrAt_eq_of_cover 6 _ (fun t _ => flushed_eq V c t) covered

end Region

end Cert.KernelIdeal.GateArray4

end
-- ==== Proof.KernelValue.lean ====
/-
  What the idealized kernel program computes: the network of the specification.

  Region by region along the chain of boundary contents: each region's output array is the specification's function
  of the arrays the region finds; those are the previous results, carried, and the prepared arguments. Composed, the
  result buffer's last contents are the network of the thirteen arguments, with the program's own summation of the
  edges' rows as the aggregation.
-/
import proofs.«144449_j22325240004851_1_alg».proof.Proof.Aggregated
import proofs.«144449_j22325240004851_1_alg».proof.Proof.AffineArray0
import proofs.«144449_j22325240004851_1_alg».proof.Proof.AffineArray5
import proofs.«144449_j22325240004851_1_alg».proof.Proof.MessageArray1
import proofs.«144449_j22325240004851_1_alg».proof.Proof.MessageArray3
import proofs.«144449_j22325240004851_1_alg».proof.Proof.GateArray2
import proofs.«144449_j22325240004851_1_alg».proof.Proof.GateArray4

set_option maxRecDepth 16384

noncomputable section

namespace Cert.KernelIdeal.Net

open Idealize.ShloMosaic Idealize.ShloMosaic.TcCoe Idealize.ShloMosaic.Tactic Idealize.ShloMosaic.StableHlo
open Idealize.ShloMosaic.ValueIdx
open Idealize.SL Idealize.SL.Sem
open Cert.KernelIdeal Cert.KernelIdeal.Gen Cert.GraphSpec

variable (m : (ℓ : Loc nD τ sig) → Buf (Elt Ideal) ℓ) (ρ : Dev nD → PrngReg) (c : Dev nD)

/-- The state after the input map. -/
theorem state0 : (W2 m ρ c (Proc.devRef .tc main_v5) : S100000x128.Idx → EReal)
    = affineReluRows (m ((c : Thread nD τ).loc main_arg0)) (m ((c : Thread nD τ).loc main_arg3)) (asRow (m ((c : Thread nD τ).loc main_arg4))) := by
  refine (W2_arr m ρ c 3).trans ((AffineArray0.array (V1 m ρ) c).trans ?_)
  show affineReluRows (W1 m ρ c (Proc.devRef .tc main_arg0)) (W1 m ρ c (Proc.devRef .tc main_arg3)) (W1 m ρ c (Proc.devRef .tc main_v4)) = _
  rw [Boundary.at1_arg0, Boundary.at1_arg3, Prepared.at1_v4]

/-- The first round's typed messages. -/
theorem messages0 : (W4 m ρ c (Proc.devRef .tc main_v8) : S100000x1024.Idx → EReal)
    = typedRows (W2 m ρ c (Proc.devRef .tc main_v5)) (roundMaps (m ((c : Thread nD τ).loc main_arg5)) 0) := by
  refine (W4_arr m ρ c 2).trans ((MessageArray1.array (V3 m ρ) c).trans ?_)
  show typedRows (W3 m ρ c (Proc.devRef .tc main_v5)) (W3 m ρ c (Proc.devRef .tc main_v7)) = _
  rw [Boundary.at3_v5, Prepared.at3_v7]

/-- The state after the first gated update. -/
theorem state1 : (W6 m ρ c (Proc.devRef .tc main_v37) : S100000x128.Idx → EReal)
    = gatedRows (W5 m ρ c (Proc.devRef .tc main_v26)) (W2 m ρ c (Proc.devRef .tc main_v5))
        (roundWeights (m ((c : Thread nD τ).loc main_arg7)) 0) (roundWeights (m ((c : Thread nD τ).loc main_arg8)) 0)
        (roundBias (m ((c : Thread nD τ).loc main_arg9)) 0) (roundBias (m ((c : Thread nD τ).loc main_arg10)) 0) := by
  refine (W6_arr m ρ c 6).trans ((GateArray2.array (V5 m ρ) c).trans ?_)
  show gatedRows (W5 m ρ c (Proc.devRef .tc main_v26)) (W5 m ρ c (Proc.devRef .tc main_v5)) (W5 m ρ c (Proc.devRef .tc main_v28)) (W5 m ρ c (Proc.devRef .tc main_v30)) (W5 m ρ c (Proc.devRef .tc main_v35)) (W5 m ρ c (Proc.devRef .tc main_v36)) = _
  rw [Boundary.at5_v5, Prepared.at5_v28, Prepared.at5_v30, Prepared.at5_v35, Prepared.at5_v36]

/-- The second round's typed messages. -/
theorem messages1 : (W8 m ρ c (Proc.devRef .tc main_v40) : S100000x1024.Idx → EReal)
    = typedRows (W6 m ρ c (Proc.devRef .tc main_v37)) (roundMaps (m ((c : Thread nD τ).loc main_arg5)) 1) := by
  refine (W8_arr m ρ c 2).trans ((MessageArray3.array (V7 m ρ) c).trans ?_)
  show typedRows (W7 m ρ c (Proc.devRef .tc main_v37)) (W7 m ρ c (Proc.devRef .tc main_v39)) = _
  rw [BoundaryLate.at7_v37, Prepared.at7_v39]

/-- The state after the second gated update. -/
theorem state2 : (W10 m ρ c (Proc.devRef .tc main_v69) : S100000x128.Idx → EReal)
    = gatedRows (W9 m ρ c (Proc.devRef .tc main_v58)) (W6 m ρ c (Proc.devRef .tc main_v37))
        (roundWeights (m ((c : Thread nD τ).loc main_arg7)) 1) (roundWeights (m ((c : Thread nD τ).loc main_arg8)) 1)
        (roundBias (m ((c : Thread nD τ).loc main_arg9)) 1) (roundBias (m ((c : Thread nD τ).loc main_arg10)) 1) := by
  refine (W10_arr m ρ c 6).trans ((GateArray4.array (V9 m ρ) c).trans ?_)
  show gatedRows (W9 m ρ c (Proc.devRef .tc main_v58)) (W9 m ρ c (Proc.devRef .tc main_v37)) (W9 m ρ c (Proc.devRef .tc main_v60)) (W9 m ρ c (Proc.devRef .tc main_v62)) (W9 m ρ c (Proc.devRef .tc main_v67)) (W9 m ρ c (Proc.devRef .tc main_v68)) = _
  rw [BoundaryLate.at9_v37, Prepared.at9_v60, Prepared.at9_v62, Prepared.at9_v67, Prepared.at9_v68]

/-- The result: the output map of the last state. -/
theorem result : (W12 m ρ c (Proc.devRef .tc main_v71) : S100000x128.Idx → EReal)
    = affineRows (W10 m ρ c (Proc.devRef .tc main_v69)) (m ((c : Thread nD τ).loc main_arg11)) (asRow (m ((c : Thread nD τ).loc main_arg12))) := by
  refine (W12_arr m ρ c 3).trans ((AffineArray5.array (V11 m ρ) c).trans ?_)
  show affineRows (W11 m ρ c (Proc.devRef .tc main_v69)) (W11 m ρ c (Proc.devRef .tc main_arg11)) (W11 m ρ c (Proc.devRef .tc main_v70)) = _
  rw [BoundaryLate.at11_v69, BoundaryLate.at11_arg11, Prepared.at11_v70]

/-- The result buffer's last contents are the network of the arguments. -/
theorem value : (W12 m ρ c (Proc.devRef .tc main_v71) : S100000x128.Idx → EReal)
    = networkOfArgs (aggregate (edgeEnds (m ((c : Thread nD τ).loc main_arg1)) 1))
        (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg7)) (m ((c : Thread nD τ).loc main_arg8)) (m ((c : Thread nD τ).loc main_arg9)) (m ((c : Thread nD τ).loc main_arg10))
        (m ((c : Thread nD τ).loc main_arg11)) (m ((c : Thread nD τ).loc main_arg12)) := by
  rw [result, state2, at9_v58, messages1, state1, at5_v26, messages0, state0]
  rfl

end Cert.KernelIdeal.Net

end
-- ==== Proof.RefAggregate.lean ====
/-
  The aggregation of edge rows into node rows, as the reference program performs it.

  Every edge e carries a row u[e, ·] of 128 numbers and names a destination node dst[e].  The aggregate of a
  node n is the sum of the rows of the edges whose destination is n, started from a zero row:
      a[n, q] = 0 + (sum over the edges e with dst[e] = n of u[e, q]).
  The reference program writes this as one scatter-with-addition into a zero-filled 100000 x 128 array, the
  destination numbers presented as a 600000 x 1 column.  The definition below is that expression, a function of
  the destination list and of the rows only, so that both rounds of the network (and both programs) can name the
  same summation.
-/
import proofs.«144449_j22325240004851_1_alg».proof.ReferenceIdeal
import proofs.«144449_j22325240004851_1_alg».proof.Proof.Gen.ReferenceIdeal
import proofs.«144449_j22325240004851_1_alg».proof.Proof.GraphSpec

noncomputable section

namespace Cert.ReferenceNet

open Cert.ReferenceIdeal Cert.ReferenceIdeal.Gen Idealize.ShloMosaic Idealize.ShloMosaic.TcCoe Idealize.SL.Sem
  Idealize.ShloMosaic.StableHlo

/-- The rows `u` of the 600000 edges summed into the 100000 nodes named by `dst`, on top of a zero array. -/
def aggregate (dst : Cert.ReferenceIdeal.S600000.Idx → BitVec 32)
    (u : Cert.ReferenceIdeal.S600000x128.Idx → EReal) : Cert.ReferenceIdeal.S100000x128.Idx → EReal :=
  Host.scatterAdd (F := Ideal) Cert.ReferenceIdeal.scatter_S100000x128_S600000x1_S600000x128_1_0_0_1
    (broadcastInDim S100000x128 ![] bcast_S_S100000x128 (constant (F := Ideal) S_ .f32 0x00000000#32))
    (broadcastInDim S600000x1 ![0] bcast_S600000_S600000x1_0 dst) u

end Cert.ReferenceNet

end
-- ==== Proof.RefMessages.lean ====
/-
  The typed messages of the reference program.

  Round l of the network owns eight 128 x 128 maps W[l, e, ·, ·], one per edge type e.  The reference cuts the
  round's maps out of the stacked array (a slice of one layer, then a reshape that drops the axis of extent one),
  contracts them against the node states h and exchanges the last two axes of the result, so that the entry
  (e, n, q) of what the edges later pick from is
      sum over k of W[l, e, q, k] * h[n, k].
  The specification lays the same numbers out with the edge type folded into the column: column 128 * e + q of
  row n.  Dividing 128 * e + q by 128 gives back e and q (q < 128), and the product commutes, so the two agree.
-/
import proofs.«144449_j22325240004851_1_alg».proof.Proof.Gen.ReferenceIdeal.Read
import proofs.«144449_j22325240004851_1_alg».proof.Proof.GraphSpec

noncomputable section

namespace Cert.ReferenceNet

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The folded column `128 * e + q` stays below 1024. -/
theorem folded_lt (e : Fin 8) (q : Fin 128) : e.val * 128 + q.val < 1024 := by
  have := e.isLt; have := q.isLt; omega

/-- One entry of the typed messages: the contraction of map `(e, q, ·)` against row `n` of the state is the
    specification's entry at row `n`, column `128 * e + q`. -/
theorem typed_sum (h : (⟨2, ![100000, 128]⟩ : Shape).Idx → EReal) (W : (⟨3, ![8, 128, 128]⟩ : Shape).Idx → EReal)
    (e : Fin 8) (n : Fin 100000) (q : Fin 128) :
    (∑ k : Fin 128, W (ix3 e q k) * h (ix2 n k))
      = Cert.GraphSpec.typedRows h W (ix2 n ⟨e.val * 128 + q.val, folded_lt e q⟩) := by
  have he : (e.val * 128 + q.val) / 128 = e.val := by have := q.isLt; omega
  have hq : (e.val * 128 + q.val) % 128 = q.val := by have := q.isLt; omega
  unfold Cert.GraphSpec.typedRows
  refine Finset.sum_congr rfl fun k _ => ?_
  rw [mul_comm]
  refine congrArg (fun t => h (ix2 n k) * W t) ?_
  funext a
  match a with
  | ⟨0, _⟩ => exact Fin.ext he.symm
  | ⟨1, _⟩ => exact Fin.ext hq.symm
  | ⟨2, _⟩ => rfl

/-- The first round's maps as the reference cuts them out of the stacked array. -/
theorem round_maps_first (x5 : (⟨S2x8x128x128, .f32⟩ : BufTy).Contents (Elt Ideal)) :
    val_main_v11 (F := Ideal) x5 = Cert.GraphSpec.roundMaps x5 0 := by
  funext j
  obtain ⟨e, q, k, rfl⟩ : ∃ (e : Fin 8) (q : Fin 128) (k : Fin 128), j = ix3 e q k := ⟨j 0, j 1, j 2, eq_ix3 j⟩
  rw [val_main_v11_apply, val_main_v10_apply]
  refine congrArg x5 (funext fun a => Fin.ext ?_)
  have := e.isLt; have := q.isLt; have := k.isLt
  match a with
  | ⟨0, _⟩ => rfl
  | ⟨1, _⟩ => show ((e.val * 128 + q.val) * 128 + k.val) / 16384 % 8 = e.val; omega
  | ⟨2, _⟩ => show ((e.val * 128 + q.val) * 128 + k.val) / 128 % 128 = q.val; omega
  | ⟨3, _⟩ => show ((e.val * 128 + q.val) * 128 + k.val) % 128 = k.val; omega

/-- The second round's maps as the reference cuts them out of the stacked array. -/
theorem round_maps_second (x5 : (⟨S2x8x128x128, .f32⟩ : BufTy).Contents (Elt Ideal)) :
    val_main_v79 (F := Ideal) x5 = Cert.GraphSpec.roundMaps x5 1 := by
  funext j
  obtain ⟨e, q, k, rfl⟩ : ∃ (e : Fin 8) (q : Fin 128) (k : Fin 128), j = ix3 e q k := ⟨j 0, j 1, j 2, eq_ix3 j⟩
  rw [val_main_v79_apply, val_main_v78_apply]
  refine congrArg x5 (funext fun a => Fin.ext ?_)
  have := e.isLt; have := q.isLt; have := k.isLt
  match a with
  | ⟨0, _⟩ => rfl
  | ⟨1, _⟩ => show ((e.val * 128 + q.val) * 128 + k.val) / 16384 % 8 = e.val; omega
  | ⟨2, _⟩ => show ((e.val * 128 + q.val) * 128 + k.val) / 128 % 128 = q.val; omega
  | ⟨3, _⟩ => show ((e.val * 128 + q.val) * 128 + k.val) % 128 = k.val; omega

/-- The map entry the first round's contraction reads for the entry `(e, n, q)`: `(e, q, k)`. -/
theorem messages_lhs_index (e : Fin 8) (n : Fin 100000) (q : Fin 128) (k : Fin 128) :
    lidx_main_v12 (idx_main_v13 (ix3 e n q)) k = ix3 e q k :=
  funext fun a => Fin.ext (by match a with | ⟨0, _⟩ => rfl | ⟨1, _⟩ => rfl | ⟨2, _⟩ => rfl)

/-- The state entry the first round's contraction reads for the entry `(e, n, q)`: `(n, k)`. -/
theorem messages_rhs_index (e : Fin 8) (n : Fin 100000) (q : Fin 128) (k : Fin 128) :
    ridx_main_v12 (idx_main_v13 (ix3 e n q)) k = ix2 n k :=
  funext fun a => Fin.ext (by match a with | ⟨0, _⟩ => rfl | ⟨1, _⟩ => rfl)

/-- The map entry the second round's contraction reads for the entry `(e, n, q)`: `(e, q, k)`. -/
theorem messages_lhs_index' (e : Fin 8) (n : Fin 100000) (q : Fin 128) (k : Fin 128) :
    lidx_main_v80 (idx_main_v81 (ix3 e n q)) k = ix3 e q k :=
  funext fun a => Fin.ext (by match a with | ⟨0, _⟩ => rfl | ⟨1, _⟩ => rfl | ⟨2, _⟩ => rfl)

/-- The state entry the second round's contraction reads for the entry `(e, n, q)`: `(n, k)`. -/
theorem messages_rhs_index' (e : Fin 8) (n : Fin 100000) (q : Fin 128) (k : Fin 128) :
    ridx_main_v80 (idx_main_v81 (ix3 e n q)) k = ix2 n k :=
  funext fun a => Fin.ext (by match a with | ⟨0, _⟩ => rfl | ⟨1, _⟩ => rfl)

/-- First round: what the edges pick from, at `(e, n, q)`, is the typed messages of the first states at row `n`,
    column `128 * e + q`. -/
theorem typed_messages_first (x0 : (⟨S100000x128, .f32⟩ : BufTy).Contents (Elt Ideal))
    (x3 : (⟨S128x128, .f32⟩ : BufTy).Contents (Elt Ideal)) (x4 : (⟨S128, .f32⟩ : BufTy).Contents (Elt Ideal))
    (x5 : (⟨S2x8x128x128, .f32⟩ : BufTy).Contents (Elt Ideal)) (e : Fin 8) (n : Fin 100000) (q : Fin 128) :
    val_main_v13 (F := Ideal) x0 x3 x4 x5 (ix3 e n q)
      = Cert.GraphSpec.typedRows (val_main_v9 (F := Ideal) x0 x3 x4) (Cert.GraphSpec.roundMaps x5 0)
          (ix2 n ⟨e.val * 128 + q.val, folded_lt e q⟩) := by
  rw [val_main_v13_apply, val_main_v12_apply, round_maps_first, ← typed_sum]
  simp only [messages_lhs_index, messages_rhs_index]

/-- Second round: the same with the states after the first gated update and the second round's maps. -/
theorem typed_messages_second (x0 : (⟨S100000x128, .f32⟩ : BufTy).Contents (Elt Ideal))
    (x1 : (⟨S2x600000, .i32⟩ : BufTy).Contents (Elt Ideal)) (x2 : (⟨S600000, .i32⟩ : BufTy).Contents (Elt Ideal))
    (x3 : (⟨S128x128, .f32⟩ : BufTy).Contents (Elt Ideal)) (x4 : (⟨S128, .f32⟩ : BufTy).Contents (Elt Ideal))
    (x5 : (⟨S2x8x128x128, .f32⟩ : BufTy).Contents (Elt Ideal))
    (x7 x8 : (⟨S2x384x128, .f32⟩ : BufTy).Contents (Elt Ideal)) (x9 x10 : (⟨S2x384, .f32⟩ : BufTy).Contents (Elt Ideal))
    (e : Fin 8) (n : Fin 100000) (q : Fin 128) :
    val_main_v81 (F := Ideal) x0 x1 x2 x3 x4 x5 x7 x8 x9 x10 (ix3 e n q)
      = Cert.GraphSpec.typedRows (val_main_v77 (F := Ideal) x0 x1 x2 x3 x4 x5 x7 x8 x9 x10)
          (Cert.GraphSpec.roundMaps x5 1) (ix2 n ⟨e.val * 128 + q.val, folded_lt e q⟩) := by
  rw [val_main_v81_apply, val_main_v80_apply, round_maps_second, ← typed_sum]
  simp only [messages_lhs_index', messages_rhs_index']

end Cert.ReferenceNet

end
-- ==== Proof.RefEdgeRows.lean ====
/-
  The rows the edges carry, and their aggregation, in the reference program.

  For every edge the reference joins its (wrapped) type number and its (wrapped) source number into a pair and
  picks, from the array of typed messages laid out as (type, node, 128 entries), the 128 entries at that pair,
  positions out of range being clamped.  With the typed messages laid out instead with the type folded into the
  column (column 128 * type + entry of row node) this is the specification's row of the edge; the reading of the
  gather itself is a lemma of its own, used here for both rounds.

  The rows are then summed into the destination nodes on top of a zero array: the aggregation, the same
  expression in both rounds.
-/
import proofs.«144449_j22325240004851_1_alg».proof.Proof.Gen.ReferenceIdeal.Read
import proofs.«144449_j22325240004851_1_alg».proof.Proof.GraphSpec
import proofs.«144449_j22325240004851_1_alg».proof.Proof.RefAggregate
import proofs.«144449_j22325240004851_1_alg».proof.Proof.RefMessages

noncomputable section

namespace Cert.ReferenceNet

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The reading of the gather: picking at the pair (type, source) from an array `R` laid out as
    (type, node, entry) is the edge's row of the array `T` that holds the same numbers with the type folded into
    the column. -/
def GatherPicksOwnType : Prop :=
  ∀ (R : S8x100000x128.Idx → EReal) (T : (⟨2, ![100000, 1024]⟩ : Shape).Idx → EReal),
    (∀ (e : Fin 8) (n : Fin 100000) (q : Fin 128),
      R (ix3 e n q) = T (ix2 n ⟨e.val * 128 + q.val, folded_lt e q⟩)) →
    ∀ (src ty : S600000.Idx → BitVec 32)
      (hb : S600000.BroadcastsInDim S600000x1 (![0] : Fin 1 → Fin S600000x1.rank))
      (hcat : Shape.Concatenates [S600000x1, S600000x1] S600000x2 1),
      Host.gather gather_S8x100000x128_S600000x2_S600000x128_1_01_n_n_01_1_11128 R
          (concatenate S600000x2 1
            [⟨S600000x1, broadcastInDim S600000x1 ![0] hb ty⟩, ⟨S600000x1, broadcastInDim S600000x1 ![0] hb src⟩] hcat)
        = Cert.GraphSpec.edgeRows T src ty

variable (x0 : (⟨S100000x128, .f32⟩ : BufTy).Contents (Elt Ideal))
  (x1 : (⟨S2x600000, .i32⟩ : BufTy).Contents (Elt Ideal)) (x2 : (⟨S600000, .i32⟩ : BufTy).Contents (Elt Ideal))
  (x3 : (⟨S128x128, .f32⟩ : BufTy).Contents (Elt Ideal)) (x4 : (⟨S128, .f32⟩ : BufTy).Contents (Elt Ideal))
  (x5 : (⟨S2x8x128x128, .f32⟩ : BufTy).Contents (Elt Ideal))
  (x7 x8 : (⟨S2x384x128, .f32⟩ : BufTy).Contents (Elt Ideal)) (x9 x10 : (⟨S2x384, .f32⟩ : BufTy).Contents (Elt Ideal))

/-- First round: the rows the edges carry. -/
theorem edge_rows_first (hg : GatherPicksOwnType) :
    val_main_v27 (F := Ideal) x0 x1 x2 x3 x4 x5
      = Cert.GraphSpec.edgeRows
          (Cert.GraphSpec.typedRows (val_main_v9 (F := Ideal) x0 x3 x4) (Cert.GraphSpec.roundMaps x5 0))
          (val_main_v23 (F := Ideal) x1) (val_main_v18 (F := Ideal) x2) := by
  unfold val_main_v27 val_main_v26 val_main_v24 val_main_v25
  exact hg _ _ (typed_messages_first x0 x3 x4 x5) _ _ _ _

/-- Second round: the rows the edges carry. -/
theorem edge_rows_second (hg : GatherPicksOwnType) :
    val_main_v95 (F := Ideal) x0 x1 x2 x3 x4 x5 x7 x8 x9 x10
      = Cert.GraphSpec.edgeRows
          (Cert.GraphSpec.typedRows (val_main_v77 (F := Ideal) x0 x1 x2 x3 x4 x5 x7 x8 x9 x10)
            (Cert.GraphSpec.roundMaps x5 1))
          (val_main_v91 (F := Ideal) x1) (val_main_v86 (F := Ideal) x2) := by
  unfold val_main_v95 val_main_v94 val_main_v92 val_main_v93
  exact hg _ _ (typed_messages_second x0 x1 x2 x3 x4 x5 x7 x8 x9 x10) _ _ _ _

/-- First round: the aggregate is the summation of the edges' rows into their destinations. -/
theorem aggregate_first :
    val_main_v30 (F := Ideal) x0 x1 x2 x3 x4 x5
      = aggregate (val_main_v3 (F := Ideal) x1) (val_main_v27 (F := Ideal) x0 x1 x2 x3 x4 x5) := by
  unfold val_main_v30 val_main_v28 val_main_v29 val_main_cst aggregate
  rfl

/-- Second round: the aggregate is the same summation of the second round's rows. -/
theorem aggregate_second :
    val_main_v98 (F := Ideal) x0 x1 x2 x3 x4 x5 x7 x8 x9 x10
      = aggregate (val_main_v3 (F := Ideal) x1) (val_main_v95 (F := Ideal) x0 x1 x2 x3 x4 x5 x7 x8 x9 x10) := by
  unfold val_main_v98 val_main_v96 val_main_v97 val_main_cst_12 aggregate
  rfl

end Cert.ReferenceNet

end
-- ==== Proof.RefInput.lean ====
/-
  The input map of the reference program.

  The reference transposes the 128 x 128 weight, contracts the node features against it, adds the bias (a vector
  of 128 numbers spread first into one row, then over all 100000 rows) and takes the maximum with a zero array.
  Read at the entry (n, q) this is
      max ((sum over k of x[n, k] * w[q, k]) + b[q], 0),
  the affine map of rows with positive part of the specification: the transposition only exchanges the two
  coordinates at which the weight is read, and the two spreadings read the bias at its column.
-/
import proofs.«144449_j22325240004851_1_alg».proof.Proof.Gen.ReferenceIdeal.Read
import proofs.«144449_j22325240004851_1_alg».proof.Proof.GraphSpec

noncomputable section

namespace Cert.ReferenceNet

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The node features' entry the contraction reads: row `n`, column `k`. -/
theorem input_lhs_index (p : Fin 100000) (q : Fin 128) (k : Fin 128) :
    lidx_main_v5 (ix2 p q) k = ix2 p k :=
  funext fun a => Fin.ext (by match a with | ⟨0, _⟩ => rfl | ⟨1, _⟩ => rfl)

/-- The weight's entry the contraction reads through the transposition: row `q`, column `k`. -/
theorem input_rhs_index (p : Fin 100000) (q : Fin 128) (k : Fin 128) :
    idx_main_v4 (ridx_main_v5 (ix2 p q) k) = ix2 q k :=
  funext fun a => Fin.ext (by match a with | ⟨0, _⟩ => rfl | ⟨1, _⟩ => rfl)

/-- The bias entry the two spreadings read: column `q`. -/
theorem input_bias_index (p : Fin 100000) (q : Fin 128) :
    idx_main_v6 (idx_main_v7 (ix2 p q)) = ix1 q :=
  funext fun a => Fin.ext (by match a with | ⟨0, _⟩ => rfl)

/-- The reference's first node states are the affine map of the features with positive part. -/
theorem input_map (x0 : (⟨S100000x128, .f32⟩ : BufTy).Contents (Elt Ideal))
    (x3 : (⟨S128x128, .f32⟩ : BufTy).Contents (Elt Ideal)) (x4 : (⟨S128, .f32⟩ : BufTy).Contents (Elt Ideal)) :
    val_main_v9 (F := Ideal) x0 x3 x4 = Cert.GraphSpec.affineReluRows x0 x3 (Cert.GraphSpec.asRow x4) := by
  funext i
  obtain ⟨p, q, rfl⟩ : ∃ (p : Fin 100000) (q : Fin 128), i = ix2 p q := ⟨i 0, i 1, eq_ix2 i⟩
  rw [val_main_v9_apply, val_main_v8_apply, val_main_v5_apply, val_main_v7_apply, val_main_v6_apply,
    val_main_call0_v0_apply, val_main_call0_cst_apply]
  simp only [val_main_v4_apply, input_lhs_index, input_rhs_index, input_bias_index, Ideal.maximumf_def,
    Ideal.addf_def, Ideal.ofBits_def]
  rfl

end Cert.ReferenceNet

end
-- ==== Proof.RefEdges.lean ====
/-
  The edge list as the reference program reads it.

  The edge list is a 2 x 600000 array of integers: row 0 holds the source node of every edge, row 1 the
  destination.  The reference cuts each row out (a slice of one row, then a reshape that drops the axis of
  extent one), so the two results are the two rows read entry by entry.

  Before they are used as positions, the source numbers and the edge types are wrapped as array positions are:
  a negative number v counts from the end of the axis and becomes v + size (size = 100000 nodes, 8 types).  The
  reference spells this as a comparison with a zero-filled list, an addition of a list filled with the size, and
  a choice between the two, entry by entry; the filled lists are constant functions.  The same wrapping is
  written out a second time for the second round.
-/
import proofs.«144449_j22325240004851_1_alg».proof.Proof.Gen.ReferenceIdeal.Read
import proofs.«144449_j22325240004851_1_alg».proof.Proof.GraphSpec

noncomputable section

namespace Cert.ReferenceNet

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- Row 0 of the edge list, entry by entry: the sources. -/
theorem edge_sources (x1 : (⟨S2x600000, .i32⟩ : BufTy).Contents (Elt Ideal)) :
    val_main_v1 (F := Ideal) x1 = Cert.GraphSpec.edgeEnds x1 0 := by
  funext i
  obtain ⟨e, rfl⟩ : ∃ e : Fin 600000, i = ix1 e := ⟨i 0, eq_ix1 i⟩
  rw [val_main_v1_apply, val_main_v0_apply]
  refine congrArg x1 (funext fun a => Fin.ext ?_)
  match a with
  | ⟨0, _⟩ => rfl
  | ⟨1, _⟩ => exact Nat.mod_eq_of_lt e.isLt

/-- Row 1 of the edge list, entry by entry: the destinations. -/
theorem edge_destinations (x1 : (⟨S2x600000, .i32⟩ : BufTy).Contents (Elt Ideal)) :
    val_main_v3 (F := Ideal) x1 = Cert.GraphSpec.edgeEnds x1 1 := by
  funext i
  obtain ⟨e, rfl⟩ : ∃ e : Fin 600000, i = ix1 e := ⟨i 0, eq_ix1 i⟩
  rw [val_main_v3_apply, val_main_v2_apply]
  refine congrArg x1 (funext fun a => Fin.ext ?_)
  match a with
  | ⟨0, _⟩ => rfl
  | ⟨1, _⟩ => exact Nat.mod_eq_of_lt e.isLt

/-- The sources wrapped into the node range, first round. -/
theorem wrapped_sources (x1 : (⟨S2x600000, .i32⟩ : BufTy).Contents (Elt Ideal)) :
    val_main_v23 (F := Ideal) x1 = Cert.GraphSpec.wrapNegative 100000#32 (val_main_v1 (F := Ideal) x1) := by
  funext i
  rw [val_main_v23_apply, val_main_v20_apply, val_main_v22_apply, val_main_v19_apply, val_main_c_1_apply,
    val_main_v21_apply, val_main_c_2_apply]
  rfl

/-- The edge types wrapped into the type range, first round. -/
theorem wrapped_types (x2 : (⟨S600000, .i32⟩ : BufTy).Contents (Elt Ideal)) :
    val_main_v18 (F := Ideal) x2 = Cert.GraphSpec.wrapNegative 8#32 x2 := by
  funext i
  rw [val_main_v18_apply, val_main_v15_apply, val_main_v17_apply, val_main_v14_apply, val_main_c_apply,
    val_main_v16_apply, val_main_c_0_apply]
  rfl

/-- The sources wrapped into the node range, second round. -/
theorem wrapped_sources' (x1 : (⟨S2x600000, .i32⟩ : BufTy).Contents (Elt Ideal)) :
    val_main_v91 (F := Ideal) x1 = Cert.GraphSpec.wrapNegative 100000#32 (val_main_v1 (F := Ideal) x1) := by
  funext i
  rw [val_main_v91_apply, val_main_v88_apply, val_main_v90_apply, val_main_v87_apply, val_main_c_10_apply,
    val_main_v89_apply, val_main_c_11_apply]
  rfl

/-- The edge types wrapped into the type range, second round. -/
theorem wrapped_types' (x2 : (⟨S600000, .i32⟩ : BufTy).Contents (Elt Ideal)) :
    val_main_v86 (F := Ideal) x2 = Cert.GraphSpec.wrapNegative 8#32 x2 := by
  funext i
  rw [val_main_v86_apply, val_main_v83_apply, val_main_v85_apply, val_main_v82_apply, val_main_c_8_apply,
    val_main_v84_apply, val_main_c_9_apply]
  rfl

end Cert.ReferenceNet

end
-- ==== Proof.RefOutput.lean ====
/-
  The output map of the reference program.

  The reference transposes the 128 x 128 output weight, contracts the last node states against it and adds the
  output bias (a vector of 128 numbers spread into one row, then over all 100000 rows).  Read at the entry
  (n, q) this is
      (sum over k of h[n, k] * w[q, k]) + b[q],
  the affine map of rows of the specification.
-/
import proofs.«144449_j22325240004851_1_alg».proof.Proof.Gen.ReferenceIdeal.Read
import proofs.«144449_j22325240004851_1_alg».proof.Proof.GraphSpec

noncomputable section

namespace Cert.ReferenceNet

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The state entry the contraction reads: row `n`, column `k`. -/
theorem output_lhs_index (p : Fin 100000) (q : Fin 128) (k : Fin 128) :
    lidx_main_v147 (ix2 p q) k = ix2 p k :=
  funext fun a => Fin.ext (by match a with | ⟨0, _⟩ => rfl | ⟨1, _⟩ => rfl)

/-- The weight's entry the contraction reads through the transposition: row `q`, column `k`. -/
theorem output_rhs_index (p : Fin 100000) (q : Fin 128) (k : Fin 128) :
    idx_main_v146 (ridx_main_v147 (ix2 p q) k) = ix2 q k :=
  funext fun a => Fin.ext (by match a with | ⟨0, _⟩ => rfl | ⟨1, _⟩ => rfl)

/-- The bias entry the two spreadings read: column `q`. -/
theorem output_bias_index (p : Fin 100000) (q : Fin 128) :
    idx_main_v148 (idx_main_v149 (ix2 p q)) = ix1 q :=
  funext fun a => Fin.ext (by match a with | ⟨0, _⟩ => rfl)

/-- The reference's result is the affine map of the last node states. -/
theorem output_map (x0 : (⟨S100000x128, .f32⟩ : BufTy).Contents (Elt Ideal))
    (x1 : (⟨S2x600000, .i32⟩ : BufTy).Contents (Elt Ideal)) (x2 : (⟨S600000, .i32⟩ : BufTy).Contents (Elt Ideal))
    (x3 : (⟨S128x128, .f32⟩ : BufTy).Contents (Elt Ideal)) (x4 : (⟨S128, .f32⟩ : BufTy).Contents (Elt Ideal))
    (x5 : (⟨S2x8x128x128, .f32⟩ : BufTy).Contents (Elt Ideal))
    (x7 x8 : (⟨S2x384x128, .f32⟩ : BufTy).Contents (Elt Ideal)) (x9 x10 : (⟨S2x384, .f32⟩ : BufTy).Contents (Elt Ideal))
    (x11 : (⟨S128x128, .f32⟩ : BufTy).Contents (Elt Ideal)) (x12 : (⟨S128, .f32⟩ : BufTy).Contents (Elt Ideal)) :
    val_main_v150 (F := Ideal) x0 x1 x2 x3 x4 x5 x7 x8 x9 x10 x11 x12
      = Cert.GraphSpec.affineRows (val_main_v145 (F := Ideal) x0 x1 x2 x3 x4 x5 x7 x8 x9 x10) x11
          (Cert.GraphSpec.asRow x12) := by
  funext i
  obtain ⟨p, q, rfl⟩ : ∃ (p : Fin 100000) (q : Fin 128), i = ix2 p q := ⟨i 0, i 1, eq_ix2 i⟩
  rw [val_main_v150_apply, val_main_v147_apply, val_main_v149_apply, val_main_v148_apply]
  generalize val_main_v145 (F := Ideal) x0 x1 x2 x3 x4 x5 x7 x8 x9 x10 = h
  simp only [val_main_v146_apply, output_lhs_index, output_rhs_index, output_bias_index, Ideal.addf_def]
  rfl

end Cert.ReferenceNet

end
-- ==== Proof.RefNetwork.lean ====
/-
  The reference program computes the gated graph network of the specification.

  Layer by layer: the input map with positive part gives the first node states; each of the two rounds forms the
  typed messages of the current states, lets every edge pick its row at its (wrapped) source and type, sums the
  rows into the destination nodes and applies the gated update; the output map is applied to the last states.
  Each layer of the reference has been identified with the specification's function of the previous layers'
  values; here the identifications are chained, innermost last, and what remains is the specification's own
  definition of the network with the reference's summation as the aggregation.
-/
import proofs.«144449_j22325240004851_1_alg».proof.Proof.Gen.ReferenceIdeal.Read
import proofs.«144449_j22325240004851_1_alg».proof.Proof.GraphSpec
import proofs.«144449_j22325240004851_1_alg».proof.Proof.RefAggregate
import proofs.«144449_j22325240004851_1_alg».proof.Proof.RefInput
import proofs.«144449_j22325240004851_1_alg».proof.Proof.RefEdges
import proofs.«144449_j22325240004851_1_alg».proof.Proof.RefEdgeRows
import proofs.«144449_j22325240004851_1_alg».proof.Proof.RefOutput

noncomputable section

namespace Cert.ReferenceNet

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (x0 : (⟨S100000x128, .f32⟩ : BufTy).Contents (Elt Ideal))
  (x1 : (⟨S2x600000, .i32⟩ : BufTy).Contents (Elt Ideal)) (x2 : (⟨S600000, .i32⟩ : BufTy).Contents (Elt Ideal))
  (x3 : (⟨S128x128, .f32⟩ : BufTy).Contents (Elt Ideal)) (x4 : (⟨S128, .f32⟩ : BufTy).Contents (Elt Ideal))
  (x5 : (⟨S2x8x128x128, .f32⟩ : BufTy).Contents (Elt Ideal))
  (x7 x8 : (⟨S2x384x128, .f32⟩ : BufTy).Contents (Elt Ideal)) (x9 x10 : (⟨S2x384, .f32⟩ : BufTy).Contents (Elt Ideal))
  (x11 : (⟨S128x128, .f32⟩ : BufTy).Contents (Elt Ideal)) (x12 : (⟨S128, .f32⟩ : BufTy).Contents (Elt Ideal))

/-- The reference's result, as a function of the arguments, is the network of the specification with the
    reference's summation into the destination nodes as the aggregation. -/
theorem value_of (hg : GatherPicksOwnType)
    (g0 : val_main_v77 (F := Ideal) x0 x1 x2 x3 x4 x5 x7 x8 x9 x10
      = Cert.GraphSpec.gatedRows (val_main_v30 (F := Ideal) x0 x1 x2 x3 x4 x5) (val_main_v9 (F := Ideal) x0 x3 x4)
          (Cert.GraphSpec.roundWeights x7 0) (Cert.GraphSpec.roundWeights x8 0)
          (Cert.GraphSpec.roundBias x9 0) (Cert.GraphSpec.roundBias x10 0))
    (g1 : val_main_v145 (F := Ideal) x0 x1 x2 x3 x4 x5 x7 x8 x9 x10
      = Cert.GraphSpec.gatedRows (val_main_v98 (F := Ideal) x0 x1 x2 x3 x4 x5 x7 x8 x9 x10)
          (val_main_v77 (F := Ideal) x0 x1 x2 x3 x4 x5 x7 x8 x9 x10)
          (Cert.GraphSpec.roundWeights x7 1) (Cert.GraphSpec.roundWeights x8 1)
          (Cert.GraphSpec.roundBias x9 1) (Cert.GraphSpec.roundBias x10 1)) :
    val_main_v150 (F := Ideal) x0 x1 x2 x3 x4 x5 x7 x8 x9 x10 x11 x12
      = Cert.GraphSpec.networkOfArgs (aggregate (Cert.GraphSpec.edgeEnds x1 1))
          x0 x1 x2 x3 x4 x5 x7 x8 x9 x10 x11 x12 := by
  rw [output_map, g1, aggregate_second, edge_rows_second x0 x1 x2 x3 x4 x5 x7 x8 x9 x10 hg, g0, aggregate_first,
    edge_rows_first x0 x1 x2 x3 x4 x5 hg, input_map, wrapped_sources, wrapped_types, wrapped_sources', wrapped_types',
    edge_sources, edge_destinations]
  rfl

end Cert.ReferenceNet

end
-- ==== Proof.RefGate.lean ====
/-
  The two gated-update layers of the reference program are the gated update of the specification.

  In each round the reference slices that round's gate weights (384 x 128) and biases (384) out of the stacked
  arguments, forms gi = aggregate * W_i^T + b_i and gh = state * W_h^T + b_h by a contraction with the transposed
  weight and a bias broadcast over the 100000 rows, cuts both into three groups of 128 columns, and combines them
  entry by entry: r = 1 / (1 + exp (-(gi_0 + gh_0))), z = 1 / (1 + exp (-(gi_1 + gh_1))), c = tanh (gi_2 + r * gh_2),
  and the new state is max ((1 - z) * c + z * state, 0).

  Read at an index (n, q), the contraction against the transposed weight is the sum over k of row n of the left array
  against ROW g of the weight, which is the specification's affine map of rows; the column groups are the columns
  q, 128 + q and 256 + q; and 1 / (1 + exp (-x)) with the float word of 1.0 is the logistic function, because that
  word denotes the number one. The aggregate and the old state are kept as they are: nothing is assumed about them.
-/
import proofs.«144449_j22325240004851_1_alg».proof.Proof.Gen.ReferenceIdeal.Read
import proofs.«144449_j22325240004851_1_alg».proof.Proof.GraphSpec
import Idealize.ShloMosaic.Lib.ValueIdx
import Idealize.ShloMosaic.PureOps.Ideal.Laws

noncomputable section

namespace Cert.ReferenceNet

open Idealize.ShloMosaic Idealize.ShloMosaic.ValueIdx Cert.ReferenceIdeal Cert.ReferenceIdeal.Read Cert.GraphSpec

/-- The logistic function spelled out with the float word of 1.0: 1 / (1 + exp (-x)). -/
theorem logistic_spelled (x : EReal) :
    Ideal.div (Ideal.ofBits .f32 0x3F800000#32) (Ideal.ofBits .f32 0x3F800000#32 + Ideal.exp (-x)) = Ideal.logistic x := by
  rw [ofBits_one]; rfl

variable (x0 : (⟨S100000x128, .f32⟩ : BufTy).Contents (Elt Ideal)) (x1 : (⟨S2x600000, .i32⟩ : BufTy).Contents (Elt Ideal))
  (x2 : (⟨S600000, .i32⟩ : BufTy).Contents (Elt Ideal)) (x3 : (⟨S128x128, .f32⟩ : BufTy).Contents (Elt Ideal))
  (x4 : (⟨S128, .f32⟩ : BufTy).Contents (Elt Ideal)) (x5 : (⟨S2x8x128x128, .f32⟩ : BufTy).Contents (Elt Ideal))
  (x7 x8 : (⟨S2x384x128, .f32⟩ : BufTy).Contents (Elt Ideal)) (x9 x10 : (⟨S2x384, .f32⟩ : BufTy).Contents (Elt Ideal))

/-! ## Round 0 -/

/-- The weight of the aggregate's map as the contraction reads it: the transposed, reshaped slice of the stacked
    weights at (k, g) is entry (g, k) of round 0's weights. -/
theorem weightIdxI0 (g : Fin 384) (k : Fin 128) :
    idx_main_v31 (idx_main_v32 (idx_main_v39 (ix2 k g))) = ix3 (0 : Fin 2) g k :=
  funext fun a => Fin.ext (by
    match a with
    | ⟨0, _⟩ => rfl
    | ⟨1, _⟩ => show (g.val * 128 + k.val) / 128 % 384 = g.val; omega
    | ⟨2, _⟩ => show (g.val * 128 + k.val) % 128 = k.val; omega)

theorem weightI0 (g : Fin 384) (k : Fin 128) :
    val_main_v39 (F := Ideal) x7 (ix2 k g) = roundWeights x7 0 (ix2 g k) := by
  rw [val_main_v39_apply, val_main_v32_apply, val_main_v31_apply, weightIdxI0]
  rfl

/-- The same for the state's map. -/
theorem weightIdxH0 (g : Fin 384) (k : Fin 128) :
    idx_main_v33 (idx_main_v34 (idx_main_v44 (ix2 k g))) = ix3 (0 : Fin 2) g k :=
  funext fun a => Fin.ext (by
    match a with
    | ⟨0, _⟩ => rfl
    | ⟨1, _⟩ => show (g.val * 128 + k.val) / 128 % 384 = g.val; omega
    | ⟨2, _⟩ => show (g.val * 128 + k.val) % 128 = k.val; omega)

theorem weightH0 (g : Fin 384) (k : Fin 128) :
    val_main_v44 (F := Ideal) x8 (ix2 k g) = roundWeights x8 0 (ix2 g k) := by
  rw [val_main_v44_apply, val_main_v34_apply, val_main_v33_apply, weightIdxH0]
  rfl

/-- The bias broadcast over the rows reads the stacked bias at (0, g), whatever the row. -/
theorem biasIdxI0 (n : Fin 100000) (g : Fin 384) :
    idx_main_v35 (idx_main_v36 (idx_main_v41 (idx_main_v42 (ix2 n g)))) = ix2 (0 : Fin 2) g :=
  funext fun a => Fin.ext (by
    match a with
    | ⟨0, _⟩ => rfl
    | ⟨1, _⟩ => show g.val % 384 = g.val; omega)

theorem biasIdxH0 (n : Fin 100000) (g : Fin 384) :
    idx_main_v37 (idx_main_v38 (idx_main_v46 (idx_main_v47 (ix2 n g)))) = ix2 (0 : Fin 2) g :=
  funext fun a => Fin.ext (by
    match a with
    | ⟨0, _⟩ => rfl
    | ⟨1, _⟩ => show g.val % 384 = g.val; omega)

/-- The aggregate's pre-activations: the contraction with the transposed weight plus the broadcast bias is the
    affine map of rows against the rows of round 0's weights. -/
theorem gi0_apply (n : Fin 100000) (g : Fin 384) :
    val_main_v43 (F := Ideal) x0 x1 x2 x3 x4 x5 x7 x9 (ix2 n g)
      = affineRows (val_main_v30 (F := Ideal) x0 x1 x2 x3 x4 x5) (roundWeights x7 0) (roundBias x9 0) (ix2 n g) := by
  rw [val_main_v43_apply, val_main_v40_apply, val_main_v42_apply, val_main_v41_apply, val_main_v36_apply,
    val_main_v35_apply, biasIdxI0]
  generalize val_main_v30 (F := Ideal) x0 x1 x2 x3 x4 x5 = a
  unfold affineRows
  rw [Ideal.addf_def]
  congr 1
  refine Finset.sum_congr rfl fun k _ => ?_
  rw [show lidx_main_v40 (ix2 n g) k = ix2 n k from
        funext fun a => Fin.ext (by match a with | ⟨0, _⟩ => rfl | ⟨1, _⟩ => rfl),
      show ridx_main_v40 (ix2 n g) k = ix2 k g from
        funext fun a => Fin.ext (by match a with | ⟨0, _⟩ => rfl | ⟨1, _⟩ => rfl),
      weightI0]

/-- The state's pre-activations, likewise. -/
theorem gh0_apply (n : Fin 100000) (g : Fin 384) :
    val_main_v48 (F := Ideal) x0 x3 x4 x8 x10 (ix2 n g)
      = affineRows (val_main_v9 (F := Ideal) x0 x3 x4) (roundWeights x8 0) (roundBias x10 0) (ix2 n g) := by
  rw [val_main_v48_apply, val_main_v45_apply, val_main_v47_apply, val_main_v46_apply, val_main_v38_apply,
    val_main_v37_apply, biasIdxH0]
  generalize val_main_v9 (F := Ideal) x0 x3 x4 = h
  unfold affineRows
  rw [Ideal.addf_def]
  congr 1
  refine Finset.sum_congr rfl fun k _ => ?_
  rw [show lidx_main_v45 (ix2 n g) k = ix2 n k from
        funext fun a => Fin.ext (by match a with | ⟨0, _⟩ => rfl | ⟨1, _⟩ => rfl),
      show ridx_main_v45 (ix2 n g) k = ix2 k g from
        funext fun a => Fin.ext (by match a with | ⟨0, _⟩ => rfl | ⟨1, _⟩ => rfl),
      weightH0]

/-- The three column groups of the two pre-activation arrays: group c of column q is column 128 * c + q. -/
theorem colIdx49 (p : Fin 100000) (q : Fin 128) :
    idx_main_v49 (ix2 p q) = ix2 p (⟨q.val, by omega⟩ : Fin 384) :=
  funext fun a => Fin.ext (by match a with | ⟨0, _⟩ => rfl | ⟨1, _⟩ => rfl)
theorem colIdx50 (p : Fin 100000) (q : Fin 128) :
    idx_main_v50 (ix2 p q) = ix2 p (⟨128 + q.val, by omega⟩ : Fin 384) :=
  funext fun a => Fin.ext (by match a with | ⟨0, _⟩ => rfl | ⟨1, _⟩ => rfl)
theorem colIdx51 (p : Fin 100000) (q : Fin 128) :
    idx_main_v51 (ix2 p q) = ix2 p (⟨256 + q.val, by omega⟩ : Fin 384) :=
  funext fun a => Fin.ext (by match a with | ⟨0, _⟩ => rfl | ⟨1, _⟩ => rfl)
theorem colIdx52 (p : Fin 100000) (q : Fin 128) :
    idx_main_v52 (ix2 p q) = ix2 p (⟨q.val, by omega⟩ : Fin 384) :=
  funext fun a => Fin.ext (by match a with | ⟨0, _⟩ => rfl | ⟨1, _⟩ => rfl)
theorem colIdx53 (p : Fin 100000) (q : Fin 128) :
    idx_main_v53 (ix2 p q) = ix2 p (⟨128 + q.val, by omega⟩ : Fin 384) :=
  funext fun a => Fin.ext (by match a with | ⟨0, _⟩ => rfl | ⟨1, _⟩ => rfl)
theorem colIdx54 (p : Fin 100000) (q : Fin 128) :
    idx_main_v54 (ix2 p q) = ix2 p (⟨256 + q.val, by omega⟩ : Fin 384) :=
  funext fun a => Fin.ext (by match a with | ⟨0, _⟩ => rfl | ⟨1, _⟩ => rfl)

/-- Round 0 of the reference is the gated update of the state by the aggregate. -/
theorem gate0 :
    val_main_v77 (F := Ideal) x0 x1 x2 x3 x4 x5 x7 x8 x9 x10
      = gatedRows (val_main_v30 (F := Ideal) x0 x1 x2 x3 x4 x5) (val_main_v9 (F := Ideal) x0 x3 x4)
          (roundWeights x7 0) (roundWeights x8 0) (roundBias x9 0) (roundBias x10 0) := by
  funext i
  obtain ⟨p, q, rfl⟩ : ∃ (p : Fin 100000) (q : Fin 128), i = ix2 p q := ⟨i 0, i 1, eq_ix2 i⟩
  rw [val_main_v77_apply, val_main_call1_v0_apply, val_main_call1_cst_apply,
    val_main_v76_apply, val_main_v75_apply, val_main_v74_apply, val_main_v73_apply, val_main_v72_apply, val_main_cst_7_apply,
    val_main_v71_apply, val_main_v70_apply, val_main_v69_apply,
    val_main_v68_apply, val_main_v67_apply, val_main_cst_6_apply, val_main_v66_apply, val_main_v65_apply, val_main_cst_5_apply,
    val_main_v64_apply, val_main_v63_apply, val_main_v62_apply,
    val_main_v61_apply, val_main_v60_apply, val_main_cst_4_apply, val_main_v59_apply, val_main_v58_apply, val_main_cst_3_apply,
    val_main_v57_apply, val_main_v56_apply, val_main_v55_apply,
    val_main_v49_apply, val_main_v50_apply, val_main_v51_apply, val_main_v52_apply, val_main_v53_apply, val_main_v54_apply,
    colIdx49, colIdx50, colIdx51, colIdx52, colIdx53, colIdx54]
  simp only [gi0_apply, gh0_apply]
  generalize val_main_v30 (F := Ideal) x0 x1 x2 x3 x4 x5 = a
  generalize val_main_v9 (F := Ideal) x0 x3 x4 = h
  simp only [Ideal.maximumf_def, Ideal.addf_def, Ideal.subf_def, Ideal.mulf_def, Ideal.hostDivf_def,
    Ideal.hostUnary_exp_def, Ideal.hostUnary_tanh_def, Ideal.hostNegf_def, Ideal.negf_def, Ideal.ofBits_def,
    logistic_spelled]
  rfl

/-! ## Round 1 -/

/-- The weight of the aggregate's map as the contraction reads it: the transposed, reshaped slice of the stacked
    weights at (k, g) is entry (g, k) of round 1's weights. -/
theorem weightIdxI1 (g : Fin 384) (k : Fin 128) :
    idx_main_v99 (idx_main_v100 (idx_main_v107 (ix2 k g))) = ix3 (1 : Fin 2) g k :=
  funext fun a => Fin.ext (by
    match a with
    | ⟨0, _⟩ => rfl
    | ⟨1, _⟩ => show (g.val * 128 + k.val) / 128 % 384 = g.val; omega
    | ⟨2, _⟩ => show (g.val * 128 + k.val) % 128 = k.val; omega)

theorem weightI1 (g : Fin 384) (k : Fin 128) :
    val_main_v107 (F := Ideal) x7 (ix2 k g) = roundWeights x7 1 (ix2 g k) := by
  rw [val_main_v107_apply, val_main_v100_apply, val_main_v99_apply, weightIdxI1]
  rfl

/-- The same for the state's map. -/
theorem weightIdxH1 (g : Fin 384) (k : Fin 128) :
    idx_main_v101 (idx_main_v102 (idx_main_v112 (ix2 k g))) = ix3 (1 : Fin 2) g k :=
  funext fun a => Fin.ext (by
    match a with
    | ⟨0, _⟩ => rfl
    | ⟨1, _⟩ => show (g.val * 128 + k.val) / 128 % 384 = g.val; omega
    | ⟨2, _⟩ => show (g.val * 128 + k.val) % 128 = k.val; omega)

theorem weightH1 (g : Fin 384) (k : Fin 128) :
    val_main_v112 (F := Ideal) x8 (ix2 k g) = roundWeights x8 1 (ix2 g k) := by
  rw [val_main_v112_apply, val_main_v102_apply, val_main_v101_apply, weightIdxH1]
  rfl

/-- The bias broadcast over the rows reads the stacked bias at (1, g), whatever the row. -/
theorem biasIdxI1 (n : Fin 100000) (g : Fin 384) :
    idx_main_v103 (idx_main_v104 (idx_main_v109 (idx_main_v110 (ix2 n g)))) = ix2 (1 : Fin 2) g :=
  funext fun a => Fin.ext (by
    match a with
    | ⟨0, _⟩ => rfl
    | ⟨1, _⟩ => show g.val % 384 = g.val; omega)

theorem biasIdxH1 (n : Fin 100000) (g : Fin 384) :
    idx_main_v105 (idx_main_v106 (idx_main_v114 (idx_main_v115 (ix2 n g)))) = ix2 (1 : Fin 2) g :=
  funext fun a => Fin.ext (by
    match a with
    | ⟨0, _⟩ => rfl
    | ⟨1, _⟩ => show g.val % 384 = g.val; omega)

/-- The aggregate's pre-activations: the contraction with the transposed weight plus the broadcast bias is the
    affine map of rows against the rows of round 1's weights. -/
theorem gi1_apply (n : Fin 100000) (g : Fin 384) :
    val_main_v111 (F := Ideal) x0 x1 x2 x3 x4 x5 x7 x8 x9 x10 (ix2 n g)
      = affineRows (val_main_v98 (F := Ideal) x0 x1 x2 x3 x4 x5 x7 x8 x9 x10) (roundWeights x7 1) (roundBias x9 1) (ix2 n g) := by
  rw [val_main_v111_apply, val_main_v108_apply, val_main_v110_apply, val_main_v109_apply, val_main_v104_apply,
    val_main_v103_apply, biasIdxI1]
  generalize val_main_v98 (F := Ideal) x0 x1 x2 x3 x4 x5 x7 x8 x9 x10 = a
  unfold affineRows
  rw [Ideal.addf_def]
  congr 1
  refine Finset.sum_congr rfl fun k _ => ?_
  rw [show lidx_main_v108 (ix2 n g) k = ix2 n k from
        funext fun a => Fin.ext (by match a with | ⟨0, _⟩ => rfl | ⟨1, _⟩ => rfl),
      show ridx_main_v108 (ix2 n g) k = ix2 k g from
        funext fun a => Fin.ext (by match a with | ⟨0, _⟩ => rfl | ⟨1, _⟩ => rfl),
      weightI1]

/-- The state's pre-activations, likewise. -/
theorem gh1_apply (n : Fin 100000) (g : Fin 384) :
    val_main_v116 (F := Ideal) x0 x1 x2 x3 x4 x5 x7 x8 x9 x10 (ix2 n g)
      = affineRows (val_main_v77 (F := Ideal) x0 x1 x2 x3 x4 x5 x7 x8 x9 x10) (roundWeights x8 1) (roundBias x10 1) (ix2 n g) := by
  rw [val_main_v116_apply, val_main_v113_apply, val_main_v115_apply, val_main_v114_apply, val_main_v106_apply,
    val_main_v105_apply, biasIdxH1]
  generalize val_main_v77 (F := Ideal) x0 x1 x2 x3 x4 x5 x7 x8 x9 x10 = h
  unfold affineRows
  rw [Ideal.addf_def]
  congr 1
  refine Finset.sum_congr rfl fun k _ => ?_
  rw [show lidx_main_v113 (ix2 n g) k = ix2 n k from
        funext fun a => Fin.ext (by match a with | ⟨0, _⟩ => rfl | ⟨1, _⟩ => rfl),
      show ridx_main_v113 (ix2 n g) k = ix2 k g from
        funext fun a => Fin.ext (by match a with | ⟨0, _⟩ => rfl | ⟨1, _⟩ => rfl),
      weightH1]

/-- The three column groups of the two pre-activation arrays: group c of column q is column 128 * c + q. -/
theorem colIdx117 (p : Fin 100000) (q : Fin 128) :
    idx_main_v117 (ix2 p q) = ix2 p (⟨q.val, by omega⟩ : Fin 384) :=
  funext fun a => Fin.ext (by match a with | ⟨0, _⟩ => rfl | ⟨1, _⟩ => rfl)
theorem colIdx118 (p : Fin 100000) (q : Fin 128) :
    idx_main_v118 (ix2 p q) = ix2 p (⟨128 + q.val, by omega⟩ : Fin 384) :=
  funext fun a => Fin.ext (by match a with | ⟨0, _⟩ => rfl | ⟨1, _⟩ => rfl)
theorem colIdx119 (p : Fin 100000) (q : Fin 128) :
    idx_main_v119 (ix2 p q) = ix2 p (⟨256 + q.val, by omega⟩ : Fin 384) :=
  funext fun a => Fin.ext (by match a with | ⟨0, _⟩ => rfl | ⟨1, _⟩ => rfl)
theorem colIdx120 (p : Fin 100000) (q : Fin 128) :
    idx_main_v120 (ix2 p q) = ix2 p (⟨q.val, by omega⟩ : Fin 384) :=
  funext fun a => Fin.ext (by match a with | ⟨0, _⟩ => rfl | ⟨1, _⟩ => rfl)
theorem colIdx121 (p : Fin 100000) (q : Fin 128) :
    idx_main_v121 (ix2 p q) = ix2 p (⟨128 + q.val, by omega⟩ : Fin 384) :=
  funext fun a => Fin.ext (by match a with | ⟨0, _⟩ => rfl | ⟨1, _⟩ => rfl)
theorem colIdx122 (p : Fin 100000) (q : Fin 128) :
    idx_main_v122 (ix2 p q) = ix2 p (⟨256 + q.val, by omega⟩ : Fin 384) :=
  funext fun a => Fin.ext (by match a with | ⟨0, _⟩ => rfl | ⟨1, _⟩ => rfl)

/-- Round 1 of the reference is the gated update of the state by the aggregate. -/
theorem gate1 :
    val_main_v145 (F := Ideal) x0 x1 x2 x3 x4 x5 x7 x8 x9 x10
      = gatedRows (val_main_v98 (F := Ideal) x0 x1 x2 x3 x4 x5 x7 x8 x9 x10) (val_main_v77 (F := Ideal) x0 x1 x2 x3 x4 x5 x7 x8 x9 x10)
          (roundWeights x7 1) (roundWeights x8 1) (roundBias x9 1) (roundBias x10 1) := by
  funext i
  obtain ⟨p, q, rfl⟩ : ∃ (p : Fin 100000) (q : Fin 128), i = ix2 p q := ⟨i 0, i 1, eq_ix2 i⟩
  rw [val_main_v145_apply, val_main_call2_v0_apply, val_main_call2_cst_apply,
    val_main_v144_apply, val_main_v143_apply, val_main_v142_apply, val_main_v141_apply, val_main_v140_apply, val_main_cst_17_apply,
    val_main_v139_apply, val_main_v138_apply, val_main_v137_apply,
    val_main_v136_apply, val_main_v135_apply, val_main_cst_16_apply, val_main_v134_apply, val_main_v133_apply, val_main_cst_15_apply,
    val_main_v132_apply, val_main_v131_apply, val_main_v130_apply,
    val_main_v129_apply, val_main_v128_apply, val_main_cst_14_apply, val_main_v127_apply, val_main_v126_apply, val_main_cst_13_apply,
    val_main_v125_apply, val_main_v124_apply, val_main_v123_apply,
    val_main_v117_apply, val_main_v118_apply, val_main_v119_apply, val_main_v120_apply, val_main_v121_apply, val_main_v122_apply,
    colIdx117, colIdx118, colIdx119, colIdx120, colIdx121, colIdx122]
  simp only [gi1_apply, gh1_apply]
  generalize val_main_v98 (F := Ideal) x0 x1 x2 x3 x4 x5 x7 x8 x9 x10 = a
  generalize val_main_v77 (F := Ideal) x0 x1 x2 x3 x4 x5 x7 x8 x9 x10 = h
  simp only [Ideal.maximumf_def, Ideal.addf_def, Ideal.subf_def, Ideal.mulf_def, Ideal.hostDivf_def,
    Ideal.hostUnary_exp_def, Ideal.hostUnary_tanh_def, Ideal.hostNegf_def, Ideal.negf_def, Ideal.ofBits_def,
    logistic_spelled]
  rfl

end Cert.ReferenceNet

end
-- ==== Proof.RefValue.lean ====
/-
  The value of the reference program.

  The chain of layer identifications needs three facts proved on their own: that the gather of the reference
  picks, for every edge, the entries of its own type among its source node's typed messages, and that each of
  the two gated updates of the reference is the specification's gated update of the aggregate and the previous
  states.  With them, the reference's result is the gated graph network of the specification, the reference's
  summation into the destination nodes being the aggregation.
-/
import proofs.«144449_j22325240004851_1_alg».proof.Proof.Gen.ReferenceIdeal.Read
import proofs.«144449_j22325240004851_1_alg».proof.Proof.GraphSpec
import proofs.«144449_j22325240004851_1_alg».proof.Proof.RefAggregate
import proofs.«144449_j22325240004851_1_alg».proof.Proof.RefEdgeRows
import proofs.«144449_j22325240004851_1_alg».proof.Proof.RefNetwork
import proofs.«144449_j22325240004851_1_alg».proof.Proof.EdgeGather
import proofs.«144449_j22325240004851_1_alg».proof.Proof.RefGate

noncomputable section

namespace Cert.ReferenceNet

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The gather of the reference picks every edge's own type at its source node. -/
theorem gather_picks_own_type : GatherPicksOwnType :=
  fun R T hRT src ty hb hcat => Cert.EdgeGather.reference_rows R T hRT src ty hb hcat

/-- The reference's result is the network of the specification, with the reference's summation of the edges' rows
    into the destination nodes as the aggregation. -/
theorem value (x0 : (⟨S100000x128, .f32⟩ : BufTy).Contents (Elt Ideal))
    (x1 : (⟨S2x600000, .i32⟩ : BufTy).Contents (Elt Ideal)) (x2 : (⟨S600000, .i32⟩ : BufTy).Contents (Elt Ideal))
    (x3 : (⟨S128x128, .f32⟩ : BufTy).Contents (Elt Ideal)) (x4 : (⟨S128, .f32⟩ : BufTy).Contents (Elt Ideal))
    (x5 : (⟨S2x8x128x128, .f32⟩ : BufTy).Contents (Elt Ideal))
    (x7 x8 : (⟨S2x384x128, .f32⟩ : BufTy).Contents (Elt Ideal)) (x9 x10 : (⟨S2x384, .f32⟩ : BufTy).Contents (Elt Ideal))
    (x11 : (⟨S128x128, .f32⟩ : BufTy).Contents (Elt Ideal)) (x12 : (⟨S128, .f32⟩ : BufTy).Contents (Elt Ideal)) :
    val_main_v150 (F := Ideal) x0 x1 x2 x3 x4 x5 x7 x8 x9 x10 x11 x12
      = Cert.GraphSpec.networkOfArgs (aggregate (Cert.GraphSpec.edgeEnds x1 1))
          x0 x1 x2 x3 x4 x5 x7 x8 x9 x10 x11 x12 :=
  value_of x0 x1 x2 x3 x4 x5 x7 x8 x9 x10 x11 x12 gather_picks_own_type
    (gate0 x0 x1 x2 x3 x4 x5 x7 x8 x9 x10) (gate1 x0 x1 x2 x3 x4 x5 x7 x8 x9 x10)

end Cert.ReferenceNet

end
-- ==== Proof.lean ====
/-
  The certificate: the kernel program against its reference, a gated graph network over 100000 nodes and 600000
  typed edges.

  Both programs compute, for thirteen arguments, the same network (Proof/GraphSpec.lean): an affine map of the node
  features with positive part; two rounds in which every node's state is mapped once per edge type, every edge
  picks its type's row at its source node, the rows are summed into the destination nodes, and a gated update
  with positive part makes the new state from the sums and the old state; and an affine map of the last state.
  The kernel program computes the maps, the typed messages and the gated updates in six pipelined regions, 2000
  nodes per grid point, with the edge steps on the host between them; the reference computes everything on the
  host. At the ideal instance the two differ only in arrangement: blocks against whole arrays, the typed messages
  laid out node-major against type-major, the logistic function as one operation against its spelling
  1 / (1 + exp (-x)). No law of the extended reals beyond the definitions is needed, so the precondition is not
  used beyond the frames.

  The three frames: the two kernel programs' are generated; the reference's is its generated run with the result
  dropped. The idealization rewrote nothing, so `preserves` is trivial. The algebraic claim joins the kernel
  program's run with the result named (Proof/KernelRun.lean), the result as the network of the arguments
  (Proof/KernelValue.lean), the reference's generated run, and the reference's result as the same network
  (Proof/RefValue.lean); the two summations of the edges' rows are one host operation on the same operands.
-/
import proofs.«144449_j22325240004851_1_alg».proof.Defs
import proofs.«144449_j22325240004851_1_alg».proof.Proof.Gen.Kernel
import proofs.«144449_j22325240004851_1_alg».proof.Proof.Gen.Kernel.Skeleton
import proofs.«144449_j22325240004851_1_alg».proof.Proof.Gen.Kernel.Launch
import proofs.«144449_j22325240004851_1_alg».proof.Proof.Gen.Kernel.Points
import proofs.«144449_j22325240004851_1_alg».proof.Proof.Gen.Kernel.Frame
import proofs.«144449_j22325240004851_1_alg».proof.Proof.Gen.KernelIdeal
import proofs.«144449_j22325240004851_1_alg».proof.Proof.Gen.KernelIdeal.Skeleton
import proofs.«144449_j22325240004851_1_alg».proof.Proof.Gen.KernelIdeal.Launch
import proofs.«144449_j22325240004851_1_alg».proof.Proof.Gen.KernelIdeal.Points
import proofs.«144449_j22325240004851_1_alg».proof.Proof.Gen.KernelIdeal.Frame
import proofs.«144449_j22325240004851_1_alg».proof.Proof.Gen.ReferenceIdeal
import proofs.«144449_j22325240004851_1_alg».proof.Proof.Gen.Pre_finite_inputs
import proofs.«144449_j22325240004851_1_alg».proof.Proof.Gen.ReferenceIdeal.Run
import proofs.«144449_j22325240004851_1_alg».proof.Proof.Gen.ReferenceIdeal.Read
import proofs.«144449_j22325240004851_1_alg».proof.Proof.KernelRun
import proofs.«144449_j22325240004851_1_alg».proof.Proof.KernelValue
import proofs.«144449_j22325240004851_1_alg».proof.Proof.RefValue
import Idealize.ShloMosaic.Adequacy
import Idealize.ShloMosaic.Init

noncomputable section

namespace Cert.Proof

open Idealize.ShloMosaic Idealize.ShloMosaic.TcCoe Idealize.SL.Sem

/-- The two programs sum the edges' rows into the destinations by the same host operation with the same
    dimension numbers, from the same zeros. -/
theorem aggregate_eq (dst : Cert.KernelIdeal.S600000.Idx → BitVec 32) (u : Cert.KernelIdeal.S600000x128.Idx → EReal) :
    Cert.ReferenceNet.aggregate dst u = Cert.KernelIdeal.Net.aggregate dst u := rfl

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the network of the arguments in their
    result buffers. -/
theorem algebraic : Cert.algebraic_KernelIdeal_ReferenceIdeal := by
  intro m ρ m' ρ' _ hagree
  refine ⟨fun c => Cert.GraphSpec.networkOfArgs
      (Cert.KernelIdeal.Net.aggregate (Cert.GraphSpec.edgeEnds (m ((c.tc : Thread Cert.KernelIdeal.nD Cert.KernelIdeal.τ).loc Cert.KernelIdeal.main_arg1)) 1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Net.value m ρ c), (h c).2⟩)
      (Cert.KernelIdeal.NamedRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.ReferenceIdeal.Read.val_main_v150_eq, Cert.ReferenceNet.value, e0, e1, e2, e3, e4, e5, e7, e8, e9, e10, e11, e12]
    exact congrArg (fun g => Cert.GraphSpec.networkOfArgs g _ _ _ _ _ _ _ _ _ _ _ _) (funext fun u => aggregate_eq _ u)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
